-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S3000000 : Shape := ⟨1, ![3000000]⟩
abbrev S3000000x1 : Shape := ⟨2, ![3000000, 1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S3000000 : S_.BroadcastsInDim S3000000 (![] : Fin 0 → Fin S3000000.rank)
  reducesTo_S3000000_S_d0 : S3000000.ReducesTo [0] S_
  bcast_S_S3000000x1 : S_.BroadcastsInDim S3000000x1 (![] : Fin 0 → Fin S3000000x1.rank)
  reducesTo_S3000000x1_S_d0_1 : S3000000x1.ReducesTo [0, 1] S_

variable [Facts]

def fn {F : FTy → Type} [FloatOps F] (main_arg0 : FVec F S1000000 .f32) (main_arg1 : FVec F S3000000 .f32) (main_arg2 : FVec F S3000000x1 .f32) (main_arg3 : IVec S3000000 32) (main_arg4 : IVec S3000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S3000000 .f32 := Host.absf main_arg1
  let main_cst_0 : FVec F S_ .f32 := constant S_ .f32 0x7F800000#32
  let main_v5 : FVec F S3000000 .f32 := broadcastInDim S3000000 ![] bcast_S_S3000000 main_cst_0
  let main_v6 : IVec S3000000 1 := cmpf .olt main_v4 main_v5
  let main_c_1 : IVec S_ 1 := constantI S_ 1 1#1
  let main_v7 : IVec S_ 1 := (fun x v => Host.reduce IntOp.andi x v reducesTo_S3000000_S_d0 h_S_) main_v6 main_c_1
  let main_v8 : IVec S_ 1 := andi main_v3 main_v7
  let main_v9 : FVec F S3000000x1 .f32 := Host.absf main_arg2
  let main_cst_2 : FVec F S_ .f32 := constant S_ .f32 0x7F800000#32
  let main_v10 : FVec F S3000000x1 .f32 := broadcastInDim S3000000x1 ![] bcast_S_S3000000x1 main_cst_2
  let main_v11 : IVec S3000000x1 1 := cmpf .olt main_v9 main_v10
  let main_c_3 : IVec S_ 1 := constantI S_ 1 1#1
  let main_v12 : IVec S_ 1 := (fun x v => Host.reduce IntOp.andi x v reducesTo_S3000000x1_S_d0_1 h_S_) main_v11 main_c_3
  let main_v13 : IVec S_ 1 := andi main_v8 main_v12
  main_v13
-- ==== Kernel.lean ====
abbrev S1000000 : Shape := ⟨1, ![1000000]⟩
abbrev S3000000 : Shape := ⟨1, ![3000000]⟩
abbrev S3000000x1 : Shape := ⟨2, ![3000000, 1]⟩
abbrev S7x6 : Shape := ⟨2, ![7, 6]⟩
abbrev S_ : Shape := ⟨0, ![]⟩
abbrev S3000000x42 : Shape := ⟨2, ![3000000, 42]⟩
abbrev S1000x1 : Shape := ⟨2, ![1000, 1]⟩
abbrev S1000x42 : Shape := ⟨2, ![1000, 42]⟩
abbrev S1x6 : Shape := ⟨2, ![1, 6]⟩
abbrev S6 : Shape := ⟨1, ![6]⟩
abbrev S1000x6 : Shape := ⟨2, ![1000, 6]⟩

abbrev nBuf : Space → Nat
  | .hbm => 19
  | .vmem => 10
  | .smem => 0
  | _ => 0

abbrev bufTy : (tb : Table) → Fin (tcTables nBuf tb) → BufTy
  | .hbm, ⟨0, _⟩ => ⟨S1000000, .f32⟩
  | .hbm, ⟨1, _⟩ => ⟨S3000000, .f32⟩
  | .hbm, ⟨2, _⟩ => ⟨S3000000x1, .f32⟩
  | .hbm, ⟨3, _⟩ => ⟨S3000000, .i32⟩
  | .hbm, ⟨4, _⟩ => ⟨S3000000, .i32⟩
  | .hbm, ⟨5, _⟩ => ⟨S7x6, .f32⟩
  | .hbm, ⟨6, _⟩ => ⟨S7x6, .f32⟩
  | .hbm, ⟨7, _⟩ => ⟨S_, .i32⟩
  | .hbm, ⟨8, _⟩ => ⟨S3000000, .i32⟩
  | .hbm, ⟨9, _⟩ => ⟨S3000000, .i1⟩
  | .hbm, ⟨10, _⟩ => ⟨S_, .i32⟩
  | .hbm, ⟨11, _⟩ => ⟨S3000000, .i32⟩
  | .hbm, ⟨12, _⟩ => ⟨S3000000, .i32⟩
  | .hbm, ⟨13, _⟩ => ⟨S3000000, .i32⟩
  | .hbm, ⟨14, _⟩ => ⟨S3000000x1, .i32⟩
  | .hbm, ⟨15, _⟩ => ⟨S3000000, .f32⟩
  | .hbm, ⟨16, _⟩ => ⟨S3000000x1, .f32⟩
  | .hbm, ⟨17, _⟩ => ⟨S3000000x1, .f32⟩
  | .hbm, ⟨18, _⟩ => ⟨S3000000x42, .f32⟩
  | .local _ .vmem, ⟨0, _⟩ => ⟨S1000x1, .f32⟩
  | .local _ .vmem, ⟨1, _⟩ => ⟨S1000x1, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S7x6, .f32⟩
  | .local _ .vmem, ⟨7, _⟩ => ⟨S7x6, .f32⟩
  | .local _ .vmem, ⟨8, _⟩ => ⟨S1000x42, .f32⟩
  | .local _ .vmem, ⟨9, _⟩ => ⟨S1000x42, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x42 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S3000000 : S_.BroadcastsInDim S3000000 (![] : Fin 0 → Fin S3000000.rank)
  bcast_S3000000_S3000000x1_0 : S3000000.BroadcastsInDim S3000000x1 (![0] : Fin 1 → Fin S3000000x1.rank)
  shapeCasts_S3000000_S3000000x1 : S3000000.ShapeCasts S3000000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S7x6_S7x6_0_0 : ∀ a, (![0, 0] : Fin 2 → Nat) a + S7x6.size a ≤ S7x6.size a
  h_S7x6 : 0 < S7x6.numel
  slices_S7x6_o0_0_S1x6 : S7x6.Slices ![0, 0] S1x6
  shapeCasts_S1x6_S6 : S1x6.ShapeCasts S6
  shapeCasts_S6_S1x6 : S6.ShapeCasts S1x6
  broadcasts_S1000x1_S1000x6 : S1000x1.Broadcasts S1000x6
  broadcasts_S1x6_S1000x6 : S1x6.Broadcasts S1000x6
  slices_S7x6_o1_0_S1x6 : S7x6.Slices ![1, 0] S1x6
  slices_S7x6_o2_0_S1x6 : S7x6.Slices ![2, 0] S1x6
  slices_S7x6_o3_0_S1x6 : S7x6.Slices ![3, 0] S1x6
  slices_S7x6_o4_0_S1x6 : S7x6.Slices ![4, 0] S1x6
  slices_S7x6_o5_0_S1x6 : S7x6.Slices ![5, 0] S1x6
  slices_S7x6_o6_0_S1x6 : S7x6.Slices ![6, 0] S1x6
  concatenates_S1000x6_S1000x6_S1000x6_S1000x6_S1000x6_S1000x6_S1000x6_S1000x42_d1 : Shape.Concatenates [S1000x6, S1000x6, S1000x6, S1000x6, S1000x6, S1000x6, S1000x6] S1000x42 1
  broadcasts_S1000x1_S1000x42 : S1000x1.Broadcasts S1000x42
  inb_S1000x42_S1000x42_0_0 : ∀ a, (![0, 0] : Fin 2 → Nat) a + S1000x42.size a ≤ S1000x42.size a
  h_S1000x42 : 0 < S1000x42.numel
  gather_S1000000_S3000000x1_S3000000_n_0_n_n_0_1_1_wf : GatherDims.WF S1000000 S3000000x1 S3000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S3000000x1.size a
  hwx0_0 : ∀ i : grid0.Coords, EltTy.bits .f32 = 32 ∨ (Rect.block (s := S3000000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S3000000x1.size a
  hwx0_1 : ∀ i : grid0.Coords, EltTy.bits .f32 = 32 ∨ (Rect.block (s := S3000000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S3000000x1.size a
  hwx0_2 : ∀ i : grid0.Coords, EltTy.bits .f32 = 32 ∨ (Rect.block (s := S3000000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x6.size a ≤ S7x6.size a
  hwx0_3 : ∀ i : grid0.Coords, EltTy.bits .f32 = 32 ∨ (Rect.block (s := S7x6) S7x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x6.size a ≤ S7x6.size a
  hwx0_4 : ∀ i : grid0.Coords, EltTy.bits .f32 = 32 ∨ (Rect.block (s := S7x6) S7x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x42.size a ≤ S3000000x42.size a
  hwx0_5 : ∀ i : grid0.Coords, EltTy.bits .f32 = 32 ∨ (Rect.block (s := S3000000x42) S1000x42.size (cc0_transform_5 i) (hinb0_5 i)).WholeWords (EltTy.packing .f32)

variable [Facts₀]

def gather_S1000000_S3000000x1_S3000000_n_0_n_n_0_1_1 : GatherDims S1000000 S3000000x1 S3000000 where
  offsetDims := []
  collapsedSliceDims := [0]
  operandBatchingDims := []
  startIndicesBatchingDims := []
  startIndexMap := [0]
  indexVectorDim := 1
  sliceSizes := ![1]
  wf := gather_S1000000_S3000000x1_S3000000_n_0_n_n_0_1_1_wf

abbrev win0_0 : Pipeline.Window sig grid0 :=
  Pipeline.Window.ofSpec (Memref.whole main_v7) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S7x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_0) S7x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1000x42.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000 : Shape := ⟨1, ![1000000]⟩
abbrev S3000000 : Shape := ⟨1, ![3000000]⟩
abbrev S3000000x1 : Shape := ⟨2, ![3000000, 1]⟩
abbrev S7x6 : Shape := ⟨2, ![7, 6]⟩
abbrev S_ : Shape := ⟨0, ![]⟩
abbrev S1x6 : Shape := ⟨2, ![1, 6]⟩
abbrev S6 : Shape := ⟨1, ![6]⟩
abbrev S1000000x1 : Shape := ⟨2, ![1000000, 1]⟩
abbrev S1000000x6 : Shape := ⟨2, ![1000000, 6]⟩
abbrev S1000000x42 : Shape := ⟨2, ![1000000, 42]⟩
abbrev S3000000x42 : Shape := ⟨2, ![3000000, 42]⟩
abbrev S3000000x7 : Shape := ⟨2, ![3000000, 7]⟩
abbrev S3000000x7x6 : Shape := ⟨3, ![3000000, 7, 6]⟩

abbrev nBuf : Space → Nat
  | .hbm => 354
  | .vmem => 0
  | .smem => 0
  | _ => 0

abbrev hbmTy0_0 (i : Nat) : BufTy := match i % 128 with
  | 0 => ⟨S1000000, .f32⟩
  | 1 => ⟨S3000000, .f32⟩
  | 2 => ⟨S3000000x1, .f32⟩
  | 3 => ⟨S3000000, .i32⟩
  | 4 => ⟨S3000000, .i32⟩
  | 5 => ⟨S7x6, .f32⟩
  | 6 => ⟨S7x6, .f32⟩
  | 7 => ⟨S_, .f32⟩
  | 8 => ⟨S1000000, .f32⟩
  | 9 => ⟨S1000000, .f32⟩
  | 10 => ⟨S1000000, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S_, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S_, .f32⟩
  | 34 => ⟨S1000000, .f32⟩
  | 35 => ⟨S1000000, .i1⟩
  | 36 => ⟨S_, .f32⟩
  | 37 => ⟨S_, .f32⟩
  | 38 => ⟨S1000000, .f32⟩
  | 39 => ⟨S1000000, .f32⟩
  | 40 => ⟨S1x6, .f32⟩
  | 41 => ⟨S6, .f32⟩
  | 42 => ⟨S1000000x1, .f32⟩
  | 43 => ⟨S1x6, .f32⟩
  | 44 => ⟨S6, .f32⟩
  | 45 => ⟨S1x6, .f32⟩
  | 46 => ⟨S1000000x6, .f32⟩
  | 47 => ⟨S1000000x6, .f32⟩
  | 48 => ⟨S1000000x6, .f32⟩
  | 49 => ⟨S1000000x6, .f32⟩
  | 50 => ⟨S1000000x6, .f32⟩
  | 51 => ⟨S1x6, .f32⟩
  | 52 => ⟨S1000000x6, .f32⟩
  | 53 => ⟨S1000000x6, .f32⟩
  | 54 => ⟨S1x6, .f32⟩
  | 55 => ⟨S6, .f32⟩
  | 56 => ⟨S1000000x1, .f32⟩
  | 57 => ⟨S1x6, .f32⟩
  | 58 => ⟨S6, .f32⟩
  | 59 => ⟨S1x6, .f32⟩
  | 60 => ⟨S1000000x6, .f32⟩
  | 61 => ⟨S1000000x6, .f32⟩
  | 62 => ⟨S1000000x6, .f32⟩
  | 63 => ⟨S1000000x6, .f32⟩
  | 64 => ⟨S1000000x6, .f32⟩
  | 65 => ⟨S1000000x6, .f32⟩
  | 66 => ⟨S1000000x6, .f32⟩
  | 67 => ⟨S1000000x6, .f32⟩
  | 68 => ⟨S1000000x6, .f32⟩
  | 69 => ⟨S1000000x6, .f32⟩
  | 70 => ⟨S1000000x6, .f32⟩
  | 71 => ⟨S1x6, .f32⟩
  | 72 => ⟨S1000000x6, .f32⟩
  | 73 => ⟨S1000000x6, .f32⟩
  | 74 => ⟨S1x6, .f32⟩
  | 75 => ⟨S6, .f32⟩
  | 76 => ⟨S1000000x1, .f32⟩
  | 77 => ⟨S1x6, .f32⟩
  | 78 => ⟨S6, .f32⟩
  | 79 => ⟨S1x6, .f32⟩
  | 80 => ⟨S1000000x6, .f32⟩
  | 81 => ⟨S1000000x6, .f32⟩
  | 82 => ⟨S1000000x6, .f32⟩
  | 83 => ⟨S1000000x6, .f32⟩
  | 84 => ⟨S1000000x6, .f32⟩
  | 85 => ⟨S1000000x6, .f32⟩
  | 86 => ⟨S1000000x6, .f32⟩
  | 87 => ⟨S1000000x6, .f32⟩
  | 88 => ⟨S1000000x6, .f32⟩
  | 89 => ⟨S1000000x6, .f32⟩
  | 90 => ⟨S1000000x6, .f32⟩
  | 91 => ⟨S_, .f32⟩
  | 92 => ⟨S1000000x6, .f32⟩
  | 93 => ⟨S1000000x6, .f32⟩
  | 94 => ⟨S1000000x6, .f32⟩
  | 95 => ⟨S1000000x6, .f32⟩
  | 96 => ⟨S1x6, .f32⟩
  | 97 => ⟨S1000000x6, .f32⟩
  | 98 => ⟨S1000000x6, .f32⟩
  | 99 => ⟨S1x6, .f32⟩
  | 100 => ⟨S6, .f32⟩
  | 101 => ⟨S1000000x1, .f32⟩
  | 102 => ⟨S1x6, .f32⟩
  | 103 => ⟨S6, .f32⟩
  | 104 => ⟨S1x6, .f32⟩
  | 105 => ⟨S1000000x6, .f32⟩
  | 106 => ⟨S1000000x6, .f32⟩
  | 107 => ⟨S1000000x6, .f32⟩
  | 108 => ⟨S1000000x6, .f32⟩
  | 109 => ⟨S1000000x6, .f32⟩
  | 110 => ⟨S1000000x6, .f32⟩
  | 111 => ⟨S1000000x6, .f32⟩
  | 112 => ⟨S1000000x6, .f32⟩
  | 113 => ⟨S1000000x6, .f32⟩
  | 114 => ⟨S1000000x6, .f32⟩
  | 115 => ⟨S1000000x6, .f32⟩
  | 116 => ⟨S_, .f32⟩
  | 117 => ⟨S1000000x6, .f32⟩
  | 118 => ⟨S1000000x6, .f32⟩
  | 119 => ⟨S1000000x6, .f32⟩
  | 120 => ⟨S1000000x6, .f32⟩
  | 121 => ⟨S_, .f32⟩
  | 122 => ⟨S1000000x6, .f32⟩
  | 123 => ⟨S1000000x6, .f32⟩
  | 124 => ⟨S1000000x6, .f32⟩
  | 125 => ⟨S1000000x6, .f32⟩
  | 126 => ⟨S1x6, .f32⟩
  | 127 => ⟨S1000000x6, .f32⟩
  | _ => ⟨S1000000, .f32⟩

abbrev hbmTy0_1 (i : Nat) : BufTy := match i % 128 with
  | 0 => ⟨S1000000x6, .f32⟩
  | 1 => ⟨S1x6, .f32⟩
  | 2 => ⟨S6, .f32⟩
  | 3 => ⟨S1000000x1, .f32⟩
  | 4 => ⟨S1x6, .f32⟩
  | 5 => ⟨S6, .f32⟩
  | 6 => ⟨S1x6, .f32⟩
  | 7 => ⟨S1000000x6, .f32⟩
  | 8 => ⟨S1000000x6, .f32⟩
  | 9 => ⟨S1000000x6, .f32⟩
  | 10 => ⟨S1000000x6, .f32⟩
  | 11 => ⟨S1000000x6, .f32⟩
  | 12 => ⟨S1000000x6, .f32⟩
  | 13 => ⟨S1000000x6, .f32⟩
  | 14 => ⟨S1000000x6, .f32⟩
  | 15 => ⟨S1000000x6, .f32⟩
  | 16 => ⟨S1000000x6, .f32⟩
  | 17 => ⟨S1000000x6, .f32⟩
  | 18 => ⟨S_, .f32⟩
  | 19 => ⟨S1000000x6, .f32⟩
  | 20 => ⟨S1000000x6, .f32⟩
  | 21 => ⟨S1000000x6, .f32⟩
  | 22 => ⟨S1000000x6, .f32⟩
  | 23 => ⟨S_, .f32⟩
  | 24 => ⟨S1000000x6, .f32⟩
  | 25 => ⟨S1000000x6, .f32⟩
  | 26 => ⟨S1000000x6, .f32⟩
  | 27 => ⟨S1000000x6, .f32⟩
  | 28 => ⟨S_, .f32⟩
  | 29 => ⟨S1000000x6, .f32⟩
  | 30 => ⟨S1000000x6, .f32⟩
  | 31 => ⟨S1000000x6, .f32⟩
  | 32 => ⟨S1000000x6, .f32⟩
  | 33 => ⟨S1x6, .f32⟩
  | 34 => ⟨S1000000x6, .f32⟩
  | 35 => ⟨S1000000x6, .f32⟩
  | 36 => ⟨S1x6, .f32⟩
  | 37 => ⟨S6, .f32⟩
  | 38 => ⟨S1000000x1, .f32⟩
  | 39 => ⟨S1x6, .f32⟩
  | 40 => ⟨S6, .f32⟩
  | 41 => ⟨S1x6, .f32⟩
  | 42 => ⟨S1000000x6, .f32⟩
  | 43 => ⟨S1000000x6, .f32⟩
  | 44 => ⟨S1000000x6, .f32⟩
  | 45 => ⟨S1000000x6, .f32⟩
  | 46 => ⟨S1000000x6, .f32⟩
  | 47 => ⟨S1000000x6, .f32⟩
  | 48 => ⟨S1000000x6, .f32⟩
  | 49 => ⟨S1000000x6, .f32⟩
  | 50 => ⟨S1000000x6, .f32⟩
  | 51 => ⟨S1000000x6, .f32⟩
  | 52 => ⟨S1000000x6, .f32⟩
  | 53 => ⟨S_, .f32⟩
  | 54 => ⟨S1000000x6, .f32⟩
  | 55 => ⟨S1000000x6, .f32⟩
  | 56 => ⟨S1000000x6, .f32⟩
  | 57 => ⟨S1000000x6, .f32⟩
  | 58 => ⟨S_, .f32⟩
  | 59 => ⟨S1000000x6, .f32⟩
  | 60 => ⟨S1000000x6, .f32⟩
  | 61 => ⟨S1000000x6, .f32⟩
  | 62 => ⟨S1000000x6, .f32⟩
  | 63 => ⟨S_, .f32⟩
  | 64 => ⟨S1000000x6, .f32⟩
  | 65 => ⟨S1000000x6, .f32⟩
  | 66 => ⟨S1000000x6, .f32⟩
  | 67 => ⟨S1000000x6, .f32⟩
  | 68 => ⟨S_, .f32⟩
  | 69 => ⟨S1000000x6, .f32⟩
  | 70 => ⟨S1000000x6, .f32⟩
  | 71 => ⟨S1000000x6, .f32⟩
  | 72 => ⟨S1000000x6, .f32⟩
  | 73 => ⟨S1x6, .f32⟩
  | 74 => ⟨S1000000x6, .f32⟩
  | 75 => ⟨S1000000x6, .f32⟩
  | 76 => ⟨S1x6, .f32⟩
  | 77 => ⟨S6, .f32⟩
  | 78 => ⟨S1000000x1, .f32⟩
  | 79 => ⟨S1x6, .f32⟩
  | 80 => ⟨S6, .f32⟩
  | 81 => ⟨S1x6, .f32⟩
  | 82 => ⟨S1000000x6, .f32⟩
  | 83 => ⟨S1000000x6, .f32⟩
  | 84 => ⟨S1000000x6, .f32⟩
  | 85 => ⟨S1000000x6, .f32⟩
  | 86 => ⟨S1000000x6, .f32⟩
  | 87 => ⟨S1000000x6, .f32⟩
  | 88 => ⟨S1000000x6, .f32⟩
  | 89 => ⟨S1000000x6, .f32⟩
  | 90 => ⟨S1000000x6, .f32⟩
  | 91 => ⟨S1000000x6, .f32⟩
  | 92 => ⟨S1000000x6, .f32⟩
  | 93 => ⟨S_, .f32⟩
  | 94 => ⟨S1000000x6, .f32⟩
  | 95 => ⟨S1000000x6, .f32⟩
  | 96 => ⟨S1000000x6, .f32⟩
  | 97 => ⟨S1000000x6, .f32⟩
  | 98 => ⟨S_, .f32⟩
  | 99 => ⟨S1000000x6, .f32⟩
  | 100 => ⟨S1000000x6, .f32⟩
  | 101 => ⟨S1000000x6, .f32⟩
  | 102 => ⟨S1000000x6, .f32⟩
  | 103 => ⟨S_, .f32⟩
  | 104 => ⟨S1000000x6, .f32⟩
  | 105 => ⟨S1000000x6, .f32⟩
  | 106 => ⟨S1000000x6, .f32⟩
  | 107 => ⟨S1000000x6, .f32⟩
  | 108 => ⟨S_, .f32⟩
  | 109 => ⟨S1000000x6, .f32⟩
  | 110 => ⟨S1000000x6, .f32⟩
  | 111 => ⟨S1000000x6, .f32⟩
  | 112 => ⟨S1000000x6, .f32⟩
  | 113 => ⟨S_, .f32⟩
  | 114 => ⟨S1000000x6, .f32⟩
  | 115 => ⟨S1000000x6, .f32⟩
  | 116 => ⟨S1000000x6, .f32⟩
  | 117 => ⟨S1000000x6, .f32⟩
  | 118 => ⟨S1x6, .f32⟩
  | 119 => ⟨S1000000x6, .f32⟩
  | 120 => ⟨S1000000x6, .f32⟩
  | 121 => ⟨S1000000x42, .f32⟩
  | 122 => ⟨S1000000x1, .f32⟩
  | 123 => ⟨S1000000x42, .f32⟩
  | 124 => ⟨S1000000x42, .f32⟩
  | 125 => ⟨S_, .i32⟩
  | 126 => ⟨S3000000, .i32⟩
  | 127 => ⟨S3000000, .i1⟩
  | _ => ⟨S1000000, .f32⟩

abbrev hbmTy0_2 (i : Nat) : BufTy := match i % 128 with
  | 0 => ⟨S_, .i32⟩
  | 1 => ⟨S3000000, .i32⟩
  | 2 => ⟨S3000000, .i32⟩
  | 3 => ⟨S3000000, .i32⟩
  | 4 => ⟨S3000000x1, .i32⟩
  | 5 => ⟨S3000000x42, .f32⟩
  | 6 => ⟨S3000000, .f32⟩
  | 7 => ⟨S_, .f32⟩
  | 8 => ⟨S3000000, .f32⟩
  | 9 => ⟨S_, .f32⟩
  | 10 => ⟨S3000000, .f32⟩
  | 11 => ⟨S3000000, .f32⟩
  | 12 => ⟨S3000000, .f32⟩
  | 13 => ⟨S_, .f32⟩
  | 14 => ⟨S3000000, .f32⟩
  | 15 => ⟨S3000000, .f32⟩
  | 16 => ⟨S3000000, .f32⟩
  | 17 => ⟨S_, .f32⟩
  | 18 => ⟨S3000000, .f32⟩
  | 19 => ⟨S3000000, .f32⟩
  | 20 => ⟨S_, .f32⟩
  | 21 => ⟨S3000000, .f32⟩
  | 22 => ⟨S3000000, .f32⟩
  | 23 => ⟨S3000000, .f32⟩
  | 24 => ⟨S_, .f32⟩
  | 25 => ⟨S3000000, .f32⟩
  | 26 => ⟨S3000000, .f32⟩
  | 27 => ⟨S3000000, .f32⟩
  | 28 => ⟨S_, .f32⟩
  | 29 => ⟨S3000000, .f32⟩
  | 30 => ⟨S3000000, .f32⟩
  | 31 => ⟨S_, .f32⟩
  | 32 => ⟨S3000000, .f32⟩
  | 33 => ⟨S3000000, .f32⟩
  | 34 => ⟨S3000000, .f32⟩
  | 35 => ⟨S_, .f32⟩
  | 36 => ⟨S3000000, .f32⟩
  | 37 => ⟨S3000000, .f32⟩
  | 38 => ⟨S3000000, .f32⟩
  | 39 => ⟨S_, .f32⟩
  | 40 => ⟨S3000000, .f32⟩
  | 41 => ⟨S3000000, .f32⟩
  | 42 => ⟨S_, .f32⟩
  | 43 => ⟨S3000000, .f32⟩
  | 44 => ⟨S3000000, .f32⟩
  | 45 => ⟨S3000000, .f32⟩
  | 46 => ⟨S_, .f32⟩
  | 47 => ⟨S3000000, .f32⟩
  | 48 => ⟨S3000000, .f32⟩
  | 49 => ⟨S3000000, .f32⟩
  | 50 => ⟨S_, .f32⟩
  | 51 => ⟨S3000000, .f32⟩
  | 52 => ⟨S3000000, .f32⟩
  | 53 => ⟨S_, .f32⟩
  | 54 => ⟨S3000000, .f32⟩
  | 55 => ⟨S3000000, .f32⟩
  | 56 => ⟨S3000000, .f32⟩
  | 57 => ⟨S_, .f32⟩
  | 58 => ⟨S3000000, .f32⟩
  | 59 => ⟨S3000000, .f32⟩
  | 60 => ⟨S3000000, .f32⟩
  | 61 => ⟨S_, .f32⟩
  | 62 => ⟨S3000000, .f32⟩
  | 63 => ⟨S3000000, .f32⟩
  | 64 => ⟨S_, .f32⟩
  | 65 => ⟨S3000000, .f32⟩
  | 66 => ⟨S3000000, .f32⟩
  | 67 => ⟨S_, .f32⟩
  | 68 => ⟨S3000000, .f32⟩
  | 69 => ⟨S3000000, .f32⟩
  | 70 => ⟨S_, .f32⟩
  | 71 => ⟨S3000000, .f32⟩
  | 72 => ⟨S3000000, .f32⟩
  | 73 => ⟨S_, .f32⟩
  | 74 => ⟨S3000000, .f32⟩
  | 75 => ⟨S3000000, .f32⟩
  | 76 => ⟨S_, .f32⟩
  | 77 => ⟨S3000000, .f32⟩
  | 78 => ⟨S3000000, .f32⟩
  | 79 => ⟨S_, .f32⟩
  | 80 => ⟨S3000000, .f32⟩
  | 81 => ⟨S3000000, .f32⟩
  | 82 => ⟨S_, .f32⟩
  | 83 => ⟨S3000000, .f32⟩
  | 84 => ⟨S3000000, .f32⟩
  | 85 => ⟨S3000000x1, .f32⟩
  | 86 => ⟨S3000000x1, .f32⟩
  | 87 => ⟨S3000000x1, .f32⟩
  | 88 => ⟨S3000000x1, .f32⟩
  | 89 => ⟨S3000000x1, .f32⟩
  | 90 => ⟨S3000000x1, .f32⟩
  | 91 => ⟨S3000000x1, .f32⟩
  | 92 => ⟨S3000000x7, .f32⟩
  | 93 => ⟨S3000000x7x6, .f32⟩
  | 94 => ⟨S3000000x42, .f32⟩
  | 95 => ⟨S3000000x42, .f32⟩
  | 96 => ⟨S3000000x42, .f32⟩
  | 97 => ⟨S3000000x42, .f32⟩
  | _ => ⟨S1000000, .f32⟩

abbrev hbmTy (i : Nat) : BufTy := match i / 128 with
  | 0 => hbmTy0_0 i
  | 1 => hbmTy0_1 i
  | 2 => hbmTy0_2 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_8 : Ref sig .tc := ⟨.hbm, 33, rfl⟩
abbrev main_v19 : Ref sig .tc := ⟨.hbm, 34, rfl⟩
abbrev main_v20 : Ref sig .tc := ⟨.hbm, 35, rfl⟩
abbrev main_cst_9 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_11 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_12 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_13 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_14 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_15 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_cst_16 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_17 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_cst_18 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_19 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_20 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_cst_21 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_22 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_cst_23 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_cst_24 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_c : Ref sig .tc := ⟨.hbm, 253, rfl⟩
abbrev main_v220 : Ref sig .tc := ⟨.hbm, 254, rfl⟩
abbrev main_v221 : Ref sig .tc := ⟨.hbm, 255, rfl⟩
abbrev main_c_25 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_cst_26 : Ref sig .tc := ⟨.hbm, 263, rfl⟩
abbrev main_v228 : Ref sig .tc := ⟨.hbm, 264, rfl⟩
abbrev main_cst_27 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_cst_28 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_cst_29 : Ref sig .tc := ⟨.hbm, 273, rfl⟩
abbrev main_v235 : Ref sig .tc := ⟨.hbm, 274, rfl⟩
abbrev main_v236 : Ref sig .tc := ⟨.hbm, 275, rfl⟩
abbrev main_cst_30 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_cst_31 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_cst_32 : Ref sig .tc := ⟨.hbm, 284, rfl⟩
abbrev main_v243 : Ref sig .tc := ⟨.hbm, 285, rfl⟩
abbrev main_v244 : Ref sig .tc := ⟨.hbm, 286, rfl⟩
abbrev main_cst_33 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_cst_34 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_cst_35 : Ref sig .tc := ⟨.hbm, 295, rfl⟩
abbrev main_v251 : Ref sig .tc := ⟨.hbm, 296, rfl⟩
abbrev main_v252 : Ref sig .tc := ⟨.hbm, 297, rfl⟩
abbrev main_cst_36 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_cst_37 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_cst_38 : Ref sig .tc := ⟨.hbm, 306, rfl⟩
abbrev main_v259 : Ref sig .tc := ⟨.hbm, 307, rfl⟩
abbrev main_v260 : Ref sig .tc := ⟨.hbm, 308, rfl⟩
abbrev main_cst_39 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_cst_40 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_cst_41 : Ref sig .tc := ⟨.hbm, 317, rfl⟩
abbrev main_v267 : Ref sig .tc := ⟨.hbm, 318, rfl⟩
abbrev main_v268 : Ref sig .tc := ⟨.hbm, 319, rfl⟩
abbrev main_cst_42 : Ref sig .tc := ⟨.hbm, 320, rfl⟩
abbrev main_v269 : Ref sig .tc := ⟨.hbm, 321, rfl⟩
abbrev main_v270 : Ref sig .tc := ⟨.hbm, 322, rfl⟩
abbrev main_cst_43 : Ref sig .tc := ⟨.hbm, 323, rfl⟩
abbrev main_v271 : Ref sig .tc := ⟨.hbm, 324, rfl⟩
abbrev main_v272 : Ref sig .tc := ⟨.hbm, 325, rfl⟩
abbrev main_cst_44 : Ref sig .tc := ⟨.hbm, 326, rfl⟩
abbrev main_v273 : Ref sig .tc := ⟨.hbm, 327, rfl⟩
abbrev main_v274 : Ref sig .tc := ⟨.hbm, 328, rfl⟩
abbrev main_cst_45 : Ref sig .tc := ⟨.hbm, 329, rfl⟩
abbrev main_v275 : Ref sig .tc := ⟨.hbm, 330, rfl⟩
abbrev main_v276 : Ref sig .tc := ⟨.hbm, 331, rfl⟩
abbrev main_cst_46 : Ref sig .tc := ⟨.hbm, 332, rfl⟩
abbrev main_v277 : Ref sig .tc := ⟨.hbm, 333, rfl⟩
abbrev main_v278 : Ref sig .tc := ⟨.hbm, 334, rfl⟩
abbrev main_cst_47 : Ref sig .tc := ⟨.hbm, 335, rfl⟩
abbrev main_v279 : Ref sig .tc := ⟨.hbm, 336, rfl⟩
abbrev main_v280 : Ref sig .tc := ⟨.hbm, 337, rfl⟩
abbrev main_cst_48 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  slices_S7x6_S1x6_0_0 : S7x6.Slices ![0, 0] S1x6
  shapeCasts_S1x6_S6 : S1x6.ShapeCasts S6
  bcast_S1000000_S1000000x1_0 : S1000000.BroadcastsInDim S1000000x1 (![0] : Fin 1 → Fin S1000000x1.rank)
  bcast_S6_S1x6_1 : S6.BroadcastsInDim S1x6 (![1] : Fin 1 → Fin S1x6.rank)
  bcast_S1000000x1_S1000000x6_0_1 : S1000000x1.BroadcastsInDim S1000000x6 (![0, 1] : Fin 2 → Fin S1000000x6.rank)
  bcast_S1x6_S1000000x6_0_1 : S1x6.BroadcastsInDim S1000000x6 (![0, 1] : Fin 2 → Fin S1000000x6.rank)
  slices_S7x6_S1x6_1_0 : S7x6.Slices ![1, 0] S1x6
  slices_S7x6_S1x6_2_0 : S7x6.Slices ![2, 0] S1x6
  bcast_S_S1000000x6 : S_.BroadcastsInDim S1000000x6 (![] : Fin 0 → Fin S1000000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  concatenates_S1000000x6_S1000000x6_S1000000x6_S1000000x6_S1000000x6_S1000000x6_S1000000x6_S1000000x42_d1 : Shape.Concatenates [S1000000x6, S1000000x6, S1000000x6, S1000000x6, S1000000x6, S1000000x6, S1000000x6] S1000000x42 1
  bcast_S1000000x1_S1000000x42_0_1 : S1000000x1.BroadcastsInDim S1000000x42 (![0, 1] : Fin 2 → Fin S1000000x42.rank)
  bcast_S_S3000000 : S_.BroadcastsInDim S3000000 (![] : Fin 0 → Fin S3000000.rank)
  bcast_S3000000_S3000000x1_0 : S3000000.BroadcastsInDim S3000000x1 (![0] : Fin 1 → Fin S3000000x1.rank)
  concatenates_S3000000x1_S3000000x1_S3000000x1_S3000000x1_S3000000x1_S3000000x1_S3000000x1_S3000000x7_d1 : Shape.Concatenates [S3000000x1, S3000000x1, S3000000x1, S3000000x1, S3000000x1, S3000000x1, S3000000x1] S3000000x7 1
  bcast_S3000000x7_S3000000x7x6_0_1 : S3000000x7.BroadcastsInDim S3000000x7x6 (![0, 1] : Fin 2 → Fin S3000000x7x6.rank)
  shapeCasts_S3000000x7x6_S3000000x42 : S3000000x7x6.ShapeCasts S3000000x42
  bcast_S3000000x1_S3000000x42_0_1 : S3000000x1.BroadcastsInDim S3000000x42 (![0, 1] : Fin 2 → Fin S3000000x42.rank)
  gather_S1000000x42_S3000000x1_S3000000x42_1_0_n_n_0_1_142_wf : GatherDims.WF S1000000x42 S3000000x1 S3000000x42 [1] [0] [] [0] [] 1 ![1, 42]

variable [Facts₀]

def gather_S1000000x42_S3000000x1_S3000000x42_1_0_n_n_0_1_142 : GatherDims S1000000x42 S3000000x1 S3000000x42 where
  offsetDims := [1]
  collapsedSliceDims := [0]
  operandBatchingDims := []
  startIndicesBatchingDims := []
  startIndexMap := [0]
  indexVectorDim := 1
  sliceSizes := ![1, 42]
  wf := gather_S1000000x42_S3000000x1_S3000000x42_1_0_n_n_0_1_142_wf

class Facts : Prop extends Facts₀ where

variable [Facts]
-- ==== Proof.Spec.lean ====
/-
  The layer's value at one output entry, as one expression on the extended reals.

  With s = d/5 the scaled distance, the entry in column 6·l + k of a triplet's row is
      ( n(l,k) · j_l(s · z(l,k)) · env(s) ) · ( Y_l · P_l(cos θ) · mask ),
  where j_l is the spherical Bessel function spelt by its upward recurrence
      j_0 = sin u / u,  j_1 = sin u / u² − cos u / u,  j_{m+1} = (2m+1)/u · j_m − j_{m−1},
  P_l the Legendre polynomial by  P_l = ((2l−1)·c·P_{l−1} − (l−1)·P_{l−2}) / l,  Y_l the prefactor of the
  zonal harmonic, and env the polynomial cutoff 1 − 28 s⁶ + 48 s⁷ − 21 s⁸ below s = 1 and 0 from there on.
  One of the two programs spells s⁷ and s⁸ as products, the other as real powers (and s⁶ with its factors
  in the other order); for a real s the two spellings are one number (envPow_eq_envMul).
-/
import Idealize.ShloMosaic.PureOps.Ideal

noncomputable section

namespace Cert.Sbf

open Idealize.ShloMosaic

/-- The number a 32-bit float word denotes. -/
abbrev W (b : BitVec 32) : EReal := Ideal.ofBits .f32 b

/-- The scaled distance d · (1/5), the fifth as the float word both programs carry. -/
def scaled (d : EReal) : EReal := d * W 0x3E4CCCCD#32

/-- s⁶ as ((s·s)·(s·s))·(s·s). -/
def p6 (s : EReal) : EReal := ((s * s) * (s * s)) * (s * s)

/-- The cutoff with s⁷ = s⁶·s and s⁸ = s⁶·(s·s). -/
def envMul (s : EReal) : EReal :=
  Scalar.select (Ideal.cmp .olt s (W 0x3F800000#32))
    (((W 0x3F800000#32 + W 0xC1E00000#32 * p6 s) + W 0x42400000#32 * (p6 s * s)) + W 0xC1A80000#32 * (p6 s * (s * s)))
    (W 0x00000000#32)

/-- The cutoff with s⁶ = (s·s)·((s·s)·(s·s)) and s⁷, s⁸ as real powers. -/
def envPow (s : EReal) : EReal :=
  Scalar.select (Ideal.cmp .olt s (W 0x3F800000#32))
    (((W 0x3F800000#32 + W 0xC1E00000#32 * ((s * s) * ((s * s) * (s * s)))) + W 0x42400000#32 * Ideal.pow s (W 0x40E00000#32))
      + W 0xC1A80000#32 * Ideal.pow s (W 0x41000000#32))
    (W 0x00000000#32)

def j0 (u : EReal) : EReal := Ideal.div (Ideal.sin u) u
def j1 (u : EReal) : EReal := Ideal.div (Ideal.sin u) (u * u) - Ideal.div (Ideal.cos u) u
def j2 (u : EReal) : EReal := Ideal.div (W 0x40400000#32) u * j1 u - j0 u
def j3 (u : EReal) : EReal := Ideal.div (W 0x40A00000#32) u * j2 u - j1 u
def j4 (u : EReal) : EReal := Ideal.div (W 0x40E00000#32) u * j3 u - j2 u
def j5 (u : EReal) : EReal := Ideal.div (W 0x41100000#32) u * j4 u - j3 u
def j6 (u : EReal) : EReal := Ideal.div (W 0x41300000#32) u * j5 u - j4 u

def q0 (_c : EReal) : EReal := W 0x3F800000#32
def q1 (c : EReal) : EReal := c
def q2 (c : EReal) : EReal := Ideal.div ((W 0x40400000#32 * c) * c - W 0x3F800000#32 * W 0x3F800000#32) (W 0x40000000#32)
def q3 (c : EReal) : EReal := Ideal.div ((W 0x40A00000#32 * c) * q2 c - W 0x40000000#32 * c) (W 0x40400000#32)
def q4 (c : EReal) : EReal := Ideal.div ((W 0x40E00000#32 * c) * q3 c - W 0x40400000#32 * q2 c) (W 0x40800000#32)
def q5 (c : EReal) : EReal := Ideal.div ((W 0x41100000#32 * c) * q4 c - W 0x40800000#32 * q3 c) (W 0x40A00000#32)
def q6 (c : EReal) : EReal := Ideal.div ((W 0x41300000#32 * c) * q5 c - W 0x40A00000#32 * q4 c) (W 0x40C00000#32)

/-- n · j_l(u). -/
def radial : Fin 7 → EReal → EReal → EReal
  | ⟨0, _⟩, n, u => n * j0 u
  | ⟨1, _⟩, n, u => n * j1 u
  | ⟨2, _⟩, n, u => n * j2 u
  | ⟨3, _⟩, n, u => n * j3 u
  | ⟨4, _⟩, n, u => n * j4 u
  | ⟨5, _⟩, n, u => n * j5 u
  | ⟨6, _⟩, n, u => n * j6 u

/-- Y_l · P_l(c). -/
def angular : Fin 7 → EReal → EReal
  | ⟨0, _⟩, c => W 0x3E906EBB#32 * q0 c
  | ⟨1, _⟩, c => W 0x3EFA2A1C#32 * q1 c
  | ⟨2, _⟩, c => W 0x3F217B01#32 * q2 c
  | ⟨3, _⟩, c => W 0x3F3F10F8#32 * q3 c
  | ⟨4, _⟩, c => W 0x3F58A618#32 * q4 c
  | ⟨5, _⟩, c => W 0x3F6F83A7#32 * q5 c
  | ⟨6, _⟩, c => W 0x3F823092#32 * q6 c

/-- One entry, from the table entries n, z, the distance d, the angle a and the mask k, with the cutoff env. -/
def entry (env : EReal → EReal) (l : Fin 7) (n z d a k : EReal) : EReal :=
  (radial l n (scaled d * z) * env (scaled d)) * (angular l (Ideal.cos a) * k)

theorem w7 : W 0x40E00000#32 = ((7 : ℝ) : EReal) := by
  simp [Ideal.ofBits, Ideal.ieee, -EReal.coe_mul]; norm_num
theorem w8 : W 0x41000000#32 = ((8 : ℝ) : EReal) := by
  simp [Ideal.ofBits, Ideal.ieee, -EReal.coe_mul]; norm_num
theorem wFifth : ∃ r : ℝ, W 0x3E4CCCCD#32 = (r : EReal) :=
  ⟨13421773 / 67108864, by simp [Ideal.ofBits, Ideal.ieee, -EReal.coe_mul]; norm_num⟩

/-- For a real s the two spellings of the cutoff are one number. -/
theorem envPow_eq_envMul (s : ℝ) : envPow (s : EReal) = envMul (s : EReal) := by
  unfold envPow envMul p6
  rw [w7, w8, Ideal.pow_coe_coe, Ideal.pow_coe_coe]
  have h7 : Real.rpow s 7 = ((s * s) * (s * s)) * (s * s) * s := by
    rw [Real.rpow_eq_pow, show (7 : ℝ) = ((7 : ℕ) : ℝ) by norm_num, Real.rpow_natCast]; ring
  have h8 : Real.rpow s 8 = ((s * s) * (s * s)) * (s * s) * (s * s) := by
    rw [Real.rpow_eq_pow, show (8 : ℝ) = ((8 : ℕ) : ℝ) by norm_num, Real.rpow_natCast]; ring
  rw [h7, h8]
  simp only [EReal.coe_mul]
  rw [mul_comm ((s : EReal) * s) (((s : EReal) * s) * ((s : EReal) * s))]

/-- A finite distance gives a real scaled distance, so the entry is the same with either cutoff. -/
theorem entry_envPow_eq (l : Fin 7) (n z : EReal) (d : ℝ) (a k : EReal) :
    entry envPow l n z (d : EReal) a k = entry envMul l n z (d : EReal) a k := by
  obtain ⟨r, hr⟩ := wFifth
  have hs : scaled (d : EReal) = ((d * r : ℝ) : EReal) := by
    unfold scaled; rw [hr, EReal.coe_mul]
  unfold entry
  rw [hs, envPow_eq_envMul]

end Cert.Sbf

end
-- ==== Proof.RowIndex.lean ====
/-
  Which edge a triplet reads. The index word is wrapped once when negative, as the indexing x[i] does, then read
  signed and clamped into the table of 1000000 edges, as a gather does.
-/
import Idealize.ShloMosaic.PureOps
import Idealize.ShloMosaic.Lib.ValueIdx

noncomputable section

namespace Cert.Sbf

open Idealize.ShloMosaic Idealize.ShloMosaic.ValueIdx

/-- i + 1000000 when i < 0, else i. -/
def wrapped (x : BitVec 32) : BitVec 32 := Scalar.select (IntOp.cmpi .slt x 0#32) (IntOp.addi x 1000000#32) x

/-- The edge triplet t reads. -/
def row (idx : (⟨1, ![3000000]⟩ : Shape).Idx → BitVec 32) (t : Fin 3000000) : Fin 1000000 :=
  ⟨min (wrapped (idx (ix1 t))).toInt.toNat (1000000 - 1), by omega⟩

end Cert.Sbf

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.KernelEntry.lean ====
/-
  The kernel's block, entry by entry.

  The generated value leg gives the block a grid point leaves as one function of the five loaded blocks: a
  product of a radial piece chosen by the column's block number l = q / 6 (read at column q mod 6), the cutoff of
  the row's scaled distance, an angular piece chosen by the same l, and the row's mask. Here each piece is read at
  an entry: row l of a 7×6 table broadcast over the rows is the table's entry (l, k); a column [1000, 1]
  broadcast over six columns is the row's own number. What is left is the layer's expression of Spec.lean with
  the cutoff spelt by products.
-/
import proofs.«178250_j83665962926262_2_alg».proof.Proof.Gen.KernelIdeal.Value
import proofs.«178250_j83665962926262_2_alg».proof.Proof.Spec
import proofs.«178250_j83665962926262_2_alg».proof.Proof.LibColumnForms
import Idealize.ShloMosaic.Lib.ValueIdx
import Idealize.ShloMosaic.Lib.ValueLayout
import Idealize.ShloMosaic.Lib.Pipeline.Value

noncomputable section

namespace Cert.Sbf.KernelEntry

open Idealize.ShloMosaic Idealize.ShloMosaic.ValueIdx Cert.Sbf
open Cert.KernelIdeal Cert.KernelIdeal.Gen Cert.KernelIdeal.Value

variable {α : Type}

theorem sin_apply {s : Shape} {φ : FTy} (a : FVec Ideal s φ) (i : s.Idx) : sin a i = Ideal.sin (a i) := rfl
theorem cos_apply {s : Shape} {φ : FTy} (a : FVec Ideal s φ) (i : s.Idx) : cos a i = Ideal.cos (a i) := rfl

/-- Row o of a 7×6 table, cut out, cast to a vector of six and back to one row, and broadcast over the 1000 rows:
    at (p, k) it is the table's entry (o, k). -/
theorem tableRow_apply (P : S7x6.Idx → α) (o : Nat) (ho : o < 7) (hs : S7x6.Slices ![o, 0] S1x6)
    (h1 : S1x6.ShapeCasts S6) (h2 : S6.ShapeCasts S1x6) (hb : S1x6.Broadcasts S1000x6) (p : Fin 1000) (k : Fin 6) :
    broadcastTo S1000x6 (shapeCast S1x6 (shapeCast S6 (extractStridedSlice S1x6 ![o, 0] P hs) h1) h2) hb (ix2 p k)
      = P (ix2 (⟨o, ho⟩ : Fin 7) k) := by
  rw [broadcastTo_1b_ab_apply, shapeCast_a_1a_apply, shapeCast_1a_a_apply]
  exact slice2_axis0_apply o P hs 0 k ⟨o, ho⟩ rfl

/-- A column of 1000 numbers broadcast over six columns reads the row's number. -/
theorem col_apply (v : S1000x1.Idx → α) (hb : S1000x1.Broadcasts S1000x6) (p : Fin 1000) (k : Fin 6) :
    broadcastTo S1000x6 v hb (ix2 p k) = v (ix2 p (0 : Fin 1)) :=
  Cert.Lib.ColumnForms.broadcastTo_a1_ab_apply v hb p k

variable (P0 : Vec Ideal S7x6 .f32) (P1 : Vec Ideal S1000x1 .f32) (P2 : Vec Ideal S7x6 .f32)
  (P3 : Vec Ideal S1000x1 .f32) (P4 : Vec Ideal S1000x1 .f32)

/-- The radial piece l at (p, k): n(l,k) · j_l(s · z(l,k)) with s the row's scaled distance. -/
theorem radial_apply (l : Fin 7) (p : Fin 1000) (k : Fin 6) :
    Cat5_0 (F := Ideal) P0 P1 P2 P3 P4 l (ix2 p k)
      = radial l (P0 (ix2 l k)) (scaled (P1 (ix2 p (0 : Fin 1))) * P2 (ix2 l k)) := by
  match l with
  | ⟨0, _⟩ =>
    show (mulf _ _) (ix2 p k) = _
    simp (disch := decide) only [mulf_apply, divf_apply, subf_apply, sin_apply, cos_apply, broadcast_apply,
      tableRow_apply, col_apply, shapeCast_self]
    rfl
  | ⟨1, _⟩ =>
    show (mulf _ _) (ix2 p k) = _
    simp (disch := decide) only [mulf_apply, divf_apply, subf_apply, sin_apply, cos_apply, broadcast_apply,
      tableRow_apply, col_apply, shapeCast_self]
    rfl
  | ⟨2, _⟩ =>
    show (mulf _ _) (ix2 p k) = _
    simp (disch := decide) only [mulf_apply, divf_apply, subf_apply, sin_apply, cos_apply, broadcast_apply,
      tableRow_apply, col_apply, shapeCast_self]
    rfl
  | ⟨3, _⟩ =>
    show (mulf _ _) (ix2 p k) = _
    simp (disch := decide) only [mulf_apply, divf_apply, subf_apply, sin_apply, cos_apply, broadcast_apply,
      tableRow_apply, col_apply, shapeCast_self]
    rfl
  | ⟨4, _⟩ =>
    show (mulf _ _) (ix2 p k) = _
    simp (disch := decide) only [mulf_apply, divf_apply, subf_apply, sin_apply, cos_apply, broadcast_apply,
      tableRow_apply, col_apply, shapeCast_self]
    rfl
  | ⟨5, _⟩ =>
    show (mulf _ _) (ix2 p k) = _
    simp (disch := decide) only [mulf_apply, divf_apply, subf_apply, sin_apply, cos_apply, broadcast_apply,
      tableRow_apply, col_apply, shapeCast_self]
    rfl
  | ⟨6, _⟩ =>
    show (mulf _ _) (ix2 p k) = _
    simp (disch := decide) only [mulf_apply, divf_apply, subf_apply, sin_apply, cos_apply, broadcast_apply,
      tableRow_apply, col_apply, shapeCast_self]
    rfl

/-- The angular piece l at (p, k): Y_l · P_l(cos θ) of the row's angle. -/
theorem angular_apply (l : Fin 7) (p : Fin 1000) (k : Fin 6) :
    Cat5_23 (F := Ideal) P0 P1 P2 P3 P4 l (ix2 p k) = angular l (Ideal.cos (P3 (ix2 p (0 : Fin 1)))) := by
  match l with
  | ⟨0, _⟩ =>
    show (broadcastTo _ _ _) (ix2 p k) = _
    simp only [col_apply, shapeCast_self, k0_pay21, mulf_apply, divf_apply, subf_apply, cos_apply, broadcast_apply]
    rfl
  | ⟨1, _⟩ =>
    show (broadcastTo _ _ _) (ix2 p k) = _
    simp only [col_apply, shapeCast_self, k0_pay21, mulf_apply, divf_apply, subf_apply, cos_apply, broadcast_apply]
    rfl
  | ⟨2, _⟩ =>
    show (broadcastTo _ _ _) (ix2 p k) = _
    simp only [col_apply, shapeCast_self, k0_pay21, mulf_apply, divf_apply, subf_apply, cos_apply, broadcast_apply]
    rfl
  | ⟨3, _⟩ =>
    show (broadcastTo _ _ _) (ix2 p k) = _
    simp only [col_apply, shapeCast_self, k0_pay21, mulf_apply, divf_apply, subf_apply, cos_apply, broadcast_apply]
    rfl
  | ⟨4, _⟩ =>
    show (broadcastTo _ _ _) (ix2 p k) = _
    simp only [col_apply, shapeCast_self, k0_pay21, mulf_apply, divf_apply, subf_apply, cos_apply, broadcast_apply]
    rfl
  | ⟨5, _⟩ =>
    show (broadcastTo _ _ _) (ix2 p k) = _
    simp only [col_apply, shapeCast_self, k0_pay21, mulf_apply, divf_apply, subf_apply, cos_apply, broadcast_apply]
    rfl
  | ⟨6, _⟩ =>
    show (broadcastTo _ _ _) (ix2 p k) = _
    simp only [col_apply, shapeCast_self, k0_pay21, mulf_apply, divf_apply, subf_apply, cos_apply, broadcast_apply]
    rfl

/-- An index map from the block's index to a column's index that keeps the row is (p, 0) at (p, q). -/
theorem colIdx_eq (f : S1000x42.Idx → S1000x1.Idx) (h0 : ∀ y, ((f y) ⟨0, by decide⟩).val = (y ⟨0, by decide⟩).val)
    (p : Fin 1000) (q : Fin 42) : f (ix2 p q) = ix2 p (0 : Fin 1) := by
  funext a; apply Fin.ext
  match a with
  | ⟨0, _⟩ => exact h0 _
  | ⟨1, h1⟩ =>
    have h : ((f (ix2 p q)) ⟨1, h1⟩).val < S1000x1.size ⟨1, h1⟩ := ((f (ix2 p q)) ⟨1, h1⟩).isLt
    have h' : ((f (ix2 p q)) ⟨1, h1⟩).val < 1 := h
    exact Nat.lt_one_iff.mp h'

/-- THE BLOCK AT AN ENTRY: row p, column q = 6·l + k of the block a grid point leaves is the layer's expression of
    the tables' entries (l, k) and of row p's distance, angle and mask, the cutoff spelt by products. -/
theorem E5_apply (p : Fin 1000) (q : Fin 42) (l : Fin 7) (k : Fin 6) (hq : q.val = 6 * l.val + k.val) :
    E5 (F := Ideal) P0 P1 P2 P3 P4 (ix2 p q)
      = entry envMul l (P0 (ix2 l k)) (P2 (ix2 l k)) (P1 (ix2 p (0 : Fin 1))) (P3 (ix2 p (0 : Fin 1)))
          (P4 (ix2 p (0 : Fin 1))) := by
  have hk : k.val < 6 := k.isLt
  have hsel0 : csel5_0 (ix2 p q) = l := Fin.ext (by show q.val / 6 = l.val; omega)
  have hsel23 : csel5_23 (ix2 p q) = l := Fin.ext (by show q.val / 6 = l.val; omega)
  have hi0 : ix5_0 (ix2 p q) = ix2 p k := by
    funext a; apply Fin.ext
    match a with
    | ⟨0, _⟩ => rfl
    | ⟨1, _⟩ => show q.val % 6 = k.val; omega
  have hi23 : ix5_23 (ix2 p q) = ix2 p k := by
    funext a; apply Fin.ext
    match a with
    | ⟨0, _⟩ => rfl
    | ⟨1, _⟩ => show q.val % 6 = k.val; omega
  have c1 := colIdx_eq ix5_1 (fun _ => rfl) p q
  have c2 := colIdx_eq ix5_2 (fun _ => rfl) p q
  have c3 := colIdx_eq ix5_3 (fun _ => rfl) p q
  have c4 := colIdx_eq ix5_4 (fun _ => rfl) p q
  have c5 := colIdx_eq ix5_5 (fun _ => rfl) p q
  have c6 := colIdx_eq ix5_6 (fun _ => rfl) p q
  have c7 := colIdx_eq ix5_7 (fun _ => rfl) p q
  have c8 := colIdx_eq ix5_8 (fun _ => rfl) p q
  have c9 := colIdx_eq ix5_9 (fun _ => rfl) p q
  have c10 := colIdx_eq ix5_10 (fun _ => rfl) p q
  have c11 := colIdx_eq ix5_11 (fun _ => rfl) p q
  have c12 := colIdx_eq ix5_12 (fun _ => rfl) p q
  have c13 := colIdx_eq ix5_13 (fun _ => rfl) p q
  have c14 := colIdx_eq ix5_14 (fun _ => rfl) p q
  have c15 := colIdx_eq ix5_15 (fun _ => rfl) p q
  have c16 := colIdx_eq ix5_16 (fun _ => rfl) p q
  have c17 := colIdx_eq ix5_17 (fun _ => rfl) p q
  have c18 := colIdx_eq ix5_18 (fun _ => rfl) p q
  have c19 := colIdx_eq ix5_19 (fun _ => rfl) p q
  have c20 := colIdx_eq ix5_20 (fun _ => rfl) p q
  have c21 := colIdx_eq ix5_21 (fun _ => rfl) p q
  have c22 := colIdx_eq ix5_22 (fun _ => rfl) p q
  have c24 := colIdx_eq ix5_24 (fun _ => rfl) p q
  unfold E5
  rw [hsel0, hsel23, hi0, hi23, c1, c2, c3, c4, c5, c6, c7, c8, c9, c10, c11, c12, c13, c14, c15, c16, c17, c18, c19, c20, c21, c22, c24, radial_apply, angular_apply]
  rfl

end Cert.Sbf.KernelEntry

end
-- ==== Proof.KernelArray.lean ====
/-
  The kernel's output array, entry by entry, and the five blocks a grid point loads.

  The grid has 3000 points; point t works on rows 1000·t … 1000·t + 999 of the 3000000 triplets. The value leg gives,
  blockwise, what point t writes back: one function E5 of the five blocks it loads. Here that is read at an entry of
  the final array — row 1000·t + p, column q of the output is E5 of point t's blocks at (p, q) — and each loaded
  block is read at an entry in terms of the arrays the program was launched with:

    * the distance column at row p of point t is the edge distance at the edge the triplet 1000·t + p reads: the
      host gathers the edge distances by the triplets' index words, each wrapped once when negative and then read
      signed and clamped into the 1000000 edges, and casts the result to one column;
    * the angle column is the angle vector cast to one column;
    * the mask column is the mask array itself;
    * the two 7×6 tables are whole blocks of literal words, the same at every point.

  A block's entry sits in its array, on each axis, at block index × block size + the coordinate inside the block; the
  block indices are decided once over the 3000 points.
-/
import proofs.«178250_j83665962926262_2_alg».proof.Proof.Gen.KernelIdeal.Value
import proofs.«178250_j83665962926262_2_alg».proof.Proof.RowIndex
import proofs.«178250_j83665962926262_2_alg».proof.Proof.LibColumnForms
import Idealize.ShloMosaic.Lib.ValueIdx
import Idealize.ShloMosaic.Lib.Pipeline.Value
import Idealize.ShloMosaic.Lib.StableHlo.Run

noncomputable section

namespace Cert.Sbf.KernelArray

open Cert.KernelIdeal Cert.KernelIdeal.Gen Cert.KernelIdeal.Value Idealize.ShloMosaic Idealize.ShloMosaic.ValueIdx Cert.Sbf
open Idealize.ShloMosaic.TcCoe

variable (m : (ℓ : Loc nD τ sig) → Buf (Elt Ideal) ℓ)

/-! ## The block indices, over the 3000 points -/

/-- The offsets of a whole-block rectangle are zero on both axes. -/
theorem zero_offsets : (![0, 0] : Fin 2 → Nat) = fun _ => 0 := funext fun a => by fin_cases a <;> rfl

/-- The three column windows move with the point: block t on the row axis, block 0 on the unit axis. -/
theorem column_block_index : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- The first table's window stays at block (0, 0). -/
theorem tabZ_block_index : ∀ t : Fin cfg0.N, win0_3.index t 0 = 0 ∧ win0_3.index t 1 = 0 :=
  (by decide +kernel : ∀ t : Fin grid0.N, win0_3.index t 0 = 0 ∧ win0_3.index t 1 = 0)

/-- The second table's window stays at block (0, 0). -/
theorem tabN_block_index : ∀ t : Fin cfg0.N, win0_4.index t 0 = 0 ∧ win0_4.index t 1 = 0 :=
  (by decide +kernel : ∀ t : Fin grid0.N, win0_4.index t 0 = 0 ∧ win0_4.index t 1 = 0)

/-- The output window moves with the point: block t on the row axis, block 0 on the column axis. -/
theorem out_block_index : ∀ t : Fin cfg0.N, win0_5.index t 0 = t.val ∧ win0_5.index t 1 = 0 :=
  (by decide +kernel : ∀ t : Fin grid0.N, win0_5.index t 0 = t.val ∧ win0_5.index t 1 = 0)

/-! ## The arrays the region finds -/

/-- The first table as the region finds it: the literal words, entry by entry. -/
theorem V_cst (c : Dev nD) :
    (V m c main_cst : S7x6.Idx → Elt Ideal .f32) = fun i => FloatOps.ofBits (F := Ideal) .f32 (lit0 (S7x6.rowMajor i)) := by
  dsimp only [Gen.V, Gen.hostOps0]; after_results; rfl

/-- The second table as the region finds it: the literal words, entry by entry. -/
theorem V_cst_0 (c : Dev nD) :
    (V m c main_cst_0 : S7x6.Idx → Elt Ideal .f32) = fun i => FloatOps.ofBits (F := Ideal) .f32 (lit1 (S7x6.rowMajor i)) := by
  dsimp only [Gen.V, Gen.hostOps0]; after_results; rfl

/-- The angle column as the region finds it: the angle vector cast to one column. -/
theorem V_v8 (c : Dev nD) :
    (V m c main_v8 : S3000000x1.Idx → Elt Ideal .f32)
      = shapeCast S3000000x1 (m ((c : Thread nD τ).loc main_arg1) : S3000000.Idx → Elt Ideal .f32) shapeCasts_S3000000_S3000000x1 := by
  dsimp only [Gen.V, Gen.hostOps0]; after_results; rfl

/-- The distance column as the region finds it: the edge distances gathered by the wrapped index words, cast to one
    column. -/
theorem V_v7 (c : Dev nD) :
    (V m c main_v7 : S3000000x1.Idx → Elt Ideal .f32)
      = shapeCast S3000000x1
          (Host.gather gather_S1000000_S3000000x1_S3000000_n_0_n_n_0_1_1
            (m ((c : Thread nD τ).loc main_arg0) : S1000000.Idx → Elt Ideal .f32)
            (broadcastInDim S3000000x1 ![0] bcast_S3000000_S3000000x1_0
              (select
                (cmpi .slt (m ((c : Thread nD τ).loc main_arg4) : S3000000.Idx → BitVec 32)
                  (broadcastInDim S3000000 ![] bcast_S_S3000000 (constantI S_ 32 0#32)))
                (addi (m ((c : Thread nD τ).loc main_arg4) : S3000000.Idx → BitVec 32)
                  (broadcastInDim S3000000 ![] bcast_S_S3000000 (constantI S_ 32 1000000#32)))
                (m ((c : Thread nD τ).loc main_arg4) : S3000000.Idx → BitVec 32))))
          shapeCasts_S3000000_S3000000x1 := by
  dsimp only [Gen.V, Gen.hostOps0]; after_results; rfl

/-! ## A gather of single entries, read at an index -/

section Pick
variable {α : Type}

/-- The dimension numbers of a gather of single entries: operand [N], start indices [E, 1] with the index vector on
    axis 1, result [E]; the one operand axis is collapsed and is the axis the start index names. -/
abbrev pickDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- That gather read at e: the operand at the start index idx (e, 0), read signed and clamped into [0, N − 1]. (The
    operand axis is collapsed and not a batching one, so the operand index is the clamped start alone.) -/
theorem gather_pick_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pickDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (pickDims N E wf).start (ix1 e) idx 0 + (pickDims N E wf).batchCoord (ix1 e) 0
    + (pickDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N E wf).startIndexMap from List.mem_singleton.mpr rfl)]
  have hsi : (pickDims N E wf).siIdx (ix1 e) ⟨List.idxOf (0 : Fin 1) (pickDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entries picked at equal index words are equal. -/
theorem pick_congr {N : Nat} (x : (⟨1, ![N]⟩ : Shape).Idx → α) {a b : BitVec 32} (h : a = b)
    (ha : min a.toInt.toNat (N - 1) < N) (hb : min b.toInt.toNat (N - 1) < N) :
    x (ix1 ⟨min a.toInt.toNat (N - 1), ha⟩) = x (ix1 ⟨min b.toInt.toNat (N - 1), hb⟩) := by
  subst h; rfl

end Pick

/-- The kernel's gather is that one at 1000000 edges and 3000000 triplets. -/
theorem gather_eq_pick : gather_S1000000_S3000000x1_S3000000_n_0_n_n_0_1_1
    = pickDims 1000000 3000000 gather_S1000000_S3000000x1_S3000000_n_0_n_n_0_1_1_wf := rfl

/-- The index vector of the gather, read at (e, 0): the index word of e wrapped once when negative. -/
theorem idxvec_apply (A : S3000000.Idx → BitVec 32) (e : Fin 3000000) :
    broadcastInDim S3000000x1 ![0] bcast_S3000000_S3000000x1_0
      (select (cmpi .slt A (broadcastInDim S3000000 ![] bcast_S_S3000000 (constantI S_ 32 0#32)))
        (addi A (broadcastInDim S3000000 ![] bcast_S_S3000000 (constantI S_ 32 1000000#32))) A) (ix2 e (0 : Fin 1))
      = wrapped (A (ix1 e)) := by
  refine (broadcastInDim_apply _ _ _ (ix2 e (0 : Fin 1)) (ix1 e) (fun a => ?_)).trans rfl
  match a with
  | ⟨0, _⟩ => show e.val = if (3000000 : Nat) = 1 then 0 else e.val; rw [if_neg (by decide)]

/-! ## The output array at an entry -/

/-- Row 1000·t + p, column q of the output array after the run is what point t left at (p, q) of its block: the
    blocks of distinct points are disjoint, point t's block starts at row 1000·t, and what it writes back is E5 of
    the blocks it loaded (each load is of a whole block). -/
theorem arr_apply_of (c : Dev nD) (t : Fin cfg0.N) (p : Fin 1000) (q : Fin 42) (hlt : 1000 * t.val + p.val < 3000000) :
    (dats m 0 c).arrAt 5 cfg0.N (ix2 (⟨1000 * t.val + p.val, hlt⟩ : Fin 3000000) q)
      = E5 (F := Ideal) (iblk m c 4 t) (iblk m c 0 t) (iblk m c 3 t) (iblk m c 1 t) (iblk m c 2 t) (ix2 p q) := by
  obtain ⟨h0, h1⟩ := out_block_index t
  have he : ((cfg0.win 5).blk t).view.emb (ix2 p q) = ix2 (⟨1000 * t.val + p.val, hlt⟩ : Fin 3000000) q := by
    funext a; apply Fin.ext
    match a with
    | ⟨0, _⟩ => show win0_5.index t 0 * 1000 + 1 * p.val = 1000 * t.val + p.val; omega
    | ⟨1, _⟩ => show win0_5.index t 1 * 42 + 1 * q.val = q.val; omega
  have hb := congrFun (blocks5 m c t (flush0_5 t)) (ix2 p q)
  rw [flushed5] at hb
  refine Eq.trans ?_ (hb.trans ?_)
  · show _ = (dats m 0 c).arrAt 5 cfg0.N (((cfg0.win 5).blk t).view.emb (ix2 p q))
    rw [he]
  · show out0_5 (iblk m c 0 t) (iblk m c 1 t) (iblk m c 2 t) (iblk m c 3 t) (iblk m c 4 t) (ix2 p q) = _
    unfold out0_5
    simp only [View.ld_unit_zero (S := S1000x1) zero_offsets, View.ld_unit_zero (S := S7x6) zero_offsets]
    exact canon5_eq (iblk m c 4 t) (iblk m c 0 t) (iblk m c 3 t) (iblk m c 1 t) (iblk m c 2 t) (ix2 p q)

/-- The same with the point as a number below 3000. -/
theorem arr_apply (c : Dev nD) (t : Fin 3000) (p : Fin 1000) (q : Fin 42) :
    (dats m 0 c).arrAt 5 cfg0.N (ix2 (⟨1000 * t.val + p.val, by omega⟩ : Fin 3000000) q)
      = E5 (F := Ideal) (iblk m c 4 t) (iblk m c 0 t) (iblk m c 3 t) (iblk m c 1 t) (iblk m c 2 t) (ix2 p q) :=
  arr_apply_of m c t p q _

/-! ## The loaded blocks at an entry -/

/-- The distance block of point t at row p: the edge distance at the edge the triplet 1000·t + p reads. -/
theorem dist_apply (c : Dev nD) (t : Fin 3000) (p : Fin 1000) :
    iblk (F := Ideal) m c 0 t (ix2 p (0 : Fin 1))
      = (m ((c : Thread nD τ).loc main_arg0) : S1000000.Idx → EReal)
          (ix1 (row (m ((c : Thread nD τ).loc main_arg4)) (⟨1000 * t.val + p.val, by omega⟩ : Fin 3000000))) := by
  have hlt : 1000 * t.val + p.val < 3000000 := by omega
  obtain ⟨⟨h0, h1⟩, -, -⟩ := column_block_index t
  have he : ((cfg0.win 0).blk t).view.emb (ix2 p (0 : Fin 1)) = ix2 (⟨1000 * t.val + p.val, hlt⟩ : Fin 3000000) (0 : Fin 1) := by
    funext a; apply Fin.ext
    match a with
    | ⟨0, _⟩ => show win0_0.index t 0 * 1000 + 1 * p.val = 1000 * t.val + p.val; omega
    | ⟨1, _⟩ => show win0_0.index t 1 * 1 + 1 * 0 = 0; omega
  show V m c main_v7 (((cfg0.win 0).blk t).view.emb (ix2 p (0 : Fin 1))) = _
  rw [he, V_v7]
  refine (Cert.Lib.ColumnForms.shapeCast_a_a1_apply _ _ _ _).trans ?_
  rw [gather_eq_pick]
  refine (gather_pick_apply (by decide) _ _ _ _).trans ?_
  unfold row
  exact pick_congr _ (idxvec_apply _ _) _ _

/-- The angle block of point t at row p: the angle of triplet 1000·t + p. -/
theorem angle_apply (c : Dev nD) (t : Fin 3000) (p : Fin 1000) :
    iblk (F := Ideal) m c 1 t (ix2 p (0 : Fin 1))
      = (m ((c : Thread nD τ).loc main_arg1) : S3000000.Idx → EReal) (ix1 (⟨1000 * t.val + p.val, by omega⟩ : Fin 3000000)) := by
  have hlt : 1000 * t.val + p.val < 3000000 := by omega
  obtain ⟨-, ⟨h0, h1⟩, -⟩ := column_block_index t
  have he : ((cfg0.win 1).blk t).view.emb (ix2 p (0 : Fin 1)) = ix2 (⟨1000 * t.val + p.val, hlt⟩ : Fin 3000000) (0 : Fin 1) := by
    funext a; apply Fin.ext
    match a with
    | ⟨0, _⟩ => show win0_1.index t 0 * 1000 + 1 * p.val = 1000 * t.val + p.val; omega
    | ⟨1, _⟩ => show win0_1.index t 1 * 1 + 1 * 0 = 0; omega
  show V m c main_v8 (((cfg0.win 1).blk t).view.emb (ix2 p (0 : Fin 1))) = _
  rw [he, V_v8]
  exact Cert.Lib.ColumnForms.shapeCast_a_a1_apply _ _ _ _

/-- The mask block of point t at row p: the mask of triplet 1000·t + p. -/
theorem mask_apply (c : Dev nD) (t : Fin 3000) (p : Fin 1000) :
    iblk (F := Ideal) m c 2 t (ix2 p (0 : Fin 1))
      = (m ((c : Thread nD τ).loc main_arg2) : S3000000x1.Idx → EReal) (ix2 (⟨1000 * t.val + p.val, by omega⟩ : Fin 3000000) (0 : Fin 1)) := by
  have hlt : 1000 * t.val + p.val < 3000000 := by omega
  obtain ⟨-, -, h0, h1⟩ := column_block_index t
  have he : ((cfg0.win 2).blk t).view.emb (ix2 p (0 : Fin 1)) = ix2 (⟨1000 * t.val + p.val, hlt⟩ : Fin 3000000) (0 : Fin 1) := by
    funext a; apply Fin.ext
    match a with
    | ⟨0, _⟩ => show win0_2.index t 0 * 1000 + 1 * p.val = 1000 * t.val + p.val; omega
    | ⟨1, _⟩ => show win0_2.index t 1 * 1 + 1 * 0 = 0; omega
  show V m c main_arg2 (((cfg0.win 2).blk t).view.emb (ix2 p (0 : Fin 1))) = _
  rw [he, V_main_arg2]

/-- The first table's block at any point is the table: entry (l, k) is its literal word. -/
theorem tabZ_apply (c : Dev nD) (t : Fin 3000) (l : Fin 7) (k : Fin 6) :
    iblk (F := Ideal) m c 3 t (ix2 l k) = Ideal.ofBits .f32 (lit0 (S7x6.rowMajor (ix2 l k))) := by
  obtain ⟨h0, h1⟩ := tabZ_block_index t
  have he : ((cfg0.win 3).blk t).view.emb (ix2 l k) = ix2 l k := by
    funext a; apply Fin.ext
    match a with
    | ⟨0, _⟩ => show win0_3.index t 0 * 7 + 1 * l.val = l.val; omega
    | ⟨1, _⟩ => show win0_3.index t 1 * 6 + 1 * k.val = k.val; omega
  show V m c main_cst (((cfg0.win 3).blk t).view.emb (ix2 l k)) = _
  rw [he, V_cst]
  rfl

/-- The second table's block at any point is the table: entry (l, k) is its literal word. -/
theorem tabN_apply (c : Dev nD) (t : Fin 3000) (l : Fin 7) (k : Fin 6) :
    iblk (F := Ideal) m c 4 t (ix2 l k) = Ideal.ofBits .f32 (lit1 (S7x6.rowMajor (ix2 l k))) := by
  obtain ⟨h0, h1⟩ := tabN_block_index t
  have he : ((cfg0.win 4).blk t).view.emb (ix2 l k) = ix2 l k := by
    funext a; apply Fin.ext
    match a with
    | ⟨0, _⟩ => show win0_4.index t 0 * 7 + 1 * l.val = l.val; omega
    | ⟨1, _⟩ => show win0_4.index t 1 * 6 + 1 * k.val = k.val; omega
  show V m c main_cst_0 (((cfg0.win 4).blk t).view.emb (ix2 l k)) = _
  rw [he, V_cst_0]
  rfl

end Cert.Sbf.KernelArray

end
-- ==== Proof.RefOps.lean ====
/- The reference's host program as a list of operations: the printed program is that list run in order,
   so every weakly fair execution ends with each buffer at the fold of the operations over the launch contents.
   The same list is then cut a second time, by what each stretch computes (the envelope, the seven radial blocks,
   the gather, the Legendre columns, their layout as 42 columns times the mask, the last product), with the buffers each stretch writes. -/
import proofs.«178250_j83665962926262_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The operations of the printed program's window 0. -/
abbrev win0 : List (HloOp τ sig (Elt F)) :=
  [ nullary main_cst (fun i => FloatOps.ofBits .f32 (lit0 (S7x6.rowMajor i))),
    nullary main_cst_0 (fun i => FloatOps.ofBits .f32 (lit1 (S7x6.rowMajor i))),
    nullary main_cst_1 (constant S_ .f32 0x3E4CCCCD#32),
    unary main_cst_1 main_v0 (broadcastInDim S1000000 ![] bcast_S_S1000000 : (⟨S_, .f32⟩ : BufTy).Contents (Elt F) → (⟨S1000000, .f32⟩ : BufTy).Contents (Elt F)),
    binary main_arg0 main_v0 main_v1 (mulf : (⟨S1000000, .f32⟩ : BufTy).Contents (Elt F) → (⟨S1000000, .f32⟩ : BufTy).Contents (Elt F) → (⟨S1000000, .f32⟩ : BufTy).Contents (Elt F)),
    binary main_v1 main_v1 main_v2 (mulf : (⟨S1000000, .f32⟩ : BufTy).Contents (Elt F) → (⟨S1000000, .f32⟩ : BufTy).Contents (Elt F) → (⟨S1000000, .f32⟩ : BufTy).Contents (Elt F)),
    binary main_v2 main_v2 main_v3 (mulf : (⟨S1000000, .f32⟩ : BufTy).Contents (Elt F) → (⟨S1000000, .f32⟩ : BufTy).Contents (Elt F) → (⟨S1000000, .f32⟩ : BufTy).Contents (Elt F)),
    binary main_v2 main_v3 main_v4 (mulf : (⟨S1000000, .f32⟩ : BufTy).Contents (Elt F) → (⟨S1000000, .f32⟩ : BufTy).Contents (Elt F) → (⟨S1000000, .f32⟩ : BufTy).Contents (Elt F)),
    nullary main_cst_2 (constant S_ .f32 0xC1E00000#32),
    unary main_cst_2 main_v5 (broadcastInDim S1000000 ![] bcast_S_S1000000 : (⟨S_, .f32⟩ : BufTy).Contents (Elt F) → (⟨S1000000, .f32⟩ : BufTy).Contents (Elt F)),
    binary main_v5 main_v4 main_v6 (mulf : (⟨S1000000, .f32⟩ : BufTy).Contents (Elt F) → (⟨S1000000, .f32⟩ : BufTy).Contents (Elt F) → (⟨S1000000, .f32⟩ : BufTy).Contents (Elt F)),
    nullary main_cst_3 (constant S_ .f32 0x3F800000#32),
    unary main_cst_3 main_v7 (broadcastInDim S1000000 ![] bcast_S_S1000000 : (⟨S_, .f32⟩ : BufTy).Contents (Elt F) → (⟨S1000000, .f32⟩ : BufTy).Contents (Elt F)),
    binary main_v7 main_v6 main_v8 (addf : (⟨S1000000, .f32⟩ : BufTy).Contents (Elt F) → (⟨S1000000, .f32⟩ : BufTy).Contents (Elt F) → (⟨S1000000, .f32⟩ : BufTy).Contents (Elt F)),
    nullary main_cst_4 (constant S_ .f32 0x40E00000#32),
    unary main_cst_4 main_v9 (broadcastInDim S1000000 ![] bcast_S_S1000000 : (⟨S_, .f32⟩ : BufTy).Contents (Elt F) → (⟨S1000000, .f32⟩ : BufTy).Contents (Elt F)),
    binary main_v1 main_v9 main_v10 (Host.powf : (⟨S1000000, .f32⟩ : BufTy).Contents (Elt F) → (⟨S1000000, .f32⟩ : BufTy).Contents (Elt F) → (⟨S1000000, .f32⟩ : BufTy).Contents (Elt F)),
    nullary main_cst_5 (constant S_ .f32 0x42400000#32),
    unary main_cst_5 main_v11 (broadcastInDim S1000000 ![] bcast_S_S1000000 : (⟨S_, .f32⟩ : BufTy).Contents (Elt F) → (⟨S1000000, .f32⟩ : BufTy).Contents (Elt F)),
    binary main_v11 main_v10 main_v12 (mulf : (⟨S1000000, .f32⟩ : BufTy).Contents (Elt F) → (⟨S1000000, .f32⟩ : BufTy).Contents (Elt F) → (⟨S1000000, .f32⟩ : BufTy).Contents (Elt F)),
    binary main_v8 main_v12 main_v13 (addf : (⟨S1000000, .f32⟩ : BufTy).Contents (Elt F) → (⟨S1000000, .f32⟩ : BufTy).Contents (Elt F) → (⟨S1000000, .f32⟩ : BufTy).Contents (Elt F)),
    nullary main_cst_6 (constant S_ .f32 0x41000000#32),
    unary main_cst_6 main_v14 (broadcastInDim S1000000 ![] bcast_S_S1000000 : (⟨S_, .f32⟩ : BufTy).Contents (Elt F) → (⟨S1000000, .f32⟩ : BufTy).Contents (Elt F)),
    binary main_v1 main_v14 main_v15 (Host.powf : (⟨S1000000, .f32⟩ : BufTy).Contents (Elt F) → (⟨S1000000, .f32⟩ : BufTy).Contents (Elt F) → (⟨S1000000, .f32⟩ : BufTy).Contents (Elt F)),
    nullary main_cst_7 (constant S_ .f32 0xC1A80000#32),
    unary main_cst_7 main_v16 (broadcastInDim S1000000 ![] bcast_S_S1000000 : (⟨S_, .f32⟩ : BufTy).Contents (Elt F) → (⟨S1000000, .f32⟩ : BufTy).Contents (Elt F)),
    binary main_v16 main_v15 main_v17 (mulf : (⟨S1000000, .f32⟩ : BufTy).Contents (Elt F) → (⟨S1000000, .f32⟩ : BufTy).Contents (Elt F) → (⟨S1000000, .f32⟩ : BufTy).Contents (Elt F)),
    binary main_v13 main_v17 main_v18 (addf : (⟨S1000000, .f32⟩ : BufTy).Contents (Elt F) → (⟨S1000000, .f32⟩ : BufTy).Contents (Elt F) → (⟨S1000000, .f32⟩ : BufTy).Contents (Elt F)),
    nullary main_cst_8 (constant S_ .f32 0x3F800000#32),
    unary main_cst_8 main_v19 (broadcastInDim S1000000 ![] bcast_S_S1000000 : (⟨S_, .f32⟩ : BufTy).Contents (Elt F) → (⟨S1000000, .f32⟩ : BufTy).Contents (Elt F)),
    binary main_v1 main_v19 main_v20 (cmpf .olt : (⟨S1000000, .f32⟩ : BufTy).Contents (Elt F) → (⟨S1000000, .f32⟩ : BufTy).Contents (Elt F) → (⟨S1000000, .i1⟩ : BufTy).Contents (Elt F)),
    nullary main_cst_9 (constant S_ .f32 0x00000000#32),
    TRef.unary (.of main_cst_9) main_call0.v0 id,
    TRef.unary main_call0.v0 main_call0.v1 (broadcastInDim S1000000 ![] bcast_S_S1000000),
    TRef.ternary (.of main_v20) (.of main_v18) main_call0.v1 main_call0.v2 select,
    unary main_cst_0 main_v22 ((extractStridedSlice S1x6 ![0, 0] · slices_S7x6_S1x6_0_0) : (⟨S7x6, .f32⟩ : BufTy).Contents (Elt F) → (⟨S1x6, .f32⟩ : BufTy).Contents (Elt F)),
    reshape main_v22 main_v23 rfl shapeCasts_S1x6_S6,
    unary main_v1 main_v24 (broadcastInDim S1000000x1 ![0] bcast_S1000000_S1000000x1_0 : (⟨S1000000, .f32⟩ : BufTy).Contents (Elt F) → (⟨S1000000x1, .f32⟩ : BufTy).Contents (Elt F)),
    unary main_cst main_v25 ((extractStridedSlice S1x6 ![0, 0] · slices_S7x6_S1x6_0_0) : (⟨S7x6, .f32⟩ : BufTy).Contents (Elt F) → (⟨S1x6, .f32⟩ : BufTy).Contents (Elt F)),
    reshape main_v25 main_v26 rfl shapeCasts_S1x6_S6,
    unary main_v26 main_v27 (broadcastInDim S1x6 ![1] bcast_S6_S1x6_1 : (⟨S6, .f32⟩ : BufTy).Contents (Elt F) → (⟨S1x6, .f32⟩ : BufTy).Contents (Elt F)),
    unary main_v24 main_v28 (broadcastInDim S1000000x6 ![0, 1] bcast_S1000000x1_S1000000x6_0_1 : (⟨S1000000x1, .f32⟩ : BufTy).Contents (Elt F) → (⟨S1000000x6, .f32⟩ : BufTy).Contents (Elt F)),
    unary main_v27 main_v29 (broadcastInDim S1000000x6 ![0, 1] bcast_S1x6_S1000000x6_0_1 : (⟨S1x6, .f32⟩ : BufTy).Contents (Elt F) → (⟨S1000000x6, .f32⟩ : BufTy).Contents (Elt F)),
    binary main_v28 main_v29 main_v30 (mulf : (⟨S1000000x6, .f32⟩ : BufTy).Contents (Elt F) → (⟨S1000000x6, .f32⟩ : BufTy).Contents (Elt F) → (⟨S1000000x6, .f32⟩ : BufTy).Contents (Elt F)),
    unary main_v30 main_v31 (Host.sin : (⟨S1000000x6, .f32⟩ : BufTy).Contents (Elt F) → (⟨S1000000x6, .f32⟩ : BufTy).Contents (Elt F)),
    binary main_v31 main_v30 main_v32 (Host.divf : (⟨S1000000x6, .f32⟩ : BufTy).Contents (Elt F) → (⟨S1000000x6, .f32⟩ : BufTy).Contents (Elt F) → (⟨S1000000x6, .f32⟩ : BufTy).Contents (Elt F)),
    unary main_v23 main_v33 (broadcastInDim S1x6 ![1] bcast_S6_S1x6_1 : (⟨S6, .f32⟩ : BufTy).Contents (Elt F) → (⟨S1x6, .f32⟩ : BufTy).Contents (Elt F)),
    unary main_v33 main_v34 (broadcastInDim S1000000x6 ![0, 1] bcast_S1x6_S1000000x6_0_1 : (⟨S1x6, .f32⟩ : BufTy).Contents (Elt F) → (⟨S1000000x6, .f32⟩ : BufTy).Contents (Elt F)),
    binary main_v34 main_v32 main_v35 (mulf : (⟨S1000000x6, .f32⟩ : BufTy).Contents (Elt F) → (⟨S1000000x6, .f32⟩ : BufTy).Contents (Elt F) → (⟨S1000000x6, .f32⟩ : BufTy).Contents (Elt F)),
    unary main_cst_0 main_v36 ((extractStridedSlice S1x6 ![1, 0] · slices_S7x6_S1x6_1_0) : (⟨S7x6, .f32⟩ : BufTy).Contents (Elt F) → (⟨S1x6, .f32⟩ : BufTy).Contents (Elt F)),
    reshape main_v36 main_v37 rfl shapeCasts_S1x6_S6,
    unary main_v1 main_v38 (broadcastInDim S1000000x1 ![0] bcast_S1000000_S1000000x1_0 : (⟨S1000000, .f32⟩ : BufTy).Contents (Elt F) → (⟨S1000000x1, .f32⟩ : BufTy).Contents (Elt F)),
    unary main_cst main_v39 ((extractStridedSlice S1x6 ![1, 0] · slices_S7x6_S1x6_1_0) : (⟨S7x6, .f32⟩ : BufTy).Contents (Elt F) → (⟨S1x6, .f32⟩ : BufTy).Contents (Elt F)),
    reshape main_v39 main_v40 rfl shapeCasts_S1x6_S6,
    unary main_v40 main_v41 (broadcastInDim S1x6 ![1] bcast_S6_S1x6_1 : (⟨S6, .f32⟩ : BufTy).Contents (Elt F) → (⟨S1x6, .f32⟩ : BufTy).Contents (Elt F)),
    unary main_v38 main_v42 (broadcastInDim S1000000x6 ![0, 1] bcast_S1000000x1_S1000000x6_0_1 : (⟨S1000000x1, .f32⟩ : BufTy).Contents (Elt F) → (⟨S1000000x6, .f32⟩ : BufTy).Contents (Elt F)),
    unary main_v41 main_v43 (broadcastInDim S1000000x6 ![0, 1] bcast_S1x6_S1000000x6_0_1 : (⟨S1x6, .f32⟩ : BufTy).Contents (Elt F) → (⟨S1000000x6, .f32⟩ : BufTy).Contents (Elt F)),
    binary main_v42 main_v43 main_v44 (mulf : (⟨S1000000x6, .f32⟩ : BufTy).Contents (Elt F) → (⟨S1000000x6, .f32⟩ : BufTy).Contents (Elt F) → (⟨S1000000x6, .f32⟩ : BufTy).Contents (Elt F)),
    unary main_v44 main_v45 (Host.sin : (⟨S1000000x6, .f32⟩ : BufTy).Contents (Elt F) → (⟨S1000000x6, .f32⟩ : BufTy).Contents (Elt F)),
    binary main_v45 main_v44 main_v46 (Host.divf : (⟨S1000000x6, .f32⟩ : BufTy).Contents (Elt F) → (⟨S1000000x6, .f32⟩ : BufTy).Contents (Elt F) → (⟨S1000000x6, .f32⟩ : BufTy).Contents (Elt F)),
    unary main_v44 main_v47 (Host.sin : (⟨S1000000x6, .f32⟩ : BufTy).Contents (Elt F) → (⟨S1000000x6, .f32⟩ : BufTy).Contents (Elt F)),
    binary main_v44 main_v44 main_v48 (mulf : (⟨S1000000x6, .f32⟩ : BufTy).Contents (Elt F) → (⟨S1000000x6, .f32⟩ : BufTy).Contents (Elt F) → (⟨S1000000x6, .f32⟩ : BufTy).Contents (Elt F)) ]

/-- The operations of the printed program's window 1. -/
abbrev win1 : List (HloOp τ sig (Elt F)) :=
  [ binary main_v47 main_v48 main_v49 (Host.divf : (⟨S1000000x6, .f32⟩ : BufTy).Contents (Elt F) → (⟨S1000000x6, .f32⟩ : BufTy).Contents (Elt F) → (⟨S1000000x6, .f32⟩ : BufTy).Contents (Elt F)),
    unary main_v44 main_v50 (Host.cos : (⟨S1000000x6, .f32⟩ : BufTy).Contents (Elt F) → (⟨S1000000x6, .f32⟩ : BufTy).Contents (Elt F)),
    binary main_v50 main_v44 main_v51 (Host.divf : (⟨S1000000x6, .f32⟩ : BufTy).Contents (Elt F) → (⟨S1000000x6, .f32⟩ : BufTy).Contents (Elt F) → (⟨S1000000x6, .f32⟩ : BufTy).Contents (Elt F)),
    binary main_v49 main_v51 main_v52 (subf : (⟨S1000000x6, .f32⟩ : BufTy).Contents (Elt F) → (⟨S1000000x6, .f32⟩ : BufTy).Contents (Elt F) → (⟨S1000000x6, .f32⟩ : BufTy).Contents (Elt F)),
    unary main_v37 main_v53 (broadcastInDim S1x6 ![1] bcast_S6_S1x6_1 : (⟨S6, .f32⟩ : BufTy).Contents (Elt F) → (⟨S1x6, .f32⟩ : BufTy).Contents (Elt F)),
    unary main_v53 main_v54 (broadcastInDim S1000000x6 ![0, 1] bcast_S1x6_S1000000x6_0_1 : (⟨S1x6, .f32⟩ : BufTy).Contents (Elt F) → (⟨S1000000x6, .f32⟩ : BufTy).Contents (Elt F)),
    binary main_v54 main_v52 main_v55 (mulf : (⟨S1000000x6, .f32⟩ : BufTy).Contents (Elt F) → (⟨S1000000x6, .f32⟩ : BufTy).Contents (Elt F) → (⟨S1000000x6, .f32⟩ : BufTy).Contents (Elt F)),
    unary main_cst_0 main_v56 ((extractStridedSlice S1x6 ![2, 0] · slices_S7x6_S1x6_2_0) : (⟨S7x6, .f32⟩ : BufTy).Contents (Elt F) → (⟨S1x6, .f32⟩ : BufTy).Contents (Elt F)),
    reshape main_v56 main_v57 rfl shapeCasts_S1x6_S6,
    unary main_v1 main_v58 (broadcastInDim S1000000x1 ![0] bcast_S1000000_S1000000x1_0 : (⟨S1000000, .f32⟩ : BufTy).Contents (Elt F) → (⟨S1000000x1, .f32⟩ : BufTy).Contents (Elt F)),
    unary main_cst main_v59 ((extractStridedSlice S1x6 ![2, 0] · slices_S7x6_S1x6_2_0) : (⟨S7x6, .f32⟩ : BufTy).Contents (Elt F) → (⟨S1x6, .f32⟩ : BufTy).Contents (Elt F)),
    reshape main_v59 main_v60 rfl shapeCasts_S1x6_S6,
    unary main_v60 main_v61 (broadcastInDim S1x6 ![1] bcast_S6_S1x6_1 : (⟨S6, .f32⟩ : BufTy).Contents (Elt F) → (⟨S1x6, .f32⟩ : BufTy).Contents (Elt F)),
    unary main_v58 main_v62 (broadcastInDim S1000000x6 ![0, 1] bcast_S1000000x1_S1000000x6_0_1 : (⟨S1000000x1, .f32⟩ : BufTy).Contents (Elt F) → (⟨S1000000x6, .f32⟩ : BufTy).Contents (Elt F)),
    unary main_v61 main_v63 (broadcastInDim S1000000x6 ![0, 1] bcast_S1x6_S1000000x6_0_1 : (⟨S1x6, .f32⟩ : BufTy).Contents (Elt F) → (⟨S1000000x6, .f32⟩ : BufTy).Contents (Elt F)),
    binary main_v62 main_v63 main_v64 (mulf : (⟨S1000000x6, .f32⟩ : BufTy).Contents (Elt F) → (⟨S1000000x6, .f32⟩ : BufTy).Contents (Elt F) → (⟨S1000000x6, .f32⟩ : BufTy).Contents (Elt F)),
    unary main_v64 main_v65 (Host.sin : (⟨S1000000x6, .f32⟩ : BufTy).Contents (Elt F) → (⟨S1000000x6, .f32⟩ : BufTy).Contents (Elt F)),
    binary main_v65 main_v64 main_v66 (Host.divf : (⟨S1000000x6, .f32⟩ : BufTy).Contents (Elt F) → (⟨S1000000x6, .f32⟩ : BufTy).Contents (Elt F) → (⟨S1000000x6, .f32⟩ : BufTy).Contents (Elt F)),
    unary main_v64 main_v67 (Host.sin : (⟨S1000000x6, .f32⟩ : BufTy).Contents (Elt F) → (⟨S1000000x6, .f32⟩ : BufTy).Contents (Elt F)),
    binary main_v64 main_v64 main_v68 (mulf : (⟨S1000000x6, .f32⟩ : BufTy).Contents (Elt F) → (⟨S1000000x6, .f32⟩ : BufTy).Contents (Elt F) → (⟨S1000000x6, .f32⟩ : BufTy).Contents (Elt F)),
    binary main_v67 main_v68 main_v69 (Host.divf : (⟨S1000000x6, .f32⟩ : BufTy).Contents (Elt F) → (⟨S1000000x6, .f32⟩ : BufTy).Contents (Elt F) → (⟨S1000000x6, .f32⟩ : BufTy).Contents (Elt F)),
    unary main_v64 main_v70 (Host.cos : (⟨S1000000x6, .f32⟩ : BufTy).Contents (Elt F) → (⟨S1000000x6, .f32⟩ : BufTy).Contents (Elt F)),
    binary main_v70 main_v64 main_v71 (Host.divf : (⟨S1000000x6, .f32⟩ : BufTy).Contents (Elt F) → (⟨S1000000x6, .f32⟩ : BufTy).Contents (Elt F) → (⟨S1000000x6, .f32⟩ : BufTy).Contents (Elt F)),
    binary main_v69 main_v71 main_v72 (subf : (⟨S1000000x6, .f32⟩ : BufTy).Contents (Elt F) → (⟨S1000000x6, .f32⟩ : BufTy).Contents (Elt F) → (⟨S1000000x6, .f32⟩ : BufTy).Contents (Elt F)),
    nullary main_cst_10 (constant S_ .f32 0x40400000#32),
    unary main_cst_10 main_v73 (broadcastInDim S1000000x6 ![] bcast_S_S1000000x6 : (⟨S_, .f32⟩ : BufTy).Contents (Elt F) → (⟨S1000000x6, .f32⟩ : BufTy).Contents (Elt F)),
    binary main_v73 main_v64 main_v74 (Host.divf : (⟨S1000000x6, .f32⟩ : BufTy).Contents (Elt F) → (⟨S1000000x6, .f32⟩ : BufTy).Contents (Elt F) → (⟨S1000000x6, .f32⟩ : BufTy).Contents (Elt F)),
    binary main_v74 main_v72 main_v75 (mulf : (⟨S1000000x6, .f32⟩ : BufTy).Contents (Elt F) → (⟨S1000000x6, .f32⟩ : BufTy).Contents (Elt F) → (⟨S1000000x6, .f32⟩ : BufTy).Contents (Elt F)),
    binary main_v75 main_v66 main_v76 (subf : (⟨S1000000x6, .f32⟩ : BufTy).Contents (Elt F) → (⟨S1000000x6, .f32⟩ : BufTy).Contents (Elt F) → (⟨S1000000x6, .f32⟩ : BufTy).Contents (Elt F)),
    unary main_v57 main_v77 (broadcastInDim S1x6 ![1] bcast_S6_S1x6_1 : (⟨S6, .f32⟩ : BufTy).Contents (Elt F) → (⟨S1x6, .f32⟩ : BufTy).Contents (Elt F)),
    unary main_v77 main_v78 (broadcastInDim S1000000x6 ![0, 1] bcast_S1x6_S1000000x6_0_1 : (⟨S1x6, .f32⟩ : BufTy).Contents (Elt F) → (⟨S1000000x6, .f32⟩ : BufTy).Contents (Elt F)),
    binary main_v78 main_v76 main_v79 (mulf : (⟨S1000000x6, .f32⟩ : BufTy).Contents (Elt F) → (⟨S1000000x6, .f32⟩ : BufTy).Contents (Elt F) → (⟨S1000000x6, .f32⟩ : BufTy).Contents (Elt F)),
    unary main_cst_0 main_v80 ((extractStridedSlice S1x6 ![3, 0] · slices_S7x6_S1x6_3_0) : (⟨S7x6, .f32⟩ : BufTy).Contents (Elt F) → (⟨S1x6, .f32⟩ : BufTy).Contents (Elt F)),
    reshape main_v80 main_v81 rfl shapeCasts_S1x6_S6,
    unary main_v1 main_v82 (broadcastInDim S1000000x1 ![0] bcast_S1000000_S1000000x1_0 : (⟨S1000000, .f32⟩ : BufTy).Contents (Elt F) → (⟨S1000000x1, .f32⟩ : BufTy).Contents (Elt F)),
    unary main_cst main_v83 ((extractStridedSlice S1x6 ![3, 0] · slices_S7x6_S1x6_3_0) : (⟨S7x6, .f32⟩ : BufTy).Contents (Elt F) → (⟨S1x6, .f32⟩ : BufTy).Contents (Elt F)),
    reshape main_v83 main_v84 rfl shapeCasts_S1x6_S6,
    unary main_v84 main_v85 (broadcastInDim S1x6 ![1] bcast_S6_S1x6_1 : (⟨S6, .f32⟩ : BufTy).Contents (Elt F) → (⟨S1x6, .f32⟩ : BufTy).Contents (Elt F)),
    unary main_v82 main_v86 (broadcastInDim S1000000x6 ![0, 1] bcast_S1000000x1_S1000000x6_0_1 : (⟨S1000000x1, .f32⟩ : BufTy).Contents (Elt F) → (⟨S1000000x6, .f32⟩ : BufTy).Contents (Elt F)),
    unary main_v85 main_v87 (broadcastInDim S1000000x6 ![0, 1] bcast_S1x6_S1000000x6_0_1 : (⟨S1x6, .f32⟩ : BufTy).Contents (Elt F) → (⟨S1000000x6, .f32⟩ : BufTy).Contents (Elt F)),
    binary main_v86 main_v87 main_v88 (mulf : (⟨S1000000x6, .f32⟩ : BufTy).Contents (Elt F) → (⟨S1000000x6, .f32⟩ : BufTy).Contents (Elt F) → (⟨S1000000x6, .f32⟩ : BufTy).Contents (Elt F)),
    unary main_v88 main_v89 (Host.sin : (⟨S1000000x6, .f32⟩ : BufTy).Contents (Elt F) → (⟨S1000000x6, .f32⟩ : BufTy).Contents (Elt F)),
    binary main_v89 main_v88 main_v90 (Host.divf : (⟨S1000000x6, .f32⟩ : BufTy).Contents (Elt F) → (⟨S1000000x6, .f32⟩ : BufTy).Contents (Elt F) → (⟨S1000000x6, .f32⟩ : BufTy).Contents (Elt F)),
    unary main_v88 main_v91 (Host.sin : (⟨S1000000x6, .f32⟩ : BufTy).Contents (Elt F) → (⟨S1000000x6, .f32⟩ : BufTy).Contents (Elt F)),
    binary main_v88 main_v88 main_v92 (mulf : (⟨S1000000x6, .f32⟩ : BufTy).Contents (Elt F) → (⟨S1000000x6, .f32⟩ : BufTy).Contents (Elt F) → (⟨S1000000x6, .f32⟩ : BufTy).Contents (Elt F)),
    binary main_v91 main_v92 main_v93 (Host.divf : (⟨S1000000x6, .f32⟩ : BufTy).Contents (Elt F) → (⟨S1000000x6, .f32⟩ : BufTy).Contents (Elt F) → (⟨S1000000x6, .f32⟩ : BufTy).Contents (Elt F)),
    unary main_v88 main_v94 (Host.cos : (⟨S1000000x6, .f32⟩ : BufTy).Contents (Elt F) → (⟨S1000000x6, .f32⟩ : BufTy).Contents (Elt F)),
    binary main_v94 main_v88 main_v95 (Host.divf : (⟨S1000000x6, .f32⟩ : BufTy).Contents (Elt F) → (⟨S1000000x6, .f32⟩ : BufTy).Contents (Elt F) → (⟨S1000000x6, .f32⟩ : BufTy).Contents (Elt F)),
    binary main_v93 main_v95 main_v96 (subf : (⟨S1000000x6, .f32⟩ : BufTy).Contents (Elt F) → (⟨S1000000x6, .f32⟩ : BufTy).Contents (Elt F) → (⟨S1000000x6, .f32⟩ : BufTy).Contents (Elt F)),
    nullary main_cst_11 (constant S_ .f32 0x40400000#32),
    unary main_cst_11 main_v97 (broadcastInDim S1000000x6 ![] bcast_S_S1000000x6 : (⟨S_, .f32⟩ : BufTy).Contents (Elt F) → (⟨S1000000x6, .f32⟩ : BufTy).Contents (Elt F)),
    binary main_v97 main_v88 main_v98 (Host.divf : (⟨S1000000x6, .f32⟩ : BufTy).Contents (Elt F) → (⟨S1000000x6, .f32⟩ : BufTy).Contents (Elt F) → (⟨S1000000x6, .f32⟩ : BufTy).Contents (Elt F)),
    binary main_v98 main_v96 main_v99 (mulf : (⟨S1000000x6, .f32⟩ : BufTy).Contents (Elt F) → (⟨S1000000x6, .f32⟩ : BufTy).Contents (Elt F) → (⟨S1000000x6, .f32⟩ : BufTy).Contents (Elt F)),
    binary main_v99 main_v90 main_v100 (subf : (⟨S1000000x6, .f32⟩ : BufTy).Contents (Elt F) → (⟨S1000000x6, .f32⟩ : BufTy).Contents (Elt F) → (⟨S1000000x6, .f32⟩ : BufTy).Contents (Elt F)),
    nullary main_cst_12 (constant S_ .f32 0x40A00000#32),
    unary main_cst_12 main_v101 (broadcastInDim S1000000x6 ![] bcast_S_S1000000x6 : (⟨S_, .f32⟩ : BufTy).Contents (Elt F) → (⟨S1000000x6, .f32⟩ : BufTy).Contents (Elt F)),
    binary main_v101 main_v88 main_v102 (Host.divf : (⟨S1000000x6, .f32⟩ : BufTy).Contents (Elt F) → (⟨S1000000x6, .f32⟩ : BufTy).Contents (Elt F) → (⟨S1000000x6, .f32⟩ : BufTy).Contents (Elt F)),
    binary main_v102 main_v100 main_v103 (mulf : (⟨S1000000x6, .f32⟩ : BufTy).Contents (Elt F) → (⟨S1000000x6, .f32⟩ : BufTy).Contents (Elt F) → (⟨S1000000x6, .f32⟩ : BufTy).Contents (Elt F)),
    binary main_v103 main_v96 main_v104 (subf : (⟨S1000000x6, .f32⟩ : BufTy).Contents (Elt F) → (⟨S1000000x6, .f32⟩ : BufTy).Contents (Elt F) → (⟨S1000000x6, .f32⟩ : BufTy).Contents (Elt F)),
    unary main_v81 main_v105 (broadcastInDim S1x6 ![1] bcast_S6_S1x6_1 : (⟨S6, .f32⟩ : BufTy).Contents (Elt F) → (⟨S1x6, .f32⟩ : BufTy).Contents (Elt F)) ]

/-- The operations of the printed program's window 2. -/
abbrev win2 : List (HloOp τ sig (Elt F)) :=
  [ unary main_v105 main_v106 (broadcastInDim S1000000x6 ![0, 1] bcast_S1x6_S1000000x6_0_1 : (⟨S1x6, .f32⟩ : BufTy).Contents (Elt F) → (⟨S1000000x6, .f32⟩ : BufTy).Contents (Elt F)),
    binary main_v106 main_v104 main_v107 (mulf : (⟨S1000000x6, .f32⟩ : BufTy).Contents (Elt F) → (⟨S1000000x6, .f32⟩ : BufTy).Contents (Elt F) → (⟨S1000000x6, .f32⟩ : BufTy).Contents (Elt F)),
    unary main_cst_0 main_v108 ((extractStridedSlice S1x6 ![4, 0] · slices_S7x6_S1x6_4_0) : (⟨S7x6, .f32⟩ : BufTy).Contents (Elt F) → (⟨S1x6, .f32⟩ : BufTy).Contents (Elt F)),
    reshape main_v108 main_v109 rfl shapeCasts_S1x6_S6,
    unary main_v1 main_v110 (broadcastInDim S1000000x1 ![0] bcast_S1000000_S1000000x1_0 : (⟨S1000000, .f32⟩ : BufTy).Contents (Elt F) → (⟨S1000000x1, .f32⟩ : BufTy).Contents (Elt F)),
    unary main_cst main_v111 ((extractStridedSlice S1x6 ![4, 0] · slices_S7x6_S1x6_4_0) : (⟨S7x6, .f32⟩ : BufTy).Contents (Elt F) → (⟨S1x6, .f32⟩ : BufTy).Contents (Elt F)),
    reshape main_v111 main_v112 rfl shapeCasts_S1x6_S6,
    unary main_v112 main_v113 (broadcastInDim S1x6 ![1] bcast_S6_S1x6_1 : (⟨S6, .f32⟩ : BufTy).Contents (Elt F) → (⟨S1x6, .f32⟩ : BufTy).Contents (Elt F)),
    unary main_v110 main_v114 (broadcastInDim S1000000x6 ![0, 1] bcast_S1000000x1_S1000000x6_0_1 : (⟨S1000000x1, .f32⟩ : BufTy).Contents (Elt F) → (⟨S1000000x6, .f32⟩ : BufTy).Contents (Elt F)),
    unary main_v113 main_v115 (broadcastInDim S1000000x6 ![0, 1] bcast_S1x6_S1000000x6_0_1 : (⟨S1x6, .f32⟩ : BufTy).Contents (Elt F) → (⟨S1000000x6, .f32⟩ : BufTy).Contents (Elt F)),
    binary main_v114 main_v115 main_v116 (mulf : (⟨S1000000x6, .f32⟩ : BufTy).Contents (Elt F) → (⟨S1000000x6, .f32⟩ : BufTy).Contents (Elt F) → (⟨S1000000x6, .f32⟩ : BufTy).Contents (Elt F)),
    unary main_v116 main_v117 (Host.sin : (⟨S1000000x6, .f32⟩ : BufTy).Contents (Elt F) → (⟨S1000000x6, .f32⟩ : BufTy).Contents (Elt F)),
    binary main_v117 main_v116 main_v118 (Host.divf : (⟨S1000000x6, .f32⟩ : BufTy).Contents (Elt F) → (⟨S1000000x6, .f32⟩ : BufTy).Contents (Elt F) → (⟨S1000000x6, .f32⟩ : BufTy).Contents (Elt F)),
    unary main_v116 main_v119 (Host.sin : (⟨S1000000x6, .f32⟩ : BufTy).Contents (Elt F) → (⟨S1000000x6, .f32⟩ : BufTy).Contents (Elt F)),
    binary main_v116 main_v116 main_v120 (mulf : (⟨S1000000x6, .f32⟩ : BufTy).Contents (Elt F) → (⟨S1000000x6, .f32⟩ : BufTy).Contents (Elt F) → (⟨S1000000x6, .f32⟩ : BufTy).Contents (Elt F)),
    binary main_v119 main_v120 main_v121 (Host.divf : (⟨S1000000x6, .f32⟩ : BufTy).Contents (Elt F) → (⟨S1000000x6, .f32⟩ : BufTy).Contents (Elt F) → (⟨S1000000x6, .f32⟩ : BufTy).Contents (Elt F)),
    unary main_v116 main_v122 (Host.cos : (⟨S1000000x6, .f32⟩ : BufTy).Contents (Elt F) → (⟨S1000000x6, .f32⟩ : BufTy).Contents (Elt F)),
    binary main_v122 main_v116 main_v123 (Host.divf : (⟨S1000000x6, .f32⟩ : BufTy).Contents (Elt F) → (⟨S1000000x6, .f32⟩ : BufTy).Contents (Elt F) → (⟨S1000000x6, .f32⟩ : BufTy).Contents (Elt F)),
    binary main_v121 main_v123 main_v124 (subf : (⟨S1000000x6, .f32⟩ : BufTy).Contents (Elt F) → (⟨S1000000x6, .f32⟩ : BufTy).Contents (Elt F) → (⟨S1000000x6, .f32⟩ : BufTy).Contents (Elt F)),
    nullary main_cst_13 (constant S_ .f32 0x40400000#32),
    unary main_cst_13 main_v125 (broadcastInDim S1000000x6 ![] bcast_S_S1000000x6 : (⟨S_, .f32⟩ : BufTy).Contents (Elt F) → (⟨S1000000x6, .f32⟩ : BufTy).Contents (Elt F)),
    binary main_v125 main_v116 main_v126 (Host.divf : (⟨S1000000x6, .f32⟩ : BufTy).Contents (Elt F) → (⟨S1000000x6, .f32⟩ : BufTy).Contents (Elt F) → (⟨S1000000x6, .f32⟩ : BufTy).Contents (Elt F)),
    binary main_v126 main_v124 main_v127 (mulf : (⟨S1000000x6, .f32⟩ : BufTy).Contents (Elt F) → (⟨S1000000x6, .f32⟩ : BufTy).Contents (Elt F) → (⟨S1000000x6, .f32⟩ : BufTy).Contents (Elt F)),
    binary main_v127 main_v118 main_v128 (subf : (⟨S1000000x6, .f32⟩ : BufTy).Contents (Elt F) → (⟨S1000000x6, .f32⟩ : BufTy).Contents (Elt F) → (⟨S1000000x6, .f32⟩ : BufTy).Contents (Elt F)),
    nullary main_cst_14 (constant S_ .f32 0x40A00000#32),
    unary main_cst_14 main_v129 (broadcastInDim S1000000x6 ![] bcast_S_S1000000x6 : (⟨S_, .f32⟩ : BufTy).Contents (Elt F) → (⟨S1000000x6, .f32⟩ : BufTy).Contents (Elt F)),
    binary main_v129 main_v116 main_v130 (Host.divf : (⟨S1000000x6, .f32⟩ : BufTy).Contents (Elt F) → (⟨S1000000x6, .f32⟩ : BufTy).Contents (Elt F) → (⟨S1000000x6, .f32⟩ : BufTy).Contents (Elt F)),
    binary main_v130 main_v128 main_v131 (mulf : (⟨S1000000x6, .f32⟩ : BufTy).Contents (Elt F) → (⟨S1000000x6, .f32⟩ : BufTy).Contents (Elt F) → (⟨S1000000x6, .f32⟩ : BufTy).Contents (Elt F)),
    binary main_v131 main_v124 main_v132 (subf : (⟨S1000000x6, .f32⟩ : BufTy).Contents (Elt F) → (⟨S1000000x6, .f32⟩ : BufTy).Contents (Elt F) → (⟨S1000000x6, .f32⟩ : BufTy).Contents (Elt F)),
    nullary main_cst_15 (constant S_ .f32 0x40E00000#32),
    unary main_cst_15 main_v133 (broadcastInDim S1000000x6 ![] bcast_S_S1000000x6 : (⟨S_, .f32⟩ : BufTy).Contents (Elt F) → (⟨S1000000x6, .f32⟩ : BufTy).Contents (Elt F)),
    binary main_v133 main_v116 main_v134 (Host.divf : (⟨S1000000x6, .f32⟩ : BufTy).Contents (Elt F) → (⟨S1000000x6, .f32⟩ : BufTy).Contents (Elt F) → (⟨S1000000x6, .f32⟩ : BufTy).Contents (Elt F)),
    binary main_v134 main_v132 main_v135 (mulf : (⟨S1000000x6, .f32⟩ : BufTy).Contents (Elt F) → (⟨S1000000x6, .f32⟩ : BufTy).Contents (Elt F) → (⟨S1000000x6, .f32⟩ : BufTy).Contents (Elt F)),
    binary main_v135 main_v128 main_v136 (subf : (⟨S1000000x6, .f32⟩ : BufTy).Contents (Elt F) → (⟨S1000000x6, .f32⟩ : BufTy).Contents (Elt F) → (⟨S1000000x6, .f32⟩ : BufTy).Contents (Elt F)),
    unary main_v109 main_v137 (broadcastInDim S1x6 ![1] bcast_S6_S1x6_1 : (⟨S6, .f32⟩ : BufTy).Contents (Elt F) → (⟨S1x6, .f32⟩ : BufTy).Contents (Elt F)),
    unary main_v137 main_v138 (broadcastInDim S1000000x6 ![0, 1] bcast_S1x6_S1000000x6_0_1 : (⟨S1x6, .f32⟩ : BufTy).Contents (Elt F) → (⟨S1000000x6, .f32⟩ : BufTy).Contents (Elt F)),
    binary main_v138 main_v136 main_v139 (mulf : (⟨S1000000x6, .f32⟩ : BufTy).Contents (Elt F) → (⟨S1000000x6, .f32⟩ : BufTy).Contents (Elt F) → (⟨S1000000x6, .f32⟩ : BufTy).Contents (Elt F)),
    unary main_cst_0 main_v140 ((extractStridedSlice S1x6 ![5, 0] · slices_S7x6_S1x6_5_0) : (⟨S7x6, .f32⟩ : BufTy).Contents (Elt F) → (⟨S1x6, .f32⟩ : BufTy).Contents (Elt F)),
    reshape main_v140 main_v141 rfl shapeCasts_S1x6_S6,
    unary main_v1 main_v142 (broadcastInDim S1000000x1 ![0] bcast_S1000000_S1000000x1_0 : (⟨S1000000, .f32⟩ : BufTy).Contents (Elt F) → (⟨S1000000x1, .f32⟩ : BufTy).Contents (Elt F)),
    unary main_cst main_v143 ((extractStridedSlice S1x6 ![5, 0] · slices_S7x6_S1x6_5_0) : (⟨S7x6, .f32⟩ : BufTy).Contents (Elt F) → (⟨S1x6, .f32⟩ : BufTy).Contents (Elt F)),
    reshape main_v143 main_v144 rfl shapeCasts_S1x6_S6,
    unary main_v144 main_v145 (broadcastInDim S1x6 ![1] bcast_S6_S1x6_1 : (⟨S6, .f32⟩ : BufTy).Contents (Elt F) → (⟨S1x6, .f32⟩ : BufTy).Contents (Elt F)),
    unary main_v142 main_v146 (broadcastInDim S1000000x6 ![0, 1] bcast_S1000000x1_S1000000x6_0_1 : (⟨S1000000x1, .f32⟩ : BufTy).Contents (Elt F) → (⟨S1000000x6, .f32⟩ : BufTy).Contents (Elt F)),
    unary main_v145 main_v147 (broadcastInDim S1000000x6 ![0, 1] bcast_S1x6_S1000000x6_0_1 : (⟨S1x6, .f32⟩ : BufTy).Contents (Elt F) → (⟨S1000000x6, .f32⟩ : BufTy).Contents (Elt F)),
    binary main_v146 main_v147 main_v148 (mulf : (⟨S1000000x6, .f32⟩ : BufTy).Contents (Elt F) → (⟨S1000000x6, .f32⟩ : BufTy).Contents (Elt F) → (⟨S1000000x6, .f32⟩ : BufTy).Contents (Elt F)),
    unary main_v148 main_v149 (Host.sin : (⟨S1000000x6, .f32⟩ : BufTy).Contents (Elt F) → (⟨S1000000x6, .f32⟩ : BufTy).Contents (Elt F)),
    binary main_v149 main_v148 main_v150 (Host.divf : (⟨S1000000x6, .f32⟩ : BufTy).Contents (Elt F) → (⟨S1000000x6, .f32⟩ : BufTy).Contents (Elt F) → (⟨S1000000x6, .f32⟩ : BufTy).Contents (Elt F)),
    unary main_v148 main_v151 (Host.sin : (⟨S1000000x6, .f32⟩ : BufTy).Contents (Elt F) → (⟨S1000000x6, .f32⟩ : BufTy).Contents (Elt F)),
    binary main_v148 main_v148 main_v152 (mulf : (⟨S1000000x6, .f32⟩ : BufTy).Contents (Elt F) → (⟨S1000000x6, .f32⟩ : BufTy).Contents (Elt F) → (⟨S1000000x6, .f32⟩ : BufTy).Contents (Elt F)),
    binary main_v151 main_v152 main_v153 (Host.divf : (⟨S1000000x6, .f32⟩ : BufTy).Contents (Elt F) → (⟨S1000000x6, .f32⟩ : BufTy).Contents (Elt F) → (⟨S1000000x6, .f32⟩ : BufTy).Contents (Elt F)),
    unary main_v148 main_v154 (Host.cos : (⟨S1000000x6, .f32⟩ : BufTy).Contents (Elt F) → (⟨S1000000x6, .f32⟩ : BufTy).Contents (Elt F)),
    binary main_v154 main_v148 main_v155 (Host.divf : (⟨S1000000x6, .f32⟩ : BufTy).Contents (Elt F) → (⟨S1000000x6, .f32⟩ : BufTy).Contents (Elt F) → (⟨S1000000x6, .f32⟩ : BufTy).Contents (Elt F)),
    binary main_v153 main_v155 main_v156 (subf : (⟨S1000000x6, .f32⟩ : BufTy).Contents (Elt F) → (⟨S1000000x6, .f32⟩ : BufTy).Contents (Elt F) → (⟨S1000000x6, .f32⟩ : BufTy).Contents (Elt F)),
    nullary main_cst_16 (constant S_ .f32 0x40400000#32),
    unary main_cst_16 main_v157 (broadcastInDim S1000000x6 ![] bcast_S_S1000000x6 : (⟨S_, .f32⟩ : BufTy).Contents (Elt F) → (⟨S1000000x6, .f32⟩ : BufTy).Contents (Elt F)),
    binary main_v157 main_v148 main_v158 (Host.divf : (⟨S1000000x6, .f32⟩ : BufTy).Contents (Elt F) → (⟨S1000000x6, .f32⟩ : BufTy).Contents (Elt F) → (⟨S1000000x6, .f32⟩ : BufTy).Contents (Elt F)),
    binary main_v158 main_v156 main_v159 (mulf : (⟨S1000000x6, .f32⟩ : BufTy).Contents (Elt F) → (⟨S1000000x6, .f32⟩ : BufTy).Contents (Elt F) → (⟨S1000000x6, .f32⟩ : BufTy).Contents (Elt F)),
    binary main_v159 main_v150 main_v160 (subf : (⟨S1000000x6, .f32⟩ : BufTy).Contents (Elt F) → (⟨S1000000x6, .f32⟩ : BufTy).Contents (Elt F) → (⟨S1000000x6, .f32⟩ : BufTy).Contents (Elt F)),
    nullary main_cst_17 (constant S_ .f32 0x40A00000#32) ]

/-- The operations of the printed program's window 3. -/
abbrev win3 : List (HloOp τ sig (Elt F)) :=
  [ unary main_cst_17 main_v161 (broadcastInDim S1000000x6 ![] bcast_S_S1000000x6 : (⟨S_, .f32⟩ : BufTy).Contents (Elt F) → (⟨S1000000x6, .f32⟩ : BufTy).Contents (Elt F)),
    binary main_v161 main_v148 main_v162 (Host.divf : (⟨S1000000x6, .f32⟩ : BufTy).Contents (Elt F) → (⟨S1000000x6, .f32⟩ : BufTy).Contents (Elt F) → (⟨S1000000x6, .f32⟩ : BufTy).Contents (Elt F)),
    binary main_v162 main_v160 main_v163 (mulf : (⟨S1000000x6, .f32⟩ : BufTy).Contents (Elt F) → (⟨S1000000x6, .f32⟩ : BufTy).Contents (Elt F) → (⟨S1000000x6, .f32⟩ : BufTy).Contents (Elt F)),
    binary main_v163 main_v156 main_v164 (subf : (⟨S1000000x6, .f32⟩ : BufTy).Contents (Elt F) → (⟨S1000000x6, .f32⟩ : BufTy).Contents (Elt F) → (⟨S1000000x6, .f32⟩ : BufTy).Contents (Elt F)),
    nullary main_cst_18 (constant S_ .f32 0x40E00000#32),
    unary main_cst_18 main_v165 (broadcastInDim S1000000x6 ![] bcast_S_S1000000x6 : (⟨S_, .f32⟩ : BufTy).Contents (Elt F) → (⟨S1000000x6, .f32⟩ : BufTy).Contents (Elt F)),
    binary main_v165 main_v148 main_v166 (Host.divf : (⟨S1000000x6, .f32⟩ : BufTy).Contents (Elt F) → (⟨S1000000x6, .f32⟩ : BufTy).Contents (Elt F) → (⟨S1000000x6, .f32⟩ : BufTy).Contents (Elt F)),
    binary main_v166 main_v164 main_v167 (mulf : (⟨S1000000x6, .f32⟩ : BufTy).Contents (Elt F) → (⟨S1000000x6, .f32⟩ : BufTy).Contents (Elt F) → (⟨S1000000x6, .f32⟩ : BufTy).Contents (Elt F)),
    binary main_v167 main_v160 main_v168 (subf : (⟨S1000000x6, .f32⟩ : BufTy).Contents (Elt F) → (⟨S1000000x6, .f32⟩ : BufTy).Contents (Elt F) → (⟨S1000000x6, .f32⟩ : BufTy).Contents (Elt F)),
    nullary main_cst_19 (constant S_ .f32 0x41100000#32),
    unary main_cst_19 main_v169 (broadcastInDim S1000000x6 ![] bcast_S_S1000000x6 : (⟨S_, .f32⟩ : BufTy).Contents (Elt F) → (⟨S1000000x6, .f32⟩ : BufTy).Contents (Elt F)),
    binary main_v169 main_v148 main_v170 (Host.divf : (⟨S1000000x6, .f32⟩ : BufTy).Contents (Elt F) → (⟨S1000000x6, .f32⟩ : BufTy).Contents (Elt F) → (⟨S1000000x6, .f32⟩ : BufTy).Contents (Elt F)),
    binary main_v170 main_v168 main_v171 (mulf : (⟨S1000000x6, .f32⟩ : BufTy).Contents (Elt F) → (⟨S1000000x6, .f32⟩ : BufTy).Contents (Elt F) → (⟨S1000000x6, .f32⟩ : BufTy).Contents (Elt F)),
    binary main_v171 main_v164 main_v172 (subf : (⟨S1000000x6, .f32⟩ : BufTy).Contents (Elt F) → (⟨S1000000x6, .f32⟩ : BufTy).Contents (Elt F) → (⟨S1000000x6, .f32⟩ : BufTy).Contents (Elt F)),
    unary main_v141 main_v173 (broadcastInDim S1x6 ![1] bcast_S6_S1x6_1 : (⟨S6, .f32⟩ : BufTy).Contents (Elt F) → (⟨S1x6, .f32⟩ : BufTy).Contents (Elt F)),
    unary main_v173 main_v174 (broadcastInDim S1000000x6 ![0, 1] bcast_S1x6_S1000000x6_0_1 : (⟨S1x6, .f32⟩ : BufTy).Contents (Elt F) → (⟨S1000000x6, .f32⟩ : BufTy).Contents (Elt F)),
    binary main_v174 main_v172 main_v175 (mulf : (⟨S1000000x6, .f32⟩ : BufTy).Contents (Elt F) → (⟨S1000000x6, .f32⟩ : BufTy).Contents (Elt F) → (⟨S1000000x6, .f32⟩ : BufTy).Contents (Elt F)),
    unary main_cst_0 main_v176 ((extractStridedSlice S1x6 ![6, 0] · slices_S7x6_S1x6_6_0) : (⟨S7x6, .f32⟩ : BufTy).Contents (Elt F) → (⟨S1x6, .f32⟩ : BufTy).Contents (Elt F)),
    reshape main_v176 main_v177 rfl shapeCasts_S1x6_S6,
    unary main_v1 main_v178 (broadcastInDim S1000000x1 ![0] bcast_S1000000_S1000000x1_0 : (⟨S1000000, .f32⟩ : BufTy).Contents (Elt F) → (⟨S1000000x1, .f32⟩ : BufTy).Contents (Elt F)),
    unary main_cst main_v179 ((extractStridedSlice S1x6 ![6, 0] · slices_S7x6_S1x6_6_0) : (⟨S7x6, .f32⟩ : BufTy).Contents (Elt F) → (⟨S1x6, .f32⟩ : BufTy).Contents (Elt F)),
    reshape main_v179 main_v180 rfl shapeCasts_S1x6_S6,
    unary main_v180 main_v181 (broadcastInDim S1x6 ![1] bcast_S6_S1x6_1 : (⟨S6, .f32⟩ : BufTy).Contents (Elt F) → (⟨S1x6, .f32⟩ : BufTy).Contents (Elt F)),
    unary main_v178 main_v182 (broadcastInDim S1000000x6 ![0, 1] bcast_S1000000x1_S1000000x6_0_1 : (⟨S1000000x1, .f32⟩ : BufTy).Contents (Elt F) → (⟨S1000000x6, .f32⟩ : BufTy).Contents (Elt F)),
    unary main_v181 main_v183 (broadcastInDim S1000000x6 ![0, 1] bcast_S1x6_S1000000x6_0_1 : (⟨S1x6, .f32⟩ : BufTy).Contents (Elt F) → (⟨S1000000x6, .f32⟩ : BufTy).Contents (Elt F)),
    binary main_v182 main_v183 main_v184 (mulf : (⟨S1000000x6, .f32⟩ : BufTy).Contents (Elt F) → (⟨S1000000x6, .f32⟩ : BufTy).Contents (Elt F) → (⟨S1000000x6, .f32⟩ : BufTy).Contents (Elt F)),
    unary main_v184 main_v185 (Host.sin : (⟨S1000000x6, .f32⟩ : BufTy).Contents (Elt F) → (⟨S1000000x6, .f32⟩ : BufTy).Contents (Elt F)),
    binary main_v185 main_v184 main_v186 (Host.divf : (⟨S1000000x6, .f32⟩ : BufTy).Contents (Elt F) → (⟨S1000000x6, .f32⟩ : BufTy).Contents (Elt F) → (⟨S1000000x6, .f32⟩ : BufTy).Contents (Elt F)),
    unary main_v184 main_v187 (Host.sin : (⟨S1000000x6, .f32⟩ : BufTy).Contents (Elt F) → (⟨S1000000x6, .f32⟩ : BufTy).Contents (Elt F)),
    binary main_v184 main_v184 main_v188 (mulf : (⟨S1000000x6, .f32⟩ : BufTy).Contents (Elt F) → (⟨S1000000x6, .f32⟩ : BufTy).Contents (Elt F) → (⟨S1000000x6, .f32⟩ : BufTy).Contents (Elt F)),
    binary main_v187 main_v188 main_v189 (Host.divf : (⟨S1000000x6, .f32⟩ : BufTy).Contents (Elt F) → (⟨S1000000x6, .f32⟩ : BufTy).Contents (Elt F) → (⟨S1000000x6, .f32⟩ : BufTy).Contents (Elt F)),
    unary main_v184 main_v190 (Host.cos : (⟨S1000000x6, .f32⟩ : BufTy).Contents (Elt F) → (⟨S1000000x6, .f32⟩ : BufTy).Contents (Elt F)),
    binary main_v190 main_v184 main_v191 (Host.divf : (⟨S1000000x6, .f32⟩ : BufTy).Contents (Elt F) → (⟨S1000000x6, .f32⟩ : BufTy).Contents (Elt F) → (⟨S1000000x6, .f32⟩ : BufTy).Contents (Elt F)),
    binary main_v189 main_v191 main_v192 (subf : (⟨S1000000x6, .f32⟩ : BufTy).Contents (Elt F) → (⟨S1000000x6, .f32⟩ : BufTy).Contents (Elt F) → (⟨S1000000x6, .f32⟩ : BufTy).Contents (Elt F)),
    nullary main_cst_20 (constant S_ .f32 0x40400000#32),
    unary main_cst_20 main_v193 (broadcastInDim S1000000x6 ![] bcast_S_S1000000x6 : (⟨S_, .f32⟩ : BufTy).Contents (Elt F) → (⟨S1000000x6, .f32⟩ : BufTy).Contents (Elt F)),
    binary main_v193 main_v184 main_v194 (Host.divf : (⟨S1000000x6, .f32⟩ : BufTy).Contents (Elt F) → (⟨S1000000x6, .f32⟩ : BufTy).Contents (Elt F) → (⟨S1000000x6, .f32⟩ : BufTy).Contents (Elt F)),
    binary main_v194 main_v192 main_v195 (mulf : (⟨S1000000x6, .f32⟩ : BufTy).Contents (Elt F) → (⟨S1000000x6, .f32⟩ : BufTy).Contents (Elt F) → (⟨S1000000x6, .f32⟩ : BufTy).Contents (Elt F)),
    binary main_v195 main_v186 main_v196 (subf : (⟨S1000000x6, .f32⟩ : BufTy).Contents (Elt F) → (⟨S1000000x6, .f32⟩ : BufTy).Contents (Elt F) → (⟨S1000000x6, .f32⟩ : BufTy).Contents (Elt F)),
    nullary main_cst_21 (constant S_ .f32 0x40A00000#32),
    unary main_cst_21 main_v197 (broadcastInDim S1000000x6 ![] bcast_S_S1000000x6 : (⟨S_, .f32⟩ : BufTy).Contents (Elt F) → (⟨S1000000x6, .f32⟩ : BufTy).Contents (Elt F)),
    binary main_v197 main_v184 main_v198 (Host.divf : (⟨S1000000x6, .f32⟩ : BufTy).Contents (Elt F) → (⟨S1000000x6, .f32⟩ : BufTy).Contents (Elt F) → (⟨S1000000x6, .f32⟩ : BufTy).Contents (Elt F)),
    binary main_v198 main_v196 main_v199 (mulf : (⟨S1000000x6, .f32⟩ : BufTy).Contents (Elt F) → (⟨S1000000x6, .f32⟩ : BufTy).Contents (Elt F) → (⟨S1000000x6, .f32⟩ : BufTy).Contents (Elt F)),
    binary main_v199 main_v192 main_v200 (subf : (⟨S1000000x6, .f32⟩ : BufTy).Contents (Elt F) → (⟨S1000000x6, .f32⟩ : BufTy).Contents (Elt F) → (⟨S1000000x6, .f32⟩ : BufTy).Contents (Elt F)),
    nullary main_cst_22 (constant S_ .f32 0x40E00000#32),
    unary main_cst_22 main_v201 (broadcastInDim S1000000x6 ![] bcast_S_S1000000x6 : (⟨S_, .f32⟩ : BufTy).Contents (Elt F) → (⟨S1000000x6, .f32⟩ : BufTy).Contents (Elt F)),
    binary main_v201 main_v184 main_v202 (Host.divf : (⟨S1000000x6, .f32⟩ : BufTy).Contents (Elt F) → (⟨S1000000x6, .f32⟩ : BufTy).Contents (Elt F) → (⟨S1000000x6, .f32⟩ : BufTy).Contents (Elt F)),
    binary main_v202 main_v200 main_v203 (mulf : (⟨S1000000x6, .f32⟩ : BufTy).Contents (Elt F) → (⟨S1000000x6, .f32⟩ : BufTy).Contents (Elt F) → (⟨S1000000x6, .f32⟩ : BufTy).Contents (Elt F)),
    binary main_v203 main_v196 main_v204 (subf : (⟨S1000000x6, .f32⟩ : BufTy).Contents (Elt F) → (⟨S1000000x6, .f32⟩ : BufTy).Contents (Elt F) → (⟨S1000000x6, .f32⟩ : BufTy).Contents (Elt F)),
    nullary main_cst_23 (constant S_ .f32 0x41100000#32),
    unary main_cst_23 main_v205 (broadcastInDim S1000000x6 ![] bcast_S_S1000000x6 : (⟨S_, .f32⟩ : BufTy).Contents (Elt F) → (⟨S1000000x6, .f32⟩ : BufTy).Contents (Elt F)),
    binary main_v205 main_v184 main_v206 (Host.divf : (⟨S1000000x6, .f32⟩ : BufTy).Contents (Elt F) → (⟨S1000000x6, .f32⟩ : BufTy).Contents (Elt F) → (⟨S1000000x6, .f32⟩ : BufTy).Contents (Elt F)),
    binary main_v206 main_v204 main_v207 (mulf : (⟨S1000000x6, .f32⟩ : BufTy).Contents (Elt F) → (⟨S1000000x6, .f32⟩ : BufTy).Contents (Elt F) → (⟨S1000000x6, .f32⟩ : BufTy).Contents (Elt F)),
    binary main_v207 main_v200 main_v208 (subf : (⟨S1000000x6, .f32⟩ : BufTy).Contents (Elt F) → (⟨S1000000x6, .f32⟩ : BufTy).Contents (Elt F) → (⟨S1000000x6, .f32⟩ : BufTy).Contents (Elt F)),
    nullary main_cst_24 (constant S_ .f32 0x41300000#32),
    unary main_cst_24 main_v209 (broadcastInDim S1000000x6 ![] bcast_S_S1000000x6 : (⟨S_, .f32⟩ : BufTy).Contents (Elt F) → (⟨S1000000x6, .f32⟩ : BufTy).Contents (Elt F)),
    binary main_v209 main_v184 main_v210 (Host.divf : (⟨S1000000x6, .f32⟩ : BufTy).Contents (Elt F) → (⟨S1000000x6, .f32⟩ : BufTy).Contents (Elt F) → (⟨S1000000x6, .f32⟩ : BufTy).Contents (Elt F)),
    binary main_v210 main_v208 main_v211 (mulf : (⟨S1000000x6, .f32⟩ : BufTy).Contents (Elt F) → (⟨S1000000x6, .f32⟩ : BufTy).Contents (Elt F) → (⟨S1000000x6, .f32⟩ : BufTy).Contents (Elt F)),
    binary main_v211 main_v204 main_v212 (subf : (⟨S1000000x6, .f32⟩ : BufTy).Contents (Elt F) → (⟨S1000000x6, .f32⟩ : BufTy).Contents (Elt F) → (⟨S1000000x6, .f32⟩ : BufTy).Contents (Elt F)),
    unary main_v177 main_v213 (broadcastInDim S1x6 ![1] bcast_S6_S1x6_1 : (⟨S6, .f32⟩ : BufTy).Contents (Elt F) → (⟨S1x6, .f32⟩ : BufTy).Contents (Elt F)) ]

/-- The operations of the printed program's window 4. -/
abbrev win4 : List (HloOp τ sig (Elt F)) :=
  [ unary main_v213 main_v214 (broadcastInDim S1000000x6 ![0, 1] bcast_S1x6_S1000000x6_0_1 : (⟨S1x6, .f32⟩ : BufTy).Contents (Elt F) → (⟨S1000000x6, .f32⟩ : BufTy).Contents (Elt F)),
    binary main_v214 main_v212 main_v215 (mulf : (⟨S1000000x6, .f32⟩ : BufTy).Contents (Elt F) → (⟨S1000000x6, .f32⟩ : BufTy).Contents (Elt F) → (⟨S1000000x6, .f32⟩ : BufTy).Contents (Elt F)),
    nary ![main_v35, main_v55, main_v79, main_v107, main_v139, main_v175, main_v215] main_v216 (fun u => concatenate S1000000x42 1 [⟨S1000000x6, u 0⟩, ⟨S1000000x6, u 1⟩, ⟨S1000000x6, u 2⟩, ⟨S1000000x6, u 3⟩, ⟨S1000000x6, u 4⟩, ⟨S1000000x6, u 5⟩, ⟨S1000000x6, u 6⟩] concatenates_S1000000x6_S1000000x6_S1000000x6_S1000000x6_S1000000x6_S1000000x6_S1000000x6_S1000000x42_d1),
    unary main_v21 main_v217 (broadcastInDim S1000000x1 ![0] bcast_S1000000_S1000000x1_0 : (⟨S1000000, .f32⟩ : BufTy).Contents (Elt F) → (⟨S1000000x1, .f32⟩ : BufTy).Contents (Elt F)),
    unary main_v217 main_v218 (broadcastInDim S1000000x42 ![0, 1] bcast_S1000000x1_S1000000x42_0_1 : (⟨S1000000x1, .f32⟩ : BufTy).Contents (Elt F) → (⟨S1000000x42, .f32⟩ : BufTy).Contents (Elt F)),
    binary main_v216 main_v218 main_v219 (mulf : (⟨S1000000x42, .f32⟩ : BufTy).Contents (Elt F) → (⟨S1000000x42, .f32⟩ : BufTy).Contents (Elt F) → (⟨S1000000x42, .f32⟩ : BufTy).Contents (Elt F)),
    nullary main_c (constantI S_ 32 0#32),
    unary main_c main_v220 (broadcastInDim S3000000 ![] bcast_S_S3000000 : (⟨S_, .i32⟩ : BufTy).Contents (Elt F) → (⟨S3000000, .i32⟩ : BufTy).Contents (Elt F)),
    binary main_arg4 main_v220 main_v221 (cmpi .slt : (⟨S3000000, .i32⟩ : BufTy).Contents (Elt F) → (⟨S3000000, .i32⟩ : BufTy).Contents (Elt F) → (⟨S3000000, .i1⟩ : BufTy).Contents (Elt F)),
    nullary main_c_25 (constantI S_ 32 1000000#32),
    unary main_c_25 main_v222 (broadcastInDim S3000000 ![] bcast_S_S3000000 : (⟨S_, .i32⟩ : BufTy).Contents (Elt F) → (⟨S3000000, .i32⟩ : BufTy).Contents (Elt F)),
    binary main_arg4 main_v222 main_v223 (addi : (⟨S3000000, .i32⟩ : BufTy).Contents (Elt F) → (⟨S3000000, .i32⟩ : BufTy).Contents (Elt F) → (⟨S3000000, .i32⟩ : BufTy).Contents (Elt F)),
    ternary main_v221 main_v223 main_arg4 main_v224 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v224 main_v225 (broadcastInDim S3000000x1 ![0] bcast_S3000000_S3000000x1_0 : (⟨S3000000, .i32⟩ : BufTy).Contents (Elt F) → (⟨S3000000x1, .i32⟩ : BufTy).Contents (Elt F)),
    binary main_v219 main_v225 main_v226 ((fun x i => Host.gather gather_S1000000x42_S3000000x1_S3000000x42_1_0_n_n_0_1_142 x i) : (⟨S1000000x42, .f32⟩ : BufTy).Contents (Elt F) → (⟨S3000000x1, .i32⟩ : BufTy).Contents (Elt F) → (⟨S3000000x42, .f32⟩ : BufTy).Contents (Elt F)),
    unary main_arg1 main_v227 (Host.cos : (⟨S3000000, .f32⟩ : BufTy).Contents (Elt F) → (⟨S3000000, .f32⟩ : BufTy).Contents (Elt F)),
    nullary main_cst_26 (constant S_ .f32 0x3F800000#32),
    unary main_cst_26 main_v228 (broadcastInDim S3000000 ![] bcast_S_S3000000 : (⟨S_, .f32⟩ : BufTy).Contents (Elt F) → (⟨S3000000, .f32⟩ : BufTy).Contents (Elt F)),
    nullary main_cst_27 (constant S_ .f32 0x40400000#32),
    unary main_cst_27 main_v229 (broadcastInDim S3000000 ![] bcast_S_S3000000 : (⟨S_, .f32⟩ : BufTy).Contents (Elt F) → (⟨S3000000, .f32⟩ : BufTy).Contents (Elt F)),
    binary main_v229 main_v227 main_v230 (mulf : (⟨S3000000, .f32⟩ : BufTy).Contents (Elt F) → (⟨S3000000, .f32⟩ : BufTy).Contents (Elt F) → (⟨S3000000, .f32⟩ : BufTy).Contents (Elt F)),
    binary main_v230 main_v227 main_v231 (mulf : (⟨S3000000, .f32⟩ : BufTy).Contents (Elt F) → (⟨S3000000, .f32⟩ : BufTy).Contents (Elt F) → (⟨S3000000, .f32⟩ : BufTy).Contents (Elt F)),
    nullary main_cst_28 (constant S_ .f32 0x3F800000#32),
    unary main_cst_28 main_v232 (broadcastInDim S3000000 ![] bcast_S_S3000000 : (⟨S_, .f32⟩ : BufTy).Contents (Elt F) → (⟨S3000000, .f32⟩ : BufTy).Contents (Elt F)),
    binary main_v232 main_v228 main_v233 (mulf : (⟨S3000000, .f32⟩ : BufTy).Contents (Elt F) → (⟨S3000000, .f32⟩ : BufTy).Contents (Elt F) → (⟨S3000000, .f32⟩ : BufTy).Contents (Elt F)),
    binary main_v231 main_v233 main_v234 (subf : (⟨S3000000, .f32⟩ : BufTy).Contents (Elt F) → (⟨S3000000, .f32⟩ : BufTy).Contents (Elt F) → (⟨S3000000, .f32⟩ : BufTy).Contents (Elt F)),
    nullary main_cst_29 (constant S_ .f32 0x40000000#32),
    unary main_cst_29 main_v235 (broadcastInDim S3000000 ![] bcast_S_S3000000 : (⟨S_, .f32⟩ : BufTy).Contents (Elt F) → (⟨S3000000, .f32⟩ : BufTy).Contents (Elt F)),
    binary main_v234 main_v235 main_v236 (Host.divf : (⟨S3000000, .f32⟩ : BufTy).Contents (Elt F) → (⟨S3000000, .f32⟩ : BufTy).Contents (Elt F) → (⟨S3000000, .f32⟩ : BufTy).Contents (Elt F)),
    nullary main_cst_30 (constant S_ .f32 0x40A00000#32),
    unary main_cst_30 main_v237 (broadcastInDim S3000000 ![] bcast_S_S3000000 : (⟨S_, .f32⟩ : BufTy).Contents (Elt F) → (⟨S3000000, .f32⟩ : BufTy).Contents (Elt F)),
    binary main_v237 main_v227 main_v238 (mulf : (⟨S3000000, .f32⟩ : BufTy).Contents (Elt F) → (⟨S3000000, .f32⟩ : BufTy).Contents (Elt F) → (⟨S3000000, .f32⟩ : BufTy).Contents (Elt F)),
    binary main_v238 main_v236 main_v239 (mulf : (⟨S3000000, .f32⟩ : BufTy).Contents (Elt F) → (⟨S3000000, .f32⟩ : BufTy).Contents (Elt F) → (⟨S3000000, .f32⟩ : BufTy).Contents (Elt F)),
    nullary main_cst_31 (constant S_ .f32 0x40000000#32),
    unary main_cst_31 main_v240 (broadcastInDim S3000000 ![] bcast_S_S3000000 : (⟨S_, .f32⟩ : BufTy).Contents (Elt F) → (⟨S3000000, .f32⟩ : BufTy).Contents (Elt F)),
    binary main_v240 main_v227 main_v241 (mulf : (⟨S3000000, .f32⟩ : BufTy).Contents (Elt F) → (⟨S3000000, .f32⟩ : BufTy).Contents (Elt F) → (⟨S3000000, .f32⟩ : BufTy).Contents (Elt F)),
    binary main_v239 main_v241 main_v242 (subf : (⟨S3000000, .f32⟩ : BufTy).Contents (Elt F) → (⟨S3000000, .f32⟩ : BufTy).Contents (Elt F) → (⟨S3000000, .f32⟩ : BufTy).Contents (Elt F)),
    nullary main_cst_32 (constant S_ .f32 0x40400000#32),
    unary main_cst_32 main_v243 (broadcastInDim S3000000 ![] bcast_S_S3000000 : (⟨S_, .f32⟩ : BufTy).Contents (Elt F) → (⟨S3000000, .f32⟩ : BufTy).Contents (Elt F)),
    binary main_v242 main_v243 main_v244 (Host.divf : (⟨S3000000, .f32⟩ : BufTy).Contents (Elt F) → (⟨S3000000, .f32⟩ : BufTy).Contents (Elt F) → (⟨S3000000, .f32⟩ : BufTy).Contents (Elt F)),
    nullary main_cst_33 (constant S_ .f32 0x40E00000#32),
    unary main_cst_33 main_v245 (broadcastInDim S3000000 ![] bcast_S_S3000000 : (⟨S_, .f32⟩ : BufTy).Contents (Elt F) → (⟨S3000000, .f32⟩ : BufTy).Contents (Elt F)),
    binary main_v245 main_v227 main_v246 (mulf : (⟨S3000000, .f32⟩ : BufTy).Contents (Elt F) → (⟨S3000000, .f32⟩ : BufTy).Contents (Elt F) → (⟨S3000000, .f32⟩ : BufTy).Contents (Elt F)),
    binary main_v246 main_v244 main_v247 (mulf : (⟨S3000000, .f32⟩ : BufTy).Contents (Elt F) → (⟨S3000000, .f32⟩ : BufTy).Contents (Elt F) → (⟨S3000000, .f32⟩ : BufTy).Contents (Elt F)),
    nullary main_cst_34 (constant S_ .f32 0x40400000#32),
    unary main_cst_34 main_v248 (broadcastInDim S3000000 ![] bcast_S_S3000000 : (⟨S_, .f32⟩ : BufTy).Contents (Elt F) → (⟨S3000000, .f32⟩ : BufTy).Contents (Elt F)),
    binary main_v248 main_v236 main_v249 (mulf : (⟨S3000000, .f32⟩ : BufTy).Contents (Elt F) → (⟨S3000000, .f32⟩ : BufTy).Contents (Elt F) → (⟨S3000000, .f32⟩ : BufTy).Contents (Elt F)),
    binary main_v247 main_v249 main_v250 (subf : (⟨S3000000, .f32⟩ : BufTy).Contents (Elt F) → (⟨S3000000, .f32⟩ : BufTy).Contents (Elt F) → (⟨S3000000, .f32⟩ : BufTy).Contents (Elt F)),
    nullary main_cst_35 (constant S_ .f32 0x40800000#32),
    unary main_cst_35 main_v251 (broadcastInDim S3000000 ![] bcast_S_S3000000 : (⟨S_, .f32⟩ : BufTy).Contents (Elt F) → (⟨S3000000, .f32⟩ : BufTy).Contents (Elt F)),
    binary main_v250 main_v251 main_v252 (Host.divf : (⟨S3000000, .f32⟩ : BufTy).Contents (Elt F) → (⟨S3000000, .f32⟩ : BufTy).Contents (Elt F) → (⟨S3000000, .f32⟩ : BufTy).Contents (Elt F)),
    nullary main_cst_36 (constant S_ .f32 0x41100000#32),
    unary main_cst_36 main_v253 (broadcastInDim S3000000 ![] bcast_S_S3000000 : (⟨S_, .f32⟩ : BufTy).Contents (Elt F) → (⟨S3000000, .f32⟩ : BufTy).Contents (Elt F)),
    binary main_v253 main_v227 main_v254 (mulf : (⟨S3000000, .f32⟩ : BufTy).Contents (Elt F) → (⟨S3000000, .f32⟩ : BufTy).Contents (Elt F) → (⟨S3000000, .f32⟩ : BufTy).Contents (Elt F)),
    binary main_v254 main_v252 main_v255 (mulf : (⟨S3000000, .f32⟩ : BufTy).Contents (Elt F) → (⟨S3000000, .f32⟩ : BufTy).Contents (Elt F) → (⟨S3000000, .f32⟩ : BufTy).Contents (Elt F)),
    nullary main_cst_37 (constant S_ .f32 0x40800000#32),
    unary main_cst_37 main_v256 (broadcastInDim S3000000 ![] bcast_S_S3000000 : (⟨S_, .f32⟩ : BufTy).Contents (Elt F) → (⟨S3000000, .f32⟩ : BufTy).Contents (Elt F)),
    binary main_v256 main_v244 main_v257 (mulf : (⟨S3000000, .f32⟩ : BufTy).Contents (Elt F) → (⟨S3000000, .f32⟩ : BufTy).Contents (Elt F) → (⟨S3000000, .f32⟩ : BufTy).Contents (Elt F)),
    binary main_v255 main_v257 main_v258 (subf : (⟨S3000000, .f32⟩ : BufTy).Contents (Elt F) → (⟨S3000000, .f32⟩ : BufTy).Contents (Elt F) → (⟨S3000000, .f32⟩ : BufTy).Contents (Elt F)),
    nullary main_cst_38 (constant S_ .f32 0x40A00000#32) ]

/-- The operations of the printed program's window 5. -/
abbrev win5 : List (HloOp τ sig (Elt F)) :=
  [ unary main_cst_38 main_v259 (broadcastInDim S3000000 ![] bcast_S_S3000000 : (⟨S_, .f32⟩ : BufTy).Contents (Elt F) → (⟨S3000000, .f32⟩ : BufTy).Contents (Elt F)),
    binary main_v258 main_v259 main_v260 (Host.divf : (⟨S3000000, .f32⟩ : BufTy).Contents (Elt F) → (⟨S3000000, .f32⟩ : BufTy).Contents (Elt F) → (⟨S3000000, .f32⟩ : BufTy).Contents (Elt F)),
    nullary main_cst_39 (constant S_ .f32 0x41300000#32),
    unary main_cst_39 main_v261 (broadcastInDim S3000000 ![] bcast_S_S3000000 : (⟨S_, .f32⟩ : BufTy).Contents (Elt F) → (⟨S3000000, .f32⟩ : BufTy).Contents (Elt F)),
    binary main_v261 main_v227 main_v262 (mulf : (⟨S3000000, .f32⟩ : BufTy).Contents (Elt F) → (⟨S3000000, .f32⟩ : BufTy).Contents (Elt F) → (⟨S3000000, .f32⟩ : BufTy).Contents (Elt F)),
    binary main_v262 main_v260 main_v263 (mulf : (⟨S3000000, .f32⟩ : BufTy).Contents (Elt F) → (⟨S3000000, .f32⟩ : BufTy).Contents (Elt F) → (⟨S3000000, .f32⟩ : BufTy).Contents (Elt F)),
    nullary main_cst_40 (constant S_ .f32 0x40A00000#32),
    unary main_cst_40 main_v264 (broadcastInDim S3000000 ![] bcast_S_S3000000 : (⟨S_, .f32⟩ : BufTy).Contents (Elt F) → (⟨S3000000, .f32⟩ : BufTy).Contents (Elt F)),
    binary main_v264 main_v252 main_v265 (mulf : (⟨S3000000, .f32⟩ : BufTy).Contents (Elt F) → (⟨S3000000, .f32⟩ : BufTy).Contents (Elt F) → (⟨S3000000, .f32⟩ : BufTy).Contents (Elt F)),
    binary main_v263 main_v265 main_v266 (subf : (⟨S3000000, .f32⟩ : BufTy).Contents (Elt F) → (⟨S3000000, .f32⟩ : BufTy).Contents (Elt F) → (⟨S3000000, .f32⟩ : BufTy).Contents (Elt F)),
    nullary main_cst_41 (constant S_ .f32 0x40C00000#32),
    unary main_cst_41 main_v267 (broadcastInDim S3000000 ![] bcast_S_S3000000 : (⟨S_, .f32⟩ : BufTy).Contents (Elt F) → (⟨S3000000, .f32⟩ : BufTy).Contents (Elt F)),
    binary main_v266 main_v267 main_v268 (Host.divf : (⟨S3000000, .f32⟩ : BufTy).Contents (Elt F) → (⟨S3000000, .f32⟩ : BufTy).Contents (Elt F) → (⟨S3000000, .f32⟩ : BufTy).Contents (Elt F)),
    nullary main_cst_42 (constant S_ .f32 0x3E906EBB#32),
    unary main_cst_42 main_v269 (broadcastInDim S3000000 ![] bcast_S_S3000000 : (⟨S_, .f32⟩ : BufTy).Contents (Elt F) → (⟨S3000000, .f32⟩ : BufTy).Contents (Elt F)),
    binary main_v269 main_v228 main_v270 (mulf : (⟨S3000000, .f32⟩ : BufTy).Contents (Elt F) → (⟨S3000000, .f32⟩ : BufTy).Contents (Elt F) → (⟨S3000000, .f32⟩ : BufTy).Contents (Elt F)),
    nullary main_cst_43 (constant S_ .f32 0x3EFA2A1C#32),
    unary main_cst_43 main_v271 (broadcastInDim S3000000 ![] bcast_S_S3000000 : (⟨S_, .f32⟩ : BufTy).Contents (Elt F) → (⟨S3000000, .f32⟩ : BufTy).Contents (Elt F)),
    binary main_v271 main_v227 main_v272 (mulf : (⟨S3000000, .f32⟩ : BufTy).Contents (Elt F) → (⟨S3000000, .f32⟩ : BufTy).Contents (Elt F) → (⟨S3000000, .f32⟩ : BufTy).Contents (Elt F)),
    nullary main_cst_44 (constant S_ .f32 0x3F217B01#32),
    unary main_cst_44 main_v273 (broadcastInDim S3000000 ![] bcast_S_S3000000 : (⟨S_, .f32⟩ : BufTy).Contents (Elt F) → (⟨S3000000, .f32⟩ : BufTy).Contents (Elt F)),
    binary main_v273 main_v236 main_v274 (mulf : (⟨S3000000, .f32⟩ : BufTy).Contents (Elt F) → (⟨S3000000, .f32⟩ : BufTy).Contents (Elt F) → (⟨S3000000, .f32⟩ : BufTy).Contents (Elt F)),
    nullary main_cst_45 (constant S_ .f32 0x3F3F10F8#32),
    unary main_cst_45 main_v275 (broadcastInDim S3000000 ![] bcast_S_S3000000 : (⟨S_, .f32⟩ : BufTy).Contents (Elt F) → (⟨S3000000, .f32⟩ : BufTy).Contents (Elt F)),
    binary main_v275 main_v244 main_v276 (mulf : (⟨S3000000, .f32⟩ : BufTy).Contents (Elt F) → (⟨S3000000, .f32⟩ : BufTy).Contents (Elt F) → (⟨S3000000, .f32⟩ : BufTy).Contents (Elt F)),
    nullary main_cst_46 (constant S_ .f32 0x3F58A618#32),
    unary main_cst_46 main_v277 (broadcastInDim S3000000 ![] bcast_S_S3000000 : (⟨S_, .f32⟩ : BufTy).Contents (Elt F) → (⟨S3000000, .f32⟩ : BufTy).Contents (Elt F)),
    binary main_v277 main_v252 main_v278 (mulf : (⟨S3000000, .f32⟩ : BufTy).Contents (Elt F) → (⟨S3000000, .f32⟩ : BufTy).Contents (Elt F) → (⟨S3000000, .f32⟩ : BufTy).Contents (Elt F)),
    nullary main_cst_47 (constant S_ .f32 0x3F6F83A7#32),
    unary main_cst_47 main_v279 (broadcastInDim S3000000 ![] bcast_S_S3000000 : (⟨S_, .f32⟩ : BufTy).Contents (Elt F) → (⟨S3000000, .f32⟩ : BufTy).Contents (Elt F)),
    binary main_v279 main_v260 main_v280 (mulf : (⟨S3000000, .f32⟩ : BufTy).Contents (Elt F) → (⟨S3000000, .f32⟩ : BufTy).Contents (Elt F) → (⟨S3000000, .f32⟩ : BufTy).Contents (Elt F)),
    nullary main_cst_48 (constant S_ .f32 0x3F823092#32),
    unary main_cst_48 main_v281 (broadcastInDim S3000000 ![] bcast_S_S3000000 : (⟨S_, .f32⟩ : BufTy).Contents (Elt F) → (⟨S3000000, .f32⟩ : BufTy).Contents (Elt F)),
    binary main_v281 main_v268 main_v282 (mulf : (⟨S3000000, .f32⟩ : BufTy).Contents (Elt F) → (⟨S3000000, .f32⟩ : BufTy).Contents (Elt F) → (⟨S3000000, .f32⟩ : BufTy).Contents (Elt F)),
    unary main_v270 main_v283 (broadcastInDim S3000000x1 ![0] bcast_S3000000_S3000000x1_0 : (⟨S3000000, .f32⟩ : BufTy).Contents (Elt F) → (⟨S3000000x1, .f32⟩ : BufTy).Contents (Elt F)),
    unary main_v272 main_v284 (broadcastInDim S3000000x1 ![0] bcast_S3000000_S3000000x1_0 : (⟨S3000000, .f32⟩ : BufTy).Contents (Elt F) → (⟨S3000000x1, .f32⟩ : BufTy).Contents (Elt F)),
    unary main_v274 main_v285 (broadcastInDim S3000000x1 ![0] bcast_S3000000_S3000000x1_0 : (⟨S3000000, .f32⟩ : BufTy).Contents (Elt F) → (⟨S3000000x1, .f32⟩ : BufTy).Contents (Elt F)),
    unary main_v276 main_v286 (broadcastInDim S3000000x1 ![0] bcast_S3000000_S3000000x1_0 : (⟨S3000000, .f32⟩ : BufTy).Contents (Elt F) → (⟨S3000000x1, .f32⟩ : BufTy).Contents (Elt F)),
    unary main_v278 main_v287 (broadcastInDim S3000000x1 ![0] bcast_S3000000_S3000000x1_0 : (⟨S3000000, .f32⟩ : BufTy).Contents (Elt F) → (⟨S3000000x1, .f32⟩ : BufTy).Contents (Elt F)),
    unary main_v280 main_v288 (broadcastInDim S3000000x1 ![0] bcast_S3000000_S3000000x1_0 : (⟨S3000000, .f32⟩ : BufTy).Contents (Elt F) → (⟨S3000000x1, .f32⟩ : BufTy).Contents (Elt F)),
    unary main_v282 main_v289 (broadcastInDim S3000000x1 ![0] bcast_S3000000_S3000000x1_0 : (⟨S3000000, .f32⟩ : BufTy).Contents (Elt F) → (⟨S3000000x1, .f32⟩ : BufTy).Contents (Elt F)),
    nary ![main_v283, main_v284, main_v285, main_v286, main_v287, main_v288, main_v289] main_v290 (fun u => concatenate S3000000x7 1 [⟨S3000000x1, u 0⟩, ⟨S3000000x1, u 1⟩, ⟨S3000000x1, u 2⟩, ⟨S3000000x1, u 3⟩, ⟨S3000000x1, u 4⟩, ⟨S3000000x1, u 5⟩, ⟨S3000000x1, u 6⟩] concatenates_S3000000x1_S3000000x1_S3000000x1_S3000000x1_S3000000x1_S3000000x1_S3000000x1_S3000000x7_d1),
    unary main_v290 main_v291 (broadcastInDim S3000000x7x6 ![0, 1] bcast_S3000000x7_S3000000x7x6_0_1 : (⟨S3000000x7, .f32⟩ : BufTy).Contents (Elt F) → (⟨S3000000x7x6, .f32⟩ : BufTy).Contents (Elt F)),
    reshape main_v291 main_v292 rfl shapeCasts_S3000000x7x6_S3000000x42,
    unary main_arg2 main_v293 (broadcastInDim S3000000x42 ![0, 1] bcast_S3000000x1_S3000000x42_0_1 : (⟨S3000000x1, .f32⟩ : BufTy).Contents (Elt F) → (⟨S3000000x42, .f32⟩ : BufTy).Contents (Elt F)),
    binary main_v292 main_v293 main_v294 (mulf : (⟨S3000000x42, .f32⟩ : BufTy).Contents (Elt F) → (⟨S3000000x42, .f32⟩ : BufTy).Contents (Elt F) → (⟨S3000000x42, .f32⟩ : BufTy).Contents (Elt F)),
    binary main_v226 main_v294 main_v295 (mulf : (⟨S3000000x42, .f32⟩ : BufTy).Contents (Elt F) → (⟨S3000000x42, .f32⟩ : BufTy).Contents (Elt F) → (⟨S3000000x42, .f32⟩ : BufTy).Contents (Elt F)) ]

/-- All the operations, window after window. -/
abbrev ops : List (HloOp τ sig (Elt F)) :=
  win0 ++ (win1 ++ (win2 ++ (win3 ++ (win4 ++ (win5)))))

set_option maxRecDepth 8192 in
set_option maxHeartbeats 4000000 in
theorem main_part0_eq (c : Dev nD) : main_part0 (F := F) c = seq win0 := rfl
set_option maxRecDepth 8192 in
set_option maxHeartbeats 4000000 in
theorem main_part1_eq (c : Dev nD) : main_part1 (F := F) c = seq win1 := rfl
set_option maxRecDepth 8192 in
set_option maxHeartbeats 4000000 in
theorem main_part2_eq (c : Dev nD) : main_part2 (F := F) c = seq win2 := rfl
set_option maxRecDepth 8192 in
set_option maxHeartbeats 4000000 in
theorem main_part3_eq (c : Dev nD) : main_part3 (F := F) c = seq win3 := rfl
set_option maxRecDepth 8192 in
set_option maxHeartbeats 4000000 in
theorem main_part4_eq (c : Dev nD) : main_part4 (F := F) c = seq win4 := rfl
set_option maxRecDepth 8192 in
set_option maxHeartbeats 4000000 in
theorem main_part5_eq (c : Dev nD) : main_part5 (F := F) c = seq win5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem win0_sub : (win0 : List (HloOp τ sig (Elt F))).Forall fun op => op.bufs ⊆ tcRefs τ sig :=
  ⟨nullary_bufs_sub .., nullary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub ..⟩
set_option maxRecDepth 8192 in
theorem win1_sub : (win1 : List (HloOp τ sig (Elt F))).Forall fun op => op.bufs ⊆ tcRefs τ sig :=
  ⟨binary_bufs_sub .., unary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub ..⟩
set_option maxRecDepth 8192 in
theorem win2_sub : (win2 : List (HloOp τ sig (Elt F))).Forall fun op => op.bufs ⊆ tcRefs τ sig :=
  ⟨unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub ..⟩
set_option maxRecDepth 8192 in
theorem win3_sub : (win3 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub ..⟩
set_option maxRecDepth 8192 in
theorem win4_sub : (win4 : List (HloOp τ sig (Elt F))).Forall fun op => op.bufs ⊆ tcRefs τ sig :=
  ⟨unary_bufs_sub .., binary_bufs_sub .., nary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩
set_option maxRecDepth 8192 in
theorem win5_sub : (win5 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., nary_bufs_sub .., unary_bufs_sub .., reshape_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp win0_sub op h, List.forall_iff_forall_mem.mp win1_sub op h, List.forall_iff_forall_mem.mp win2_sub op h, List.forall_iff_forall_mem.mp win3_sub op h, List.forall_iff_forall_mem.mp win4_sub op h, List.forall_iff_forall_mem.mp win5_sub op h]

/-- Every weakly fair execution of the reference terminates with each buffer at the fold of its operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- Stretch sEnv of the same list. -/
def sEnv : List (HloOp τ sig (Elt F)) :=
  [ nullary main_cst (fun i => FloatOps.ofBits .f32 (lit0 (S7x6.rowMajor i))),
    nullary main_cst_0 (fun i => FloatOps.ofBits .f32 (lit1 (S7x6.rowMajor i))),
    nullary main_cst_1 (constant S_ .f32 0x3E4CCCCD#32),
    unary main_cst_1 main_v0 (broadcastInDim S1000000 ![] bcast_S_S1000000 : (⟨S_, .f32⟩ : BufTy).Contents (Elt F) → (⟨S1000000, .f32⟩ : BufTy).Contents (Elt F)),
    binary main_arg0 main_v0 main_v1 (mulf : (⟨S1000000, .f32⟩ : BufTy).Contents (Elt F) → (⟨S1000000, .f32⟩ : BufTy).Contents (Elt F) → (⟨S1000000, .f32⟩ : BufTy).Contents (Elt F)),
    binary main_v1 main_v1 main_v2 (mulf : (⟨S1000000, .f32⟩ : BufTy).Contents (Elt F) → (⟨S1000000, .f32⟩ : BufTy).Contents (Elt F) → (⟨S1000000, .f32⟩ : BufTy).Contents (Elt F)),
    binary main_v2 main_v2 main_v3 (mulf : (⟨S1000000, .f32⟩ : BufTy).Contents (Elt F) → (⟨S1000000, .f32⟩ : BufTy).Contents (Elt F) → (⟨S1000000, .f32⟩ : BufTy).Contents (Elt F)),
    binary main_v2 main_v3 main_v4 (mulf : (⟨S1000000, .f32⟩ : BufTy).Contents (Elt F) → (⟨S1000000, .f32⟩ : BufTy).Contents (Elt F) → (⟨S1000000, .f32⟩ : BufTy).Contents (Elt F)),
    nullary main_cst_2 (constant S_ .f32 0xC1E00000#32),
    unary main_cst_2 main_v5 (broadcastInDim S1000000 ![] bcast_S_S1000000 : (⟨S_, .f32⟩ : BufTy).Contents (Elt F) → (⟨S1000000, .f32⟩ : BufTy).Contents (Elt F)),
    binary main_v5 main_v4 main_v6 (mulf : (⟨S1000000, .f32⟩ : BufTy).Contents (Elt F) → (⟨S1000000, .f32⟩ : BufTy).Contents (Elt F) → (⟨S1000000, .f32⟩ : BufTy).Contents (Elt F)),
    nullary main_cst_3 (constant S_ .f32 0x3F800000#32),
    unary main_cst_3 main_v7 (broadcastInDim S1000000 ![] bcast_S_S1000000 : (⟨S_, .f32⟩ : BufTy).Contents (Elt F) → (⟨S1000000, .f32⟩ : BufTy).Contents (Elt F)),
    binary main_v7 main_v6 main_v8 (addf : (⟨S1000000, .f32⟩ : BufTy).Contents (Elt F) → (⟨S1000000, .f32⟩ : BufTy).Contents (Elt F) → (⟨S1000000, .f32⟩ : BufTy).Contents (Elt F)),
    nullary main_cst_4 (constant S_ .f32 0x40E00000#32),
    unary main_cst_4 main_v9 (broadcastInDim S1000000 ![] bcast_S_S1000000 : (⟨S_, .f32⟩ : BufTy).Contents (Elt F) → (⟨S1000000, .f32⟩ : BufTy).Contents (Elt F)),
    binary main_v1 main_v9 main_v10 (Host.powf : (⟨S1000000, .f32⟩ : BufTy).Contents (Elt F) → (⟨S1000000, .f32⟩ : BufTy).Contents (Elt F) → (⟨S1000000, .f32⟩ : BufTy).Contents (Elt F)),
    nullary main_cst_5 (constant S_ .f32 0x42400000#32),
    unary main_cst_5 main_v11 (broadcastInDim S1000000 ![] bcast_S_S1000000 : (⟨S_, .f32⟩ : BufTy).Contents (Elt F) → (⟨S1000000, .f32⟩ : BufTy).Contents (Elt F)),
    binary main_v11 main_v10 main_v12 (mulf : (⟨S1000000, .f32⟩ : BufTy).Contents (Elt F) → (⟨S1000000, .f32⟩ : BufTy).Contents (Elt F) → (⟨S1000000, .f32⟩ : BufTy).Contents (Elt F)),
    binary main_v8 main_v12 main_v13 (addf : (⟨S1000000, .f32⟩ : BufTy).Contents (Elt F) → (⟨S1000000, .f32⟩ : BufTy).Contents (Elt F) → (⟨S1000000, .f32⟩ : BufTy).Contents (Elt F)),
    nullary main_cst_6 (constant S_ .f32 0x41000000#32),
    unary main_cst_6 main_v14 (broadcastInDim S1000000 ![] bcast_S_S1000000 : (⟨S_, .f32⟩ : BufTy).Contents (Elt F) → (⟨S1000000, .f32⟩ : BufTy).Contents (Elt F)),
    binary main_v1 main_v14 main_v15 (Host.powf : (⟨S1000000, .f32⟩ : BufTy).Contents (Elt F) → (⟨S1000000, .f32⟩ : BufTy).Contents (Elt F) → (⟨S1000000, .f32⟩ : BufTy).Contents (Elt F)),
    nullary main_cst_7 (constant S_ .f32 0xC1A80000#32),
    unary main_cst_7 main_v16 (broadcastInDim S1000000 ![] bcast_S_S1000000 : (⟨S_, .f32⟩ : BufTy).Contents (Elt F) → (⟨S1000000, .f32⟩ : BufTy).Contents (Elt F)),
    binary main_v16 main_v15 main_v17 (mulf : (⟨S1000000, .f32⟩ : BufTy).Contents (Elt F) → (⟨S1000000, .f32⟩ : BufTy).Contents (Elt F) → (⟨S1000000, .f32⟩ : BufTy).Contents (Elt F)),
    binary main_v13 main_v17 main_v18 (addf : (⟨S1000000, .f32⟩ : BufTy).Contents (Elt F) → (⟨S1000000, .f32⟩ : BufTy).Contents (Elt F) → (⟨S1000000, .f32⟩ : BufTy).Contents (Elt F)),
    nullary main_cst_8 (constant S_ .f32 0x3F800000#32),
    unary main_cst_8 main_v19 (broadcastInDim S1000000 ![] bcast_S_S1000000 : (⟨S_, .f32⟩ : BufTy).Contents (Elt F) → (⟨S1000000, .f32⟩ : BufTy).Contents (Elt F)),
    binary main_v1 main_v19 main_v20 (cmpf .olt : (⟨S1000000, .f32⟩ : BufTy).Contents (Elt F) → (⟨S1000000, .f32⟩ : BufTy).Contents (Elt F) → (⟨S1000000, .i1⟩ : BufTy).Contents (Elt F)),
    nullary main_cst_9 (constant S_ .f32 0x00000000#32),
    TRef.unary (.of main_cst_9) main_call0.v0 id,
    TRef.unary main_call0.v0 main_call0.v1 (broadcastInDim S1000000 ![] bcast_S_S1000000),
    TRef.ternary (.of main_v20) (.of main_v18) main_call0.v1 main_call0.v2 select ]
/-- The buffers stretch sEnv writes. -/
abbrev sEnv_W : List (Ref sig .tc) := [main_cst, main_cst_0, main_cst_1, main_v0, main_v1, main_v2, main_v3, main_v4, main_cst_2, main_v5, main_v6, main_cst_3, main_v7, main_v8, main_cst_4, main_v9, main_v10, main_cst_5, main_v11, main_v12, main_v13, main_cst_6, main_v14, main_v15, main_cst_7, main_v16, main_v17, main_v18, main_cst_8, main_v19, main_v20, main_cst_9, main_call0_v0, main_call0_v1, main_v21]
set_option maxRecDepth 8192 in
theorem sEnv_writes : (sEnv : List (HloOp τ sig (Elt F))).Forall fun op => op.writes ⊆ (sEnv_W.map (Proc.devRef (τ := τ) .tc)).toFinset := by
  simp only [sEnv, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sEnv_keep (V : Valuation τ sig (Elt F)) (r : Ref sig .tc) (h : r ∉ sEnv_W) :
    after sEnv V (Proc.devRef .tc r) = V (Proc.devRef .tc r) :=
  after_of_writes_sub sEnv V sEnv_writes h

/-- Stretch sRad0 of the same list. -/
def sRad0 : List (HloOp τ sig (Elt F)) :=
  [ unary main_cst_0 main_v22 ((extractStridedSlice S1x6 ![0, 0] · slices_S7x6_S1x6_0_0) : (⟨S7x6, .f32⟩ : BufTy).Contents (Elt F) → (⟨S1x6, .f32⟩ : BufTy).Contents (Elt F)),
    reshape main_v22 main_v23 rfl shapeCasts_S1x6_S6,
    unary main_v1 main_v24 (broadcastInDim S1000000x1 ![0] bcast_S1000000_S1000000x1_0 : (⟨S1000000, .f32⟩ : BufTy).Contents (Elt F) → (⟨S1000000x1, .f32⟩ : BufTy).Contents (Elt F)),
    unary main_cst main_v25 ((extractStridedSlice S1x6 ![0, 0] · slices_S7x6_S1x6_0_0) : (⟨S7x6, .f32⟩ : BufTy).Contents (Elt F) → (⟨S1x6, .f32⟩ : BufTy).Contents (Elt F)),
    reshape main_v25 main_v26 rfl shapeCasts_S1x6_S6,
    unary main_v26 main_v27 (broadcastInDim S1x6 ![1] bcast_S6_S1x6_1 : (⟨S6, .f32⟩ : BufTy).Contents (Elt F) → (⟨S1x6, .f32⟩ : BufTy).Contents (Elt F)),
    unary main_v24 main_v28 (broadcastInDim S1000000x6 ![0, 1] bcast_S1000000x1_S1000000x6_0_1 : (⟨S1000000x1, .f32⟩ : BufTy).Contents (Elt F) → (⟨S1000000x6, .f32⟩ : BufTy).Contents (Elt F)),
    unary main_v27 main_v29 (broadcastInDim S1000000x6 ![0, 1] bcast_S1x6_S1000000x6_0_1 : (⟨S1x6, .f32⟩ : BufTy).Contents (Elt F) → (⟨S1000000x6, .f32⟩ : BufTy).Contents (Elt F)),
    binary main_v28 main_v29 main_v30 (mulf : (⟨S1000000x6, .f32⟩ : BufTy).Contents (Elt F) → (⟨S1000000x6, .f32⟩ : BufTy).Contents (Elt F) → (⟨S1000000x6, .f32⟩ : BufTy).Contents (Elt F)),
    unary main_v30 main_v31 (Host.sin : (⟨S1000000x6, .f32⟩ : BufTy).Contents (Elt F) → (⟨S1000000x6, .f32⟩ : BufTy).Contents (Elt F)),
    binary main_v31 main_v30 main_v32 (Host.divf : (⟨S1000000x6, .f32⟩ : BufTy).Contents (Elt F) → (⟨S1000000x6, .f32⟩ : BufTy).Contents (Elt F) → (⟨S1000000x6, .f32⟩ : BufTy).Contents (Elt F)),
    unary main_v23 main_v33 (broadcastInDim S1x6 ![1] bcast_S6_S1x6_1 : (⟨S6, .f32⟩ : BufTy).Contents (Elt F) → (⟨S1x6, .f32⟩ : BufTy).Contents (Elt F)),
    unary main_v33 main_v34 (broadcastInDim S1000000x6 ![0, 1] bcast_S1x6_S1000000x6_0_1 : (⟨S1x6, .f32⟩ : BufTy).Contents (Elt F) → (⟨S1000000x6, .f32⟩ : BufTy).Contents (Elt F)),
    binary main_v34 main_v32 main_v35 (mulf : (⟨S1000000x6, .f32⟩ : BufTy).Contents (Elt F) → (⟨S1000000x6, .f32⟩ : BufTy).Contents (Elt F) → (⟨S1000000x6, .f32⟩ : BufTy).Contents (Elt F)) ]
/-- The buffers stretch sRad0 writes. -/
abbrev sRad0_W : List (Ref sig .tc) := [main_v22, main_v23, main_v24, main_v25, main_v26, main_v27, main_v28, main_v29, main_v30, main_v31, main_v32, main_v33, main_v34, main_v35]
set_option maxRecDepth 8192 in
theorem sRad0_writes : (sRad0 : List (HloOp τ sig (Elt F))).Forall fun op => op.writes ⊆ (sRad0_W.map (Proc.devRef (τ := τ) .tc)).toFinset := by
  simp only [sRad0, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad0_keep (V : Valuation τ sig (Elt F)) (r : Ref sig .tc) (h : r ∉ sRad0_W) :
    after sRad0 V (Proc.devRef .tc r) = V (Proc.devRef .tc r) :=
  after_of_writes_sub sRad0 V sRad0_writes h

/-- Stretch sRad1 of the same list. -/
def sRad1 : List (HloOp τ sig (Elt F)) :=
  [ unary main_cst_0 main_v36 ((extractStridedSlice S1x6 ![1, 0] · slices_S7x6_S1x6_1_0) : (⟨S7x6, .f32⟩ : BufTy).Contents (Elt F) → (⟨S1x6, .f32⟩ : BufTy).Contents (Elt F)),
    reshape main_v36 main_v37 rfl shapeCasts_S1x6_S6,
    unary main_v1 main_v38 (broadcastInDim S1000000x1 ![0] bcast_S1000000_S1000000x1_0 : (⟨S1000000, .f32⟩ : BufTy).Contents (Elt F) → (⟨S1000000x1, .f32⟩ : BufTy).Contents (Elt F)),
    unary main_cst main_v39 ((extractStridedSlice S1x6 ![1, 0] · slices_S7x6_S1x6_1_0) : (⟨S7x6, .f32⟩ : BufTy).Contents (Elt F) → (⟨S1x6, .f32⟩ : BufTy).Contents (Elt F)),
    reshape main_v39 main_v40 rfl shapeCasts_S1x6_S6,
    unary main_v40 main_v41 (broadcastInDim S1x6 ![1] bcast_S6_S1x6_1 : (⟨S6, .f32⟩ : BufTy).Contents (Elt F) → (⟨S1x6, .f32⟩ : BufTy).Contents (Elt F)),
    unary main_v38 main_v42 (broadcastInDim S1000000x6 ![0, 1] bcast_S1000000x1_S1000000x6_0_1 : (⟨S1000000x1, .f32⟩ : BufTy).Contents (Elt F) → (⟨S1000000x6, .f32⟩ : BufTy).Contents (Elt F)),
    unary main_v41 main_v43 (broadcastInDim S1000000x6 ![0, 1] bcast_S1x6_S1000000x6_0_1 : (⟨S1x6, .f32⟩ : BufTy).Contents (Elt F) → (⟨S1000000x6, .f32⟩ : BufTy).Contents (Elt F)),
    binary main_v42 main_v43 main_v44 (mulf : (⟨S1000000x6, .f32⟩ : BufTy).Contents (Elt F) → (⟨S1000000x6, .f32⟩ : BufTy).Contents (Elt F) → (⟨S1000000x6, .f32⟩ : BufTy).Contents (Elt F)),
    unary main_v44 main_v45 (Host.sin : (⟨S1000000x6, .f32⟩ : BufTy).Contents (Elt F) → (⟨S1000000x6, .f32⟩ : BufTy).Contents (Elt F)),
    binary main_v45 main_v44 main_v46 (Host.divf : (⟨S1000000x6, .f32⟩ : BufTy).Contents (Elt F) → (⟨S1000000x6, .f32⟩ : BufTy).Contents (Elt F) → (⟨S1000000x6, .f32⟩ : BufTy).Contents (Elt F)),
    unary main_v44 main_v47 (Host.sin : (⟨S1000000x6, .f32⟩ : BufTy).Contents (Elt F) → (⟨S1000000x6, .f32⟩ : BufTy).Contents (Elt F)),
    binary main_v44 main_v44 main_v48 (mulf : (⟨S1000000x6, .f32⟩ : BufTy).Contents (Elt F) → (⟨S1000000x6, .f32⟩ : BufTy).Contents (Elt F) → (⟨S1000000x6, .f32⟩ : BufTy).Contents (Elt F)),
    binary main_v47 main_v48 main_v49 (Host.divf : (⟨S1000000x6, .f32⟩ : BufTy).Contents (Elt F) → (⟨S1000000x6, .f32⟩ : BufTy).Contents (Elt F) → (⟨S1000000x6, .f32⟩ : BufTy).Contents (Elt F)),
    unary main_v44 main_v50 (Host.cos : (⟨S1000000x6, .f32⟩ : BufTy).Contents (Elt F) → (⟨S1000000x6, .f32⟩ : BufTy).Contents (Elt F)),
    binary main_v50 main_v44 main_v51 (Host.divf : (⟨S1000000x6, .f32⟩ : BufTy).Contents (Elt F) → (⟨S1000000x6, .f32⟩ : BufTy).Contents (Elt F) → (⟨S1000000x6, .f32⟩ : BufTy).Contents (Elt F)),
    binary main_v49 main_v51 main_v52 (subf : (⟨S1000000x6, .f32⟩ : BufTy).Contents (Elt F) → (⟨S1000000x6, .f32⟩ : BufTy).Contents (Elt F) → (⟨S1000000x6, .f32⟩ : BufTy).Contents (Elt F)),
    unary main_v37 main_v53 (broadcastInDim S1x6 ![1] bcast_S6_S1x6_1 : (⟨S6, .f32⟩ : BufTy).Contents (Elt F) → (⟨S1x6, .f32⟩ : BufTy).Contents (Elt F)),
    unary main_v53 main_v54 (broadcastInDim S1000000x6 ![0, 1] bcast_S1x6_S1000000x6_0_1 : (⟨S1x6, .f32⟩ : BufTy).Contents (Elt F) → (⟨S1000000x6, .f32⟩ : BufTy).Contents (Elt F)),
    binary main_v54 main_v52 main_v55 (mulf : (⟨S1000000x6, .f32⟩ : BufTy).Contents (Elt F) → (⟨S1000000x6, .f32⟩ : BufTy).Contents (Elt F) → (⟨S1000000x6, .f32⟩ : BufTy).Contents (Elt F)) ]
/-- The buffers stretch sRad1 writes. -/
abbrev sRad1_W : List (Ref sig .tc) := [main_v36, main_v37, main_v38, main_v39, main_v40, main_v41, main_v42, main_v43, main_v44, main_v45, main_v46, main_v47, main_v48, main_v49, main_v50, main_v51, main_v52, main_v53, main_v54, main_v55]
set_option maxRecDepth 8192 in
theorem sRad1_writes : (sRad1 : List (HloOp τ sig (Elt F))).Forall fun op => op.writes ⊆ (sRad1_W.map (Proc.devRef (τ := τ) .tc)).toFinset := by
  simp only [sRad1, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad1_keep (V : Valuation τ sig (Elt F)) (r : Ref sig .tc) (h : r ∉ sRad1_W) :
    after sRad1 V (Proc.devRef .tc r) = V (Proc.devRef .tc r) :=
  after_of_writes_sub sRad1 V sRad1_writes h

/-- Stretch sRad2 of the same list. -/
def sRad2 : List (HloOp τ sig (Elt F)) :=
  [ unary main_cst_0 main_v56 ((extractStridedSlice S1x6 ![2, 0] · slices_S7x6_S1x6_2_0) : (⟨S7x6, .f32⟩ : BufTy).Contents (Elt F) → (⟨S1x6, .f32⟩ : BufTy).Contents (Elt F)),
    reshape main_v56 main_v57 rfl shapeCasts_S1x6_S6,
    unary main_v1 main_v58 (broadcastInDim S1000000x1 ![0] bcast_S1000000_S1000000x1_0 : (⟨S1000000, .f32⟩ : BufTy).Contents (Elt F) → (⟨S1000000x1, .f32⟩ : BufTy).Contents (Elt F)),
    unary main_cst main_v59 ((extractStridedSlice S1x6 ![2, 0] · slices_S7x6_S1x6_2_0) : (⟨S7x6, .f32⟩ : BufTy).Contents (Elt F) → (⟨S1x6, .f32⟩ : BufTy).Contents (Elt F)),
    reshape main_v59 main_v60 rfl shapeCasts_S1x6_S6,
    unary main_v60 main_v61 (broadcastInDim S1x6 ![1] bcast_S6_S1x6_1 : (⟨S6, .f32⟩ : BufTy).Contents (Elt F) → (⟨S1x6, .f32⟩ : BufTy).Contents (Elt F)),
    unary main_v58 main_v62 (broadcastInDim S1000000x6 ![0, 1] bcast_S1000000x1_S1000000x6_0_1 : (⟨S1000000x1, .f32⟩ : BufTy).Contents (Elt F) → (⟨S1000000x6, .f32⟩ : BufTy).Contents (Elt F)),
    unary main_v61 main_v63 (broadcastInDim S1000000x6 ![0, 1] bcast_S1x6_S1000000x6_0_1 : (⟨S1x6, .f32⟩ : BufTy).Contents (Elt F) → (⟨S1000000x6, .f32⟩ : BufTy).Contents (Elt F)),
    binary main_v62 main_v63 main_v64 (mulf : (⟨S1000000x6, .f32⟩ : BufTy).Contents (Elt F) → (⟨S1000000x6, .f32⟩ : BufTy).Contents (Elt F) → (⟨S1000000x6, .f32⟩ : BufTy).Contents (Elt F)),
    unary main_v64 main_v65 (Host.sin : (⟨S1000000x6, .f32⟩ : BufTy).Contents (Elt F) → (⟨S1000000x6, .f32⟩ : BufTy).Contents (Elt F)),
    binary main_v65 main_v64 main_v66 (Host.divf : (⟨S1000000x6, .f32⟩ : BufTy).Contents (Elt F) → (⟨S1000000x6, .f32⟩ : BufTy).Contents (Elt F) → (⟨S1000000x6, .f32⟩ : BufTy).Contents (Elt F)),
    unary main_v64 main_v67 (Host.sin : (⟨S1000000x6, .f32⟩ : BufTy).Contents (Elt F) → (⟨S1000000x6, .f32⟩ : BufTy).Contents (Elt F)),
    binary main_v64 main_v64 main_v68 (mulf : (⟨S1000000x6, .f32⟩ : BufTy).Contents (Elt F) → (⟨S1000000x6, .f32⟩ : BufTy).Contents (Elt F) → (⟨S1000000x6, .f32⟩ : BufTy).Contents (Elt F)),
    binary main_v67 main_v68 main_v69 (Host.divf : (⟨S1000000x6, .f32⟩ : BufTy).Contents (Elt F) → (⟨S1000000x6, .f32⟩ : BufTy).Contents (Elt F) → (⟨S1000000x6, .f32⟩ : BufTy).Contents (Elt F)),
    unary main_v64 main_v70 (Host.cos : (⟨S1000000x6, .f32⟩ : BufTy).Contents (Elt F) → (⟨S1000000x6, .f32⟩ : BufTy).Contents (Elt F)),
    binary main_v70 main_v64 main_v71 (Host.divf : (⟨S1000000x6, .f32⟩ : BufTy).Contents (Elt F) → (⟨S1000000x6, .f32⟩ : BufTy).Contents (Elt F) → (⟨S1000000x6, .f32⟩ : BufTy).Contents (Elt F)),
    binary main_v69 main_v71 main_v72 (subf : (⟨S1000000x6, .f32⟩ : BufTy).Contents (Elt F) → (⟨S1000000x6, .f32⟩ : BufTy).Contents (Elt F) → (⟨S1000000x6, .f32⟩ : BufTy).Contents (Elt F)),
    nullary main_cst_10 (constant S_ .f32 0x40400000#32),
    unary main_cst_10 main_v73 (broadcastInDim S1000000x6 ![] bcast_S_S1000000x6 : (⟨S_, .f32⟩ : BufTy).Contents (Elt F) → (⟨S1000000x6, .f32⟩ : BufTy).Contents (Elt F)),
    binary main_v73 main_v64 main_v74 (Host.divf : (⟨S1000000x6, .f32⟩ : BufTy).Contents (Elt F) → (⟨S1000000x6, .f32⟩ : BufTy).Contents (Elt F) → (⟨S1000000x6, .f32⟩ : BufTy).Contents (Elt F)),
    binary main_v74 main_v72 main_v75 (mulf : (⟨S1000000x6, .f32⟩ : BufTy).Contents (Elt F) → (⟨S1000000x6, .f32⟩ : BufTy).Contents (Elt F) → (⟨S1000000x6, .f32⟩ : BufTy).Contents (Elt F)),
    binary main_v75 main_v66 main_v76 (subf : (⟨S1000000x6, .f32⟩ : BufTy).Contents (Elt F) → (⟨S1000000x6, .f32⟩ : BufTy).Contents (Elt F) → (⟨S1000000x6, .f32⟩ : BufTy).Contents (Elt F)),
    unary main_v57 main_v77 (broadcastInDim S1x6 ![1] bcast_S6_S1x6_1 : (⟨S6, .f32⟩ : BufTy).Contents (Elt F) → (⟨S1x6, .f32⟩ : BufTy).Contents (Elt F)),
    unary main_v77 main_v78 (broadcastInDim S1000000x6 ![0, 1] bcast_S1x6_S1000000x6_0_1 : (⟨S1x6, .f32⟩ : BufTy).Contents (Elt F) → (⟨S1000000x6, .f32⟩ : BufTy).Contents (Elt F)),
    binary main_v78 main_v76 main_v79 (mulf : (⟨S1000000x6, .f32⟩ : BufTy).Contents (Elt F) → (⟨S1000000x6, .f32⟩ : BufTy).Contents (Elt F) → (⟨S1000000x6, .f32⟩ : BufTy).Contents (Elt F)) ]
/-- The buffers stretch sRad2 writes. -/
abbrev sRad2_W : List (Ref sig .tc) := [main_v56, main_v57, main_v58, main_v59, main_v60, main_v61, main_v62, main_v63, main_v64, main_v65, main_v66, main_v67, main_v68, main_v69, main_v70, main_v71, main_v72, main_cst_10, main_v73, main_v74, main_v75, main_v76, main_v77, main_v78, main_v79]
set_option maxRecDepth 8192 in
theorem sRad2_writes : (sRad2 : List (HloOp τ sig (Elt F))).Forall fun op => op.writes ⊆ (sRad2_W.map (Proc.devRef (τ := τ) .tc)).toFinset := by
  simp only [sRad2, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad2_keep (V : Valuation τ sig (Elt F)) (r : Ref sig .tc) (h : r ∉ sRad2_W) :
    after sRad2 V (Proc.devRef .tc r) = V (Proc.devRef .tc r) :=
  after_of_writes_sub sRad2 V sRad2_writes h

/-- Stretch sRad3 of the same list. -/
def sRad3 : List (HloOp τ sig (Elt F)) :=
  [ unary main_cst_0 main_v80 ((extractStridedSlice S1x6 ![3, 0] · slices_S7x6_S1x6_3_0) : (⟨S7x6, .f32⟩ : BufTy).Contents (Elt F) → (⟨S1x6, .f32⟩ : BufTy).Contents (Elt F)),
    reshape main_v80 main_v81 rfl shapeCasts_S1x6_S6,
    unary main_v1 main_v82 (broadcastInDim S1000000x1 ![0] bcast_S1000000_S1000000x1_0 : (⟨S1000000, .f32⟩ : BufTy).Contents (Elt F) → (⟨S1000000x1, .f32⟩ : BufTy).Contents (Elt F)),
    unary main_cst main_v83 ((extractStridedSlice S1x6 ![3, 0] · slices_S7x6_S1x6_3_0) : (⟨S7x6, .f32⟩ : BufTy).Contents (Elt F) → (⟨S1x6, .f32⟩ : BufTy).Contents (Elt F)),
    reshape main_v83 main_v84 rfl shapeCasts_S1x6_S6,
    unary main_v84 main_v85 (broadcastInDim S1x6 ![1] bcast_S6_S1x6_1 : (⟨S6, .f32⟩ : BufTy).Contents (Elt F) → (⟨S1x6, .f32⟩ : BufTy).Contents (Elt F)),
    unary main_v82 main_v86 (broadcastInDim S1000000x6 ![0, 1] bcast_S1000000x1_S1000000x6_0_1 : (⟨S1000000x1, .f32⟩ : BufTy).Contents (Elt F) → (⟨S1000000x6, .f32⟩ : BufTy).Contents (Elt F)),
    unary main_v85 main_v87 (broadcastInDim S1000000x6 ![0, 1] bcast_S1x6_S1000000x6_0_1 : (⟨S1x6, .f32⟩ : BufTy).Contents (Elt F) → (⟨S1000000x6, .f32⟩ : BufTy).Contents (Elt F)),
    binary main_v86 main_v87 main_v88 (mulf : (⟨S1000000x6, .f32⟩ : BufTy).Contents (Elt F) → (⟨S1000000x6, .f32⟩ : BufTy).Contents (Elt F) → (⟨S1000000x6, .f32⟩ : BufTy).Contents (Elt F)),
    unary main_v88 main_v89 (Host.sin : (⟨S1000000x6, .f32⟩ : BufTy).Contents (Elt F) → (⟨S1000000x6, .f32⟩ : BufTy).Contents (Elt F)),
    binary main_v89 main_v88 main_v90 (Host.divf : (⟨S1000000x6, .f32⟩ : BufTy).Contents (Elt F) → (⟨S1000000x6, .f32⟩ : BufTy).Contents (Elt F) → (⟨S1000000x6, .f32⟩ : BufTy).Contents (Elt F)),
    unary main_v88 main_v91 (Host.sin : (⟨S1000000x6, .f32⟩ : BufTy).Contents (Elt F) → (⟨S1000000x6, .f32⟩ : BufTy).Contents (Elt F)),
    binary main_v88 main_v88 main_v92 (mulf : (⟨S1000000x6, .f32⟩ : BufTy).Contents (Elt F) → (⟨S1000000x6, .f32⟩ : BufTy).Contents (Elt F) → (⟨S1000000x6, .f32⟩ : BufTy).Contents (Elt F)),
    binary main_v91 main_v92 main_v93 (Host.divf : (⟨S1000000x6, .f32⟩ : BufTy).Contents (Elt F) → (⟨S1000000x6, .f32⟩ : BufTy).Contents (Elt F) → (⟨S1000000x6, .f32⟩ : BufTy).Contents (Elt F)),
    unary main_v88 main_v94 (Host.cos : (⟨S1000000x6, .f32⟩ : BufTy).Contents (Elt F) → (⟨S1000000x6, .f32⟩ : BufTy).Contents (Elt F)),
    binary main_v94 main_v88 main_v95 (Host.divf : (⟨S1000000x6, .f32⟩ : BufTy).Contents (Elt F) → (⟨S1000000x6, .f32⟩ : BufTy).Contents (Elt F) → (⟨S1000000x6, .f32⟩ : BufTy).Contents (Elt F)),
    binary main_v93 main_v95 main_v96 (subf : (⟨S1000000x6, .f32⟩ : BufTy).Contents (Elt F) → (⟨S1000000x6, .f32⟩ : BufTy).Contents (Elt F) → (⟨S1000000x6, .f32⟩ : BufTy).Contents (Elt F)),
    nullary main_cst_11 (constant S_ .f32 0x40400000#32),
    unary main_cst_11 main_v97 (broadcastInDim S1000000x6 ![] bcast_S_S1000000x6 : (⟨S_, .f32⟩ : BufTy).Contents (Elt F) → (⟨S1000000x6, .f32⟩ : BufTy).Contents (Elt F)),
    binary main_v97 main_v88 main_v98 (Host.divf : (⟨S1000000x6, .f32⟩ : BufTy).Contents (Elt F) → (⟨S1000000x6, .f32⟩ : BufTy).Contents (Elt F) → (⟨S1000000x6, .f32⟩ : BufTy).Contents (Elt F)),
    binary main_v98 main_v96 main_v99 (mulf : (⟨S1000000x6, .f32⟩ : BufTy).Contents (Elt F) → (⟨S1000000x6, .f32⟩ : BufTy).Contents (Elt F) → (⟨S1000000x6, .f32⟩ : BufTy).Contents (Elt F)),
    binary main_v99 main_v90 main_v100 (subf : (⟨S1000000x6, .f32⟩ : BufTy).Contents (Elt F) → (⟨S1000000x6, .f32⟩ : BufTy).Contents (Elt F) → (⟨S1000000x6, .f32⟩ : BufTy).Contents (Elt F)),
    nullary main_cst_12 (constant S_ .f32 0x40A00000#32),
    unary main_cst_12 main_v101 (broadcastInDim S1000000x6 ![] bcast_S_S1000000x6 : (⟨S_, .f32⟩ : BufTy).Contents (Elt F) → (⟨S1000000x6, .f32⟩ : BufTy).Contents (Elt F)),
    binary main_v101 main_v88 main_v102 (Host.divf : (⟨S1000000x6, .f32⟩ : BufTy).Contents (Elt F) → (⟨S1000000x6, .f32⟩ : BufTy).Contents (Elt F) → (⟨S1000000x6, .f32⟩ : BufTy).Contents (Elt F)),
    binary main_v102 main_v100 main_v103 (mulf : (⟨S1000000x6, .f32⟩ : BufTy).Contents (Elt F) → (⟨S1000000x6, .f32⟩ : BufTy).Contents (Elt F) → (⟨S1000000x6, .f32⟩ : BufTy).Contents (Elt F)),
    binary main_v103 main_v96 main_v104 (subf : (⟨S1000000x6, .f32⟩ : BufTy).Contents (Elt F) → (⟨S1000000x6, .f32⟩ : BufTy).Contents (Elt F) → (⟨S1000000x6, .f32⟩ : BufTy).Contents (Elt F)),
    unary main_v81 main_v105 (broadcastInDim S1x6 ![1] bcast_S6_S1x6_1 : (⟨S6, .f32⟩ : BufTy).Contents (Elt F) → (⟨S1x6, .f32⟩ : BufTy).Contents (Elt F)),
    unary main_v105 main_v106 (broadcastInDim S1000000x6 ![0, 1] bcast_S1x6_S1000000x6_0_1 : (⟨S1x6, .f32⟩ : BufTy).Contents (Elt F) → (⟨S1000000x6, .f32⟩ : BufTy).Contents (Elt F)),
    binary main_v106 main_v104 main_v107 (mulf : (⟨S1000000x6, .f32⟩ : BufTy).Contents (Elt F) → (⟨S1000000x6, .f32⟩ : BufTy).Contents (Elt F) → (⟨S1000000x6, .f32⟩ : BufTy).Contents (Elt F)) ]
/-- The buffers stretch sRad3 writes. -/
abbrev sRad3_W : List (Ref sig .tc) := [main_v80, main_v81, main_v82, main_v83, main_v84, main_v85, main_v86, main_v87, main_v88, main_v89, main_v90, main_v91, main_v92, main_v93, main_v94, main_v95, main_v96, main_cst_11, main_v97, main_v98, main_v99, main_v100, main_cst_12, main_v101, main_v102, main_v103, main_v104, main_v105, main_v106, main_v107]
set_option maxRecDepth 8192 in
theorem sRad3_writes : (sRad3 : List (HloOp τ sig (Elt F))).Forall fun op => op.writes ⊆ (sRad3_W.map (Proc.devRef (τ := τ) .tc)).toFinset := by
  simp only [sRad3, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad3_keep (V : Valuation τ sig (Elt F)) (r : Ref sig .tc) (h : r ∉ sRad3_W) :
    after sRad3 V (Proc.devRef .tc r) = V (Proc.devRef .tc r) :=
  after_of_writes_sub sRad3 V sRad3_writes h

/-- Stretch sRad4 of the same list. -/
def sRad4 : List (HloOp τ sig (Elt F)) :=
  [ unary main_cst_0 main_v108 ((extractStridedSlice S1x6 ![4, 0] · slices_S7x6_S1x6_4_0) : (⟨S7x6, .f32⟩ : BufTy).Contents (Elt F) → (⟨S1x6, .f32⟩ : BufTy).Contents (Elt F)),
    reshape main_v108 main_v109 rfl shapeCasts_S1x6_S6,
    unary main_v1 main_v110 (broadcastInDim S1000000x1 ![0] bcast_S1000000_S1000000x1_0 : (⟨S1000000, .f32⟩ : BufTy).Contents (Elt F) → (⟨S1000000x1, .f32⟩ : BufTy).Contents (Elt F)),
    unary main_cst main_v111 ((extractStridedSlice S1x6 ![4, 0] · slices_S7x6_S1x6_4_0) : (⟨S7x6, .f32⟩ : BufTy).Contents (Elt F) → (⟨S1x6, .f32⟩ : BufTy).Contents (Elt F)),
    reshape main_v111 main_v112 rfl shapeCasts_S1x6_S6,
    unary main_v112 main_v113 (broadcastInDim S1x6 ![1] bcast_S6_S1x6_1 : (⟨S6, .f32⟩ : BufTy).Contents (Elt F) → (⟨S1x6, .f32⟩ : BufTy).Contents (Elt F)),
    unary main_v110 main_v114 (broadcastInDim S1000000x6 ![0, 1] bcast_S1000000x1_S1000000x6_0_1 : (⟨S1000000x1, .f32⟩ : BufTy).Contents (Elt F) → (⟨S1000000x6, .f32⟩ : BufTy).Contents (Elt F)),
    unary main_v113 main_v115 (broadcastInDim S1000000x6 ![0, 1] bcast_S1x6_S1000000x6_0_1 : (⟨S1x6, .f32⟩ : BufTy).Contents (Elt F) → (⟨S1000000x6, .f32⟩ : BufTy).Contents (Elt F)),
    binary main_v114 main_v115 main_v116 (mulf : (⟨S1000000x6, .f32⟩ : BufTy).Contents (Elt F) → (⟨S1000000x6, .f32⟩ : BufTy).Contents (Elt F) → (⟨S1000000x6, .f32⟩ : BufTy).Contents (Elt F)),
    unary main_v116 main_v117 (Host.sin : (⟨S1000000x6, .f32⟩ : BufTy).Contents (Elt F) → (⟨S1000000x6, .f32⟩ : BufTy).Contents (Elt F)),
    binary main_v117 main_v116 main_v118 (Host.divf : (⟨S1000000x6, .f32⟩ : BufTy).Contents (Elt F) → (⟨S1000000x6, .f32⟩ : BufTy).Contents (Elt F) → (⟨S1000000x6, .f32⟩ : BufTy).Contents (Elt F)),
    unary main_v116 main_v119 (Host.sin : (⟨S1000000x6, .f32⟩ : BufTy).Contents (Elt F) → (⟨S1000000x6, .f32⟩ : BufTy).Contents (Elt F)),
    binary main_v116 main_v116 main_v120 (mulf : (⟨S1000000x6, .f32⟩ : BufTy).Contents (Elt F) → (⟨S1000000x6, .f32⟩ : BufTy).Contents (Elt F) → (⟨S1000000x6, .f32⟩ : BufTy).Contents (Elt F)),
    binary main_v119 main_v120 main_v121 (Host.divf : (⟨S1000000x6, .f32⟩ : BufTy).Contents (Elt F) → (⟨S1000000x6, .f32⟩ : BufTy).Contents (Elt F) → (⟨S1000000x6, .f32⟩ : BufTy).Contents (Elt F)),
    unary main_v116 main_v122 (Host.cos : (⟨S1000000x6, .f32⟩ : BufTy).Contents (Elt F) → (⟨S1000000x6, .f32⟩ : BufTy).Contents (Elt F)),
    binary main_v122 main_v116 main_v123 (Host.divf : (⟨S1000000x6, .f32⟩ : BufTy).Contents (Elt F) → (⟨S1000000x6, .f32⟩ : BufTy).Contents (Elt F) → (⟨S1000000x6, .f32⟩ : BufTy).Contents (Elt F)),
    binary main_v121 main_v123 main_v124 (subf : (⟨S1000000x6, .f32⟩ : BufTy).Contents (Elt F) → (⟨S1000000x6, .f32⟩ : BufTy).Contents (Elt F) → (⟨S1000000x6, .f32⟩ : BufTy).Contents (Elt F)),
    nullary main_cst_13 (constant S_ .f32 0x40400000#32),
    unary main_cst_13 main_v125 (broadcastInDim S1000000x6 ![] bcast_S_S1000000x6 : (⟨S_, .f32⟩ : BufTy).Contents (Elt F) → (⟨S1000000x6, .f32⟩ : BufTy).Contents (Elt F)),
    binary main_v125 main_v116 main_v126 (Host.divf : (⟨S1000000x6, .f32⟩ : BufTy).Contents (Elt F) → (⟨S1000000x6, .f32⟩ : BufTy).Contents (Elt F) → (⟨S1000000x6, .f32⟩ : BufTy).Contents (Elt F)),
    binary main_v126 main_v124 main_v127 (mulf : (⟨S1000000x6, .f32⟩ : BufTy).Contents (Elt F) → (⟨S1000000x6, .f32⟩ : BufTy).Contents (Elt F) → (⟨S1000000x6, .f32⟩ : BufTy).Contents (Elt F)),
    binary main_v127 main_v118 main_v128 (subf : (⟨S1000000x6, .f32⟩ : BufTy).Contents (Elt F) → (⟨S1000000x6, .f32⟩ : BufTy).Contents (Elt F) → (⟨S1000000x6, .f32⟩ : BufTy).Contents (Elt F)),
    nullary main_cst_14 (constant S_ .f32 0x40A00000#32),
    unary main_cst_14 main_v129 (broadcastInDim S1000000x6 ![] bcast_S_S1000000x6 : (⟨S_, .f32⟩ : BufTy).Contents (Elt F) → (⟨S1000000x6, .f32⟩ : BufTy).Contents (Elt F)),
    binary main_v129 main_v116 main_v130 (Host.divf : (⟨S1000000x6, .f32⟩ : BufTy).Contents (Elt F) → (⟨S1000000x6, .f32⟩ : BufTy).Contents (Elt F) → (⟨S1000000x6, .f32⟩ : BufTy).Contents (Elt F)),
    binary main_v130 main_v128 main_v131 (mulf : (⟨S1000000x6, .f32⟩ : BufTy).Contents (Elt F) → (⟨S1000000x6, .f32⟩ : BufTy).Contents (Elt F) → (⟨S1000000x6, .f32⟩ : BufTy).Contents (Elt F)),
    binary main_v131 main_v124 main_v132 (subf : (⟨S1000000x6, .f32⟩ : BufTy).Contents (Elt F) → (⟨S1000000x6, .f32⟩ : BufTy).Contents (Elt F) → (⟨S1000000x6, .f32⟩ : BufTy).Contents (Elt F)),
    nullary main_cst_15 (constant S_ .f32 0x40E00000#32),
    unary main_cst_15 main_v133 (broadcastInDim S1000000x6 ![] bcast_S_S1000000x6 : (⟨S_, .f32⟩ : BufTy).Contents (Elt F) → (⟨S1000000x6, .f32⟩ : BufTy).Contents (Elt F)),
    binary main_v133 main_v116 main_v134 (Host.divf : (⟨S1000000x6, .f32⟩ : BufTy).Contents (Elt F) → (⟨S1000000x6, .f32⟩ : BufTy).Contents (Elt F) → (⟨S1000000x6, .f32⟩ : BufTy).Contents (Elt F)),
    binary main_v134 main_v132 main_v135 (mulf : (⟨S1000000x6, .f32⟩ : BufTy).Contents (Elt F) → (⟨S1000000x6, .f32⟩ : BufTy).Contents (Elt F) → (⟨S1000000x6, .f32⟩ : BufTy).Contents (Elt F)),
    binary main_v135 main_v128 main_v136 (subf : (⟨S1000000x6, .f32⟩ : BufTy).Contents (Elt F) → (⟨S1000000x6, .f32⟩ : BufTy).Contents (Elt F) → (⟨S1000000x6, .f32⟩ : BufTy).Contents (Elt F)),
    unary main_v109 main_v137 (broadcastInDim S1x6 ![1] bcast_S6_S1x6_1 : (⟨S6, .f32⟩ : BufTy).Contents (Elt F) → (⟨S1x6, .f32⟩ : BufTy).Contents (Elt F)),
    unary main_v137 main_v138 (broadcastInDim S1000000x6 ![0, 1] bcast_S1x6_S1000000x6_0_1 : (⟨S1x6, .f32⟩ : BufTy).Contents (Elt F) → (⟨S1000000x6, .f32⟩ : BufTy).Contents (Elt F)),
    binary main_v138 main_v136 main_v139 (mulf : (⟨S1000000x6, .f32⟩ : BufTy).Contents (Elt F) → (⟨S1000000x6, .f32⟩ : BufTy).Contents (Elt F) → (⟨S1000000x6, .f32⟩ : BufTy).Contents (Elt F)) ]
/-- The buffers stretch sRad4 writes. -/
abbrev sRad4_W : List (Ref sig .tc) := [main_v108, main_v109, main_v110, main_v111, main_v112, main_v113, main_v114, main_v115, main_v116, main_v117, main_v118, main_v119, main_v120, main_v121, main_v122, main_v123, main_v124, main_cst_13, main_v125, main_v126, main_v127, main_v128, main_cst_14, main_v129, main_v130, main_v131, main_v132, main_cst_15, main_v133, main_v134, main_v135, main_v136, main_v137, main_v138, main_v139]
set_option maxRecDepth 8192 in
theorem sRad4_writes : (sRad4 : List (HloOp τ sig (Elt F))).Forall fun op => op.writes ⊆ (sRad4_W.map (Proc.devRef (τ := τ) .tc)).toFinset := by
  simp only [sRad4, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad4_keep (V : Valuation τ sig (Elt F)) (r : Ref sig .tc) (h : r ∉ sRad4_W) :
    after sRad4 V (Proc.devRef .tc r) = V (Proc.devRef .tc r) :=
  after_of_writes_sub sRad4 V sRad4_writes h

/-- Stretch sRad5 of the same list. -/
def sRad5 : List (HloOp τ sig (Elt F)) :=
  [ unary main_cst_0 main_v140 ((extractStridedSlice S1x6 ![5, 0] · slices_S7x6_S1x6_5_0) : (⟨S7x6, .f32⟩ : BufTy).Contents (Elt F) → (⟨S1x6, .f32⟩ : BufTy).Contents (Elt F)),
    reshape main_v140 main_v141 rfl shapeCasts_S1x6_S6,
    unary main_v1 main_v142 (broadcastInDim S1000000x1 ![0] bcast_S1000000_S1000000x1_0 : (⟨S1000000, .f32⟩ : BufTy).Contents (Elt F) → (⟨S1000000x1, .f32⟩ : BufTy).Contents (Elt F)),
    unary main_cst main_v143 ((extractStridedSlice S1x6 ![5, 0] · slices_S7x6_S1x6_5_0) : (⟨S7x6, .f32⟩ : BufTy).Contents (Elt F) → (⟨S1x6, .f32⟩ : BufTy).Contents (Elt F)),
    reshape main_v143 main_v144 rfl shapeCasts_S1x6_S6,
    unary main_v144 main_v145 (broadcastInDim S1x6 ![1] bcast_S6_S1x6_1 : (⟨S6, .f32⟩ : BufTy).Contents (Elt F) → (⟨S1x6, .f32⟩ : BufTy).Contents (Elt F)),
    unary main_v142 main_v146 (broadcastInDim S1000000x6 ![0, 1] bcast_S1000000x1_S1000000x6_0_1 : (⟨S1000000x1, .f32⟩ : BufTy).Contents (Elt F) → (⟨S1000000x6, .f32⟩ : BufTy).Contents (Elt F)),
    unary main_v145 main_v147 (broadcastInDim S1000000x6 ![0, 1] bcast_S1x6_S1000000x6_0_1 : (⟨S1x6, .f32⟩ : BufTy).Contents (Elt F) → (⟨S1000000x6, .f32⟩ : BufTy).Contents (Elt F)),
    binary main_v146 main_v147 main_v148 (mulf : (⟨S1000000x6, .f32⟩ : BufTy).Contents (Elt F) → (⟨S1000000x6, .f32⟩ : BufTy).Contents (Elt F) → (⟨S1000000x6, .f32⟩ : BufTy).Contents (Elt F)),
    unary main_v148 main_v149 (Host.sin : (⟨S1000000x6, .f32⟩ : BufTy).Contents (Elt F) → (⟨S1000000x6, .f32⟩ : BufTy).Contents (Elt F)),
    binary main_v149 main_v148 main_v150 (Host.divf : (⟨S1000000x6, .f32⟩ : BufTy).Contents (Elt F) → (⟨S1000000x6, .f32⟩ : BufTy).Contents (Elt F) → (⟨S1000000x6, .f32⟩ : BufTy).Contents (Elt F)),
    unary main_v148 main_v151 (Host.sin : (⟨S1000000x6, .f32⟩ : BufTy).Contents (Elt F) → (⟨S1000000x6, .f32⟩ : BufTy).Contents (Elt F)),
    binary main_v148 main_v148 main_v152 (mulf : (⟨S1000000x6, .f32⟩ : BufTy).Contents (Elt F) → (⟨S1000000x6, .f32⟩ : BufTy).Contents (Elt F) → (⟨S1000000x6, .f32⟩ : BufTy).Contents (Elt F)),
    binary main_v151 main_v152 main_v153 (Host.divf : (⟨S1000000x6, .f32⟩ : BufTy).Contents (Elt F) → (⟨S1000000x6, .f32⟩ : BufTy).Contents (Elt F) → (⟨S1000000x6, .f32⟩ : BufTy).Contents (Elt F)),
    unary main_v148 main_v154 (Host.cos : (⟨S1000000x6, .f32⟩ : BufTy).Contents (Elt F) → (⟨S1000000x6, .f32⟩ : BufTy).Contents (Elt F)),
    binary main_v154 main_v148 main_v155 (Host.divf : (⟨S1000000x6, .f32⟩ : BufTy).Contents (Elt F) → (⟨S1000000x6, .f32⟩ : BufTy).Contents (Elt F) → (⟨S1000000x6, .f32⟩ : BufTy).Contents (Elt F)),
    binary main_v153 main_v155 main_v156 (subf : (⟨S1000000x6, .f32⟩ : BufTy).Contents (Elt F) → (⟨S1000000x6, .f32⟩ : BufTy).Contents (Elt F) → (⟨S1000000x6, .f32⟩ : BufTy).Contents (Elt F)),
    nullary main_cst_16 (constant S_ .f32 0x40400000#32),
    unary main_cst_16 main_v157 (broadcastInDim S1000000x6 ![] bcast_S_S1000000x6 : (⟨S_, .f32⟩ : BufTy).Contents (Elt F) → (⟨S1000000x6, .f32⟩ : BufTy).Contents (Elt F)),
    binary main_v157 main_v148 main_v158 (Host.divf : (⟨S1000000x6, .f32⟩ : BufTy).Contents (Elt F) → (⟨S1000000x6, .f32⟩ : BufTy).Contents (Elt F) → (⟨S1000000x6, .f32⟩ : BufTy).Contents (Elt F)),
    binary main_v158 main_v156 main_v159 (mulf : (⟨S1000000x6, .f32⟩ : BufTy).Contents (Elt F) → (⟨S1000000x6, .f32⟩ : BufTy).Contents (Elt F) → (⟨S1000000x6, .f32⟩ : BufTy).Contents (Elt F)),
    binary main_v159 main_v150 main_v160 (subf : (⟨S1000000x6, .f32⟩ : BufTy).Contents (Elt F) → (⟨S1000000x6, .f32⟩ : BufTy).Contents (Elt F) → (⟨S1000000x6, .f32⟩ : BufTy).Contents (Elt F)),
    nullary main_cst_17 (constant S_ .f32 0x40A00000#32),
    unary main_cst_17 main_v161 (broadcastInDim S1000000x6 ![] bcast_S_S1000000x6 : (⟨S_, .f32⟩ : BufTy).Contents (Elt F) → (⟨S1000000x6, .f32⟩ : BufTy).Contents (Elt F)),
    binary main_v161 main_v148 main_v162 (Host.divf : (⟨S1000000x6, .f32⟩ : BufTy).Contents (Elt F) → (⟨S1000000x6, .f32⟩ : BufTy).Contents (Elt F) → (⟨S1000000x6, .f32⟩ : BufTy).Contents (Elt F)),
    binary main_v162 main_v160 main_v163 (mulf : (⟨S1000000x6, .f32⟩ : BufTy).Contents (Elt F) → (⟨S1000000x6, .f32⟩ : BufTy).Contents (Elt F) → (⟨S1000000x6, .f32⟩ : BufTy).Contents (Elt F)),
    binary main_v163 main_v156 main_v164 (subf : (⟨S1000000x6, .f32⟩ : BufTy).Contents (Elt F) → (⟨S1000000x6, .f32⟩ : BufTy).Contents (Elt F) → (⟨S1000000x6, .f32⟩ : BufTy).Contents (Elt F)),
    nullary main_cst_18 (constant S_ .f32 0x40E00000#32),
    unary main_cst_18 main_v165 (broadcastInDim S1000000x6 ![] bcast_S_S1000000x6 : (⟨S_, .f32⟩ : BufTy).Contents (Elt F) → (⟨S1000000x6, .f32⟩ : BufTy).Contents (Elt F)),
    binary main_v165 main_v148 main_v166 (Host.divf : (⟨S1000000x6, .f32⟩ : BufTy).Contents (Elt F) → (⟨S1000000x6, .f32⟩ : BufTy).Contents (Elt F) → (⟨S1000000x6, .f32⟩ : BufTy).Contents (Elt F)),
    binary main_v166 main_v164 main_v167 (mulf : (⟨S1000000x6, .f32⟩ : BufTy).Contents (Elt F) → (⟨S1000000x6, .f32⟩ : BufTy).Contents (Elt F) → (⟨S1000000x6, .f32⟩ : BufTy).Contents (Elt F)),
    binary main_v167 main_v160 main_v168 (subf : (⟨S1000000x6, .f32⟩ : BufTy).Contents (Elt F) → (⟨S1000000x6, .f32⟩ : BufTy).Contents (Elt F) → (⟨S1000000x6, .f32⟩ : BufTy).Contents (Elt F)),
    nullary main_cst_19 (constant S_ .f32 0x41100000#32),
    unary main_cst_19 main_v169 (broadcastInDim S1000000x6 ![] bcast_S_S1000000x6 : (⟨S_, .f32⟩ : BufTy).Contents (Elt F) → (⟨S1000000x6, .f32⟩ : BufTy).Contents (Elt F)),
    binary main_v169 main_v148 main_v170 (Host.divf : (⟨S1000000x6, .f32⟩ : BufTy).Contents (Elt F) → (⟨S1000000x6, .f32⟩ : BufTy).Contents (Elt F) → (⟨S1000000x6, .f32⟩ : BufTy).Contents (Elt F)),
    binary main_v170 main_v168 main_v171 (mulf : (⟨S1000000x6, .f32⟩ : BufTy).Contents (Elt F) → (⟨S1000000x6, .f32⟩ : BufTy).Contents (Elt F) → (⟨S1000000x6, .f32⟩ : BufTy).Contents (Elt F)),
    binary main_v171 main_v164 main_v172 (subf : (⟨S1000000x6, .f32⟩ : BufTy).Contents (Elt F) → (⟨S1000000x6, .f32⟩ : BufTy).Contents (Elt F) → (⟨S1000000x6, .f32⟩ : BufTy).Contents (Elt F)),
    unary main_v141 main_v173 (broadcastInDim S1x6 ![1] bcast_S6_S1x6_1 : (⟨S6, .f32⟩ : BufTy).Contents (Elt F) → (⟨S1x6, .f32⟩ : BufTy).Contents (Elt F)),
    unary main_v173 main_v174 (broadcastInDim S1000000x6 ![0, 1] bcast_S1x6_S1000000x6_0_1 : (⟨S1x6, .f32⟩ : BufTy).Contents (Elt F) → (⟨S1000000x6, .f32⟩ : BufTy).Contents (Elt F)),
    binary main_v174 main_v172 main_v175 (mulf : (⟨S1000000x6, .f32⟩ : BufTy).Contents (Elt F) → (⟨S1000000x6, .f32⟩ : BufTy).Contents (Elt F) → (⟨S1000000x6, .f32⟩ : BufTy).Contents (Elt F)) ]
/-- The buffers stretch sRad5 writes. -/
abbrev sRad5_W : List (Ref sig .tc) := [main_v140, main_v141, main_v142, main_v143, main_v144, main_v145, main_v146, main_v147, main_v148, main_v149, main_v150, main_v151, main_v152, main_v153, main_v154, main_v155, main_v156, main_cst_16, main_v157, main_v158, main_v159, main_v160, main_cst_17, main_v161, main_v162, main_v163, main_v164, main_cst_18, main_v165, main_v166, main_v167, main_v168, main_cst_19, main_v169, main_v170, main_v171, main_v172, main_v173, main_v174, main_v175]
set_option maxRecDepth 8192 in
theorem sRad5_writes : (sRad5 : List (HloOp τ sig (Elt F))).Forall fun op => op.writes ⊆ (sRad5_W.map (Proc.devRef (τ := τ) .tc)).toFinset := by
  simp only [sRad5, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad5_keep (V : Valuation τ sig (Elt F)) (r : Ref sig .tc) (h : r ∉ sRad5_W) :
    after sRad5 V (Proc.devRef .tc r) = V (Proc.devRef .tc r) :=
  after_of_writes_sub sRad5 V sRad5_writes h

/-- Stretch sRad6 of the same list. -/
def sRad6 : List (HloOp τ sig (Elt F)) :=
  [ unary main_cst_0 main_v176 ((extractStridedSlice S1x6 ![6, 0] · slices_S7x6_S1x6_6_0) : (⟨S7x6, .f32⟩ : BufTy).Contents (Elt F) → (⟨S1x6, .f32⟩ : BufTy).Contents (Elt F)),
    reshape main_v176 main_v177 rfl shapeCasts_S1x6_S6,
    unary main_v1 main_v178 (broadcastInDim S1000000x1 ![0] bcast_S1000000_S1000000x1_0 : (⟨S1000000, .f32⟩ : BufTy).Contents (Elt F) → (⟨S1000000x1, .f32⟩ : BufTy).Contents (Elt F)),
    unary main_cst main_v179 ((extractStridedSlice S1x6 ![6, 0] · slices_S7x6_S1x6_6_0) : (⟨S7x6, .f32⟩ : BufTy).Contents (Elt F) → (⟨S1x6, .f32⟩ : BufTy).Contents (Elt F)),
    reshape main_v179 main_v180 rfl shapeCasts_S1x6_S6,
    unary main_v180 main_v181 (broadcastInDim S1x6 ![1] bcast_S6_S1x6_1 : (⟨S6, .f32⟩ : BufTy).Contents (Elt F) → (⟨S1x6, .f32⟩ : BufTy).Contents (Elt F)),
    unary main_v178 main_v182 (broadcastInDim S1000000x6 ![0, 1] bcast_S1000000x1_S1000000x6_0_1 : (⟨S1000000x1, .f32⟩ : BufTy).Contents (Elt F) → (⟨S1000000x6, .f32⟩ : BufTy).Contents (Elt F)),
    unary main_v181 main_v183 (broadcastInDim S1000000x6 ![0, 1] bcast_S1x6_S1000000x6_0_1 : (⟨S1x6, .f32⟩ : BufTy).Contents (Elt F) → (⟨S1000000x6, .f32⟩ : BufTy).Contents (Elt F)),
    binary main_v182 main_v183 main_v184 (mulf : (⟨S1000000x6, .f32⟩ : BufTy).Contents (Elt F) → (⟨S1000000x6, .f32⟩ : BufTy).Contents (Elt F) → (⟨S1000000x6, .f32⟩ : BufTy).Contents (Elt F)),
    unary main_v184 main_v185 (Host.sin : (⟨S1000000x6, .f32⟩ : BufTy).Contents (Elt F) → (⟨S1000000x6, .f32⟩ : BufTy).Contents (Elt F)),
    binary main_v185 main_v184 main_v186 (Host.divf : (⟨S1000000x6, .f32⟩ : BufTy).Contents (Elt F) → (⟨S1000000x6, .f32⟩ : BufTy).Contents (Elt F) → (⟨S1000000x6, .f32⟩ : BufTy).Contents (Elt F)),
    unary main_v184 main_v187 (Host.sin : (⟨S1000000x6, .f32⟩ : BufTy).Contents (Elt F) → (⟨S1000000x6, .f32⟩ : BufTy).Contents (Elt F)),
    binary main_v184 main_v184 main_v188 (mulf : (⟨S1000000x6, .f32⟩ : BufTy).Contents (Elt F) → (⟨S1000000x6, .f32⟩ : BufTy).Contents (Elt F) → (⟨S1000000x6, .f32⟩ : BufTy).Contents (Elt F)),
    binary main_v187 main_v188 main_v189 (Host.divf : (⟨S1000000x6, .f32⟩ : BufTy).Contents (Elt F) → (⟨S1000000x6, .f32⟩ : BufTy).Contents (Elt F) → (⟨S1000000x6, .f32⟩ : BufTy).Contents (Elt F)),
    unary main_v184 main_v190 (Host.cos : (⟨S1000000x6, .f32⟩ : BufTy).Contents (Elt F) → (⟨S1000000x6, .f32⟩ : BufTy).Contents (Elt F)),
    binary main_v190 main_v184 main_v191 (Host.divf : (⟨S1000000x6, .f32⟩ : BufTy).Contents (Elt F) → (⟨S1000000x6, .f32⟩ : BufTy).Contents (Elt F) → (⟨S1000000x6, .f32⟩ : BufTy).Contents (Elt F)),
    binary main_v189 main_v191 main_v192 (subf : (⟨S1000000x6, .f32⟩ : BufTy).Contents (Elt F) → (⟨S1000000x6, .f32⟩ : BufTy).Contents (Elt F) → (⟨S1000000x6, .f32⟩ : BufTy).Contents (Elt F)),
    nullary main_cst_20 (constant S_ .f32 0x40400000#32),
    unary main_cst_20 main_v193 (broadcastInDim S1000000x6 ![] bcast_S_S1000000x6 : (⟨S_, .f32⟩ : BufTy).Contents (Elt F) → (⟨S1000000x6, .f32⟩ : BufTy).Contents (Elt F)),
    binary main_v193 main_v184 main_v194 (Host.divf : (⟨S1000000x6, .f32⟩ : BufTy).Contents (Elt F) → (⟨S1000000x6, .f32⟩ : BufTy).Contents (Elt F) → (⟨S1000000x6, .f32⟩ : BufTy).Contents (Elt F)),
    binary main_v194 main_v192 main_v195 (mulf : (⟨S1000000x6, .f32⟩ : BufTy).Contents (Elt F) → (⟨S1000000x6, .f32⟩ : BufTy).Contents (Elt F) → (⟨S1000000x6, .f32⟩ : BufTy).Contents (Elt F)),
    binary main_v195 main_v186 main_v196 (subf : (⟨S1000000x6, .f32⟩ : BufTy).Contents (Elt F) → (⟨S1000000x6, .f32⟩ : BufTy).Contents (Elt F) → (⟨S1000000x6, .f32⟩ : BufTy).Contents (Elt F)),
    nullary main_cst_21 (constant S_ .f32 0x40A00000#32),
    unary main_cst_21 main_v197 (broadcastInDim S1000000x6 ![] bcast_S_S1000000x6 : (⟨S_, .f32⟩ : BufTy).Contents (Elt F) → (⟨S1000000x6, .f32⟩ : BufTy).Contents (Elt F)),
    binary main_v197 main_v184 main_v198 (Host.divf : (⟨S1000000x6, .f32⟩ : BufTy).Contents (Elt F) → (⟨S1000000x6, .f32⟩ : BufTy).Contents (Elt F) → (⟨S1000000x6, .f32⟩ : BufTy).Contents (Elt F)),
    binary main_v198 main_v196 main_v199 (mulf : (⟨S1000000x6, .f32⟩ : BufTy).Contents (Elt F) → (⟨S1000000x6, .f32⟩ : BufTy).Contents (Elt F) → (⟨S1000000x6, .f32⟩ : BufTy).Contents (Elt F)),
    binary main_v199 main_v192 main_v200 (subf : (⟨S1000000x6, .f32⟩ : BufTy).Contents (Elt F) → (⟨S1000000x6, .f32⟩ : BufTy).Contents (Elt F) → (⟨S1000000x6, .f32⟩ : BufTy).Contents (Elt F)),
    nullary main_cst_22 (constant S_ .f32 0x40E00000#32),
    unary main_cst_22 main_v201 (broadcastInDim S1000000x6 ![] bcast_S_S1000000x6 : (⟨S_, .f32⟩ : BufTy).Contents (Elt F) → (⟨S1000000x6, .f32⟩ : BufTy).Contents (Elt F)),
    binary main_v201 main_v184 main_v202 (Host.divf : (⟨S1000000x6, .f32⟩ : BufTy).Contents (Elt F) → (⟨S1000000x6, .f32⟩ : BufTy).Contents (Elt F) → (⟨S1000000x6, .f32⟩ : BufTy).Contents (Elt F)),
    binary main_v202 main_v200 main_v203 (mulf : (⟨S1000000x6, .f32⟩ : BufTy).Contents (Elt F) → (⟨S1000000x6, .f32⟩ : BufTy).Contents (Elt F) → (⟨S1000000x6, .f32⟩ : BufTy).Contents (Elt F)),
    binary main_v203 main_v196 main_v204 (subf : (⟨S1000000x6, .f32⟩ : BufTy).Contents (Elt F) → (⟨S1000000x6, .f32⟩ : BufTy).Contents (Elt F) → (⟨S1000000x6, .f32⟩ : BufTy).Contents (Elt F)),
    nullary main_cst_23 (constant S_ .f32 0x41100000#32),
    unary main_cst_23 main_v205 (broadcastInDim S1000000x6 ![] bcast_S_S1000000x6 : (⟨S_, .f32⟩ : BufTy).Contents (Elt F) → (⟨S1000000x6, .f32⟩ : BufTy).Contents (Elt F)),
    binary main_v205 main_v184 main_v206 (Host.divf : (⟨S1000000x6, .f32⟩ : BufTy).Contents (Elt F) → (⟨S1000000x6, .f32⟩ : BufTy).Contents (Elt F) → (⟨S1000000x6, .f32⟩ : BufTy).Contents (Elt F)),
    binary main_v206 main_v204 main_v207 (mulf : (⟨S1000000x6, .f32⟩ : BufTy).Contents (Elt F) → (⟨S1000000x6, .f32⟩ : BufTy).Contents (Elt F) → (⟨S1000000x6, .f32⟩ : BufTy).Contents (Elt F)),
    binary main_v207 main_v200 main_v208 (subf : (⟨S1000000x6, .f32⟩ : BufTy).Contents (Elt F) → (⟨S1000000x6, .f32⟩ : BufTy).Contents (Elt F) → (⟨S1000000x6, .f32⟩ : BufTy).Contents (Elt F)),
    nullary main_cst_24 (constant S_ .f32 0x41300000#32),
    unary main_cst_24 main_v209 (broadcastInDim S1000000x6 ![] bcast_S_S1000000x6 : (⟨S_, .f32⟩ : BufTy).Contents (Elt F) → (⟨S1000000x6, .f32⟩ : BufTy).Contents (Elt F)),
    binary main_v209 main_v184 main_v210 (Host.divf : (⟨S1000000x6, .f32⟩ : BufTy).Contents (Elt F) → (⟨S1000000x6, .f32⟩ : BufTy).Contents (Elt F) → (⟨S1000000x6, .f32⟩ : BufTy).Contents (Elt F)),
    binary main_v210 main_v208 main_v211 (mulf : (⟨S1000000x6, .f32⟩ : BufTy).Contents (Elt F) → (⟨S1000000x6, .f32⟩ : BufTy).Contents (Elt F) → (⟨S1000000x6, .f32⟩ : BufTy).Contents (Elt F)),
    binary main_v211 main_v204 main_v212 (subf : (⟨S1000000x6, .f32⟩ : BufTy).Contents (Elt F) → (⟨S1000000x6, .f32⟩ : BufTy).Contents (Elt F) → (⟨S1000000x6, .f32⟩ : BufTy).Contents (Elt F)),
    unary main_v177 main_v213 (broadcastInDim S1x6 ![1] bcast_S6_S1x6_1 : (⟨S6, .f32⟩ : BufTy).Contents (Elt F) → (⟨S1x6, .f32⟩ : BufTy).Contents (Elt F)),
    unary main_v213 main_v214 (broadcastInDim S1000000x6 ![0, 1] bcast_S1x6_S1000000x6_0_1 : (⟨S1x6, .f32⟩ : BufTy).Contents (Elt F) → (⟨S1000000x6, .f32⟩ : BufTy).Contents (Elt F)),
    binary main_v214 main_v212 main_v215 (mulf : (⟨S1000000x6, .f32⟩ : BufTy).Contents (Elt F) → (⟨S1000000x6, .f32⟩ : BufTy).Contents (Elt F) → (⟨S1000000x6, .f32⟩ : BufTy).Contents (Elt F)) ]
/-- The buffers stretch sRad6 writes. -/
abbrev sRad6_W : List (Ref sig .tc) := [main_v176, main_v177, main_v178, main_v179, main_v180, main_v181, main_v182, main_v183, main_v184, main_v185, main_v186, main_v187, main_v188, main_v189, main_v190, main_v191, main_v192, main_cst_20, main_v193, main_v194, main_v195, main_v196, main_cst_21, main_v197, main_v198, main_v199, main_v200, main_cst_22, main_v201, main_v202, main_v203, main_v204, main_cst_23, main_v205, main_v206, main_v207, main_v208, main_cst_24, main_v209, main_v210, main_v211, main_v212, main_v213, main_v214, main_v215]
set_option maxRecDepth 8192 in
theorem sRad6_writes : (sRad6 : List (HloOp τ sig (Elt F))).Forall fun op => op.writes ⊆ (sRad6_W.map (Proc.devRef (τ := τ) .tc)).toFinset := by
  simp only [sRad6, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sRad6_keep (V : Valuation τ sig (Elt F)) (r : Ref sig .tc) (h : r ∉ sRad6_W) :
    after sRad6 V (Proc.devRef .tc r) = V (Proc.devRef .tc r) :=
  after_of_writes_sub sRad6 V sRad6_writes h

/-- Stretch sGather of the same list. -/
def sGather : List (HloOp τ sig (Elt F)) :=
  [ nary ![main_v35, main_v55, main_v79, main_v107, main_v139, main_v175, main_v215] main_v216 (fun u => concatenate S1000000x42 1 [⟨S1000000x6, u 0⟩, ⟨S1000000x6, u 1⟩, ⟨S1000000x6, u 2⟩, ⟨S1000000x6, u 3⟩, ⟨S1000000x6, u 4⟩, ⟨S1000000x6, u 5⟩, ⟨S1000000x6, u 6⟩] concatenates_S1000000x6_S1000000x6_S1000000x6_S1000000x6_S1000000x6_S1000000x6_S1000000x6_S1000000x42_d1),
    unary main_v21 main_v217 (broadcastInDim S1000000x1 ![0] bcast_S1000000_S1000000x1_0 : (⟨S1000000, .f32⟩ : BufTy).Contents (Elt F) → (⟨S1000000x1, .f32⟩ : BufTy).Contents (Elt F)),
    unary main_v217 main_v218 (broadcastInDim S1000000x42 ![0, 1] bcast_S1000000x1_S1000000x42_0_1 : (⟨S1000000x1, .f32⟩ : BufTy).Contents (Elt F) → (⟨S1000000x42, .f32⟩ : BufTy).Contents (Elt F)),
    binary main_v216 main_v218 main_v219 (mulf : (⟨S1000000x42, .f32⟩ : BufTy).Contents (Elt F) → (⟨S1000000x42, .f32⟩ : BufTy).Contents (Elt F) → (⟨S1000000x42, .f32⟩ : BufTy).Contents (Elt F)),
    nullary main_c (constantI S_ 32 0#32),
    unary main_c main_v220 (broadcastInDim S3000000 ![] bcast_S_S3000000 : (⟨S_, .i32⟩ : BufTy).Contents (Elt F) → (⟨S3000000, .i32⟩ : BufTy).Contents (Elt F)),
    binary main_arg4 main_v220 main_v221 (cmpi .slt : (⟨S3000000, .i32⟩ : BufTy).Contents (Elt F) → (⟨S3000000, .i32⟩ : BufTy).Contents (Elt F) → (⟨S3000000, .i1⟩ : BufTy).Contents (Elt F)),
    nullary main_c_25 (constantI S_ 32 1000000#32),
    unary main_c_25 main_v222 (broadcastInDim S3000000 ![] bcast_S_S3000000 : (⟨S_, .i32⟩ : BufTy).Contents (Elt F) → (⟨S3000000, .i32⟩ : BufTy).Contents (Elt F)),
    binary main_arg4 main_v222 main_v223 (addi : (⟨S3000000, .i32⟩ : BufTy).Contents (Elt F) → (⟨S3000000, .i32⟩ : BufTy).Contents (Elt F) → (⟨S3000000, .i32⟩ : BufTy).Contents (Elt F)),
    ternary main_v221 main_v223 main_arg4 main_v224 (select : (⟨S3000000, .i1⟩ : BufTy).Contents (Elt F) → (⟨S3000000, .i32⟩ : BufTy).Contents (Elt F) → (⟨S3000000, .i32⟩ : BufTy).Contents (Elt F) → (⟨S3000000, .i32⟩ : BufTy).Contents (Elt F)),
    unary main_v224 main_v225 (broadcastInDim S3000000x1 ![0] bcast_S3000000_S3000000x1_0 : (⟨S3000000, .i32⟩ : BufTy).Contents (Elt F) → (⟨S3000000x1, .i32⟩ : BufTy).Contents (Elt F)),
    binary main_v219 main_v225 main_v226 ((fun x i => Host.gather gather_S1000000x42_S3000000x1_S3000000x42_1_0_n_n_0_1_142 x i) : (⟨S1000000x42, .f32⟩ : BufTy).Contents (Elt F) → (⟨S3000000x1, .i32⟩ : BufTy).Contents (Elt F) → (⟨S3000000x42, .f32⟩ : BufTy).Contents (Elt F)) ]
/-- The buffers stretch sGather writes. -/
abbrev sGather_W : List (Ref sig .tc) := [main_v216, main_v217, main_v218, main_v219, main_c, main_v220, main_v221, main_c_25, main_v222, main_v223, main_v224, main_v225, main_v226]
set_option maxRecDepth 8192 in
theorem sGather_writes : (sGather : List (HloOp τ sig (Elt F))).Forall fun op => op.writes ⊆ (sGather_W.map (Proc.devRef (τ := τ) .tc)).toFinset := by
  simp only [sGather, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sGather_keep (V : Valuation τ sig (Elt F)) (r : Ref sig .tc) (h : r ∉ sGather_W) :
    after sGather V (Proc.devRef .tc r) = V (Proc.devRef .tc r) :=
  after_of_writes_sub sGather V sGather_writes h

/-- Stretch sLeg of the same list. -/
def sLeg : List (HloOp τ sig (Elt F)) :=
  [ unary main_arg1 main_v227 (Host.cos : (⟨S3000000, .f32⟩ : BufTy).Contents (Elt F) → (⟨S3000000, .f32⟩ : BufTy).Contents (Elt F)),
    nullary main_cst_26 (constant S_ .f32 0x3F800000#32),
    unary main_cst_26 main_v228 (broadcastInDim S3000000 ![] bcast_S_S3000000 : (⟨S_, .f32⟩ : BufTy).Contents (Elt F) → (⟨S3000000, .f32⟩ : BufTy).Contents (Elt F)),
    nullary main_cst_27 (constant S_ .f32 0x40400000#32),
    unary main_cst_27 main_v229 (broadcastInDim S3000000 ![] bcast_S_S3000000 : (⟨S_, .f32⟩ : BufTy).Contents (Elt F) → (⟨S3000000, .f32⟩ : BufTy).Contents (Elt F)),
    binary main_v229 main_v227 main_v230 (mulf : (⟨S3000000, .f32⟩ : BufTy).Contents (Elt F) → (⟨S3000000, .f32⟩ : BufTy).Contents (Elt F) → (⟨S3000000, .f32⟩ : BufTy).Contents (Elt F)),
    binary main_v230 main_v227 main_v231 (mulf : (⟨S3000000, .f32⟩ : BufTy).Contents (Elt F) → (⟨S3000000, .f32⟩ : BufTy).Contents (Elt F) → (⟨S3000000, .f32⟩ : BufTy).Contents (Elt F)),
    nullary main_cst_28 (constant S_ .f32 0x3F800000#32),
    unary main_cst_28 main_v232 (broadcastInDim S3000000 ![] bcast_S_S3000000 : (⟨S_, .f32⟩ : BufTy).Contents (Elt F) → (⟨S3000000, .f32⟩ : BufTy).Contents (Elt F)),
    binary main_v232 main_v228 main_v233 (mulf : (⟨S3000000, .f32⟩ : BufTy).Contents (Elt F) → (⟨S3000000, .f32⟩ : BufTy).Contents (Elt F) → (⟨S3000000, .f32⟩ : BufTy).Contents (Elt F)),
    binary main_v231 main_v233 main_v234 (subf : (⟨S3000000, .f32⟩ : BufTy).Contents (Elt F) → (⟨S3000000, .f32⟩ : BufTy).Contents (Elt F) → (⟨S3000000, .f32⟩ : BufTy).Contents (Elt F)),
    nullary main_cst_29 (constant S_ .f32 0x40000000#32),
    unary main_cst_29 main_v235 (broadcastInDim S3000000 ![] bcast_S_S3000000 : (⟨S_, .f32⟩ : BufTy).Contents (Elt F) → (⟨S3000000, .f32⟩ : BufTy).Contents (Elt F)),
    binary main_v234 main_v235 main_v236 (Host.divf : (⟨S3000000, .f32⟩ : BufTy).Contents (Elt F) → (⟨S3000000, .f32⟩ : BufTy).Contents (Elt F) → (⟨S3000000, .f32⟩ : BufTy).Contents (Elt F)),
    nullary main_cst_30 (constant S_ .f32 0x40A00000#32),
    unary main_cst_30 main_v237 (broadcastInDim S3000000 ![] bcast_S_S3000000 : (⟨S_, .f32⟩ : BufTy).Contents (Elt F) → (⟨S3000000, .f32⟩ : BufTy).Contents (Elt F)),
    binary main_v237 main_v227 main_v238 (mulf : (⟨S3000000, .f32⟩ : BufTy).Contents (Elt F) → (⟨S3000000, .f32⟩ : BufTy).Contents (Elt F) → (⟨S3000000, .f32⟩ : BufTy).Contents (Elt F)),
    binary main_v238 main_v236 main_v239 (mulf : (⟨S3000000, .f32⟩ : BufTy).Contents (Elt F) → (⟨S3000000, .f32⟩ : BufTy).Contents (Elt F) → (⟨S3000000, .f32⟩ : BufTy).Contents (Elt F)),
    nullary main_cst_31 (constant S_ .f32 0x40000000#32),
    unary main_cst_31 main_v240 (broadcastInDim S3000000 ![] bcast_S_S3000000 : (⟨S_, .f32⟩ : BufTy).Contents (Elt F) → (⟨S3000000, .f32⟩ : BufTy).Contents (Elt F)),
    binary main_v240 main_v227 main_v241 (mulf : (⟨S3000000, .f32⟩ : BufTy).Contents (Elt F) → (⟨S3000000, .f32⟩ : BufTy).Contents (Elt F) → (⟨S3000000, .f32⟩ : BufTy).Contents (Elt F)),
    binary main_v239 main_v241 main_v242 (subf : (⟨S3000000, .f32⟩ : BufTy).Contents (Elt F) → (⟨S3000000, .f32⟩ : BufTy).Contents (Elt F) → (⟨S3000000, .f32⟩ : BufTy).Contents (Elt F)),
    nullary main_cst_32 (constant S_ .f32 0x40400000#32),
    unary main_cst_32 main_v243 (broadcastInDim S3000000 ![] bcast_S_S3000000 : (⟨S_, .f32⟩ : BufTy).Contents (Elt F) → (⟨S3000000, .f32⟩ : BufTy).Contents (Elt F)),
    binary main_v242 main_v243 main_v244 (Host.divf : (⟨S3000000, .f32⟩ : BufTy).Contents (Elt F) → (⟨S3000000, .f32⟩ : BufTy).Contents (Elt F) → (⟨S3000000, .f32⟩ : BufTy).Contents (Elt F)),
    nullary main_cst_33 (constant S_ .f32 0x40E00000#32),
    unary main_cst_33 main_v245 (broadcastInDim S3000000 ![] bcast_S_S3000000 : (⟨S_, .f32⟩ : BufTy).Contents (Elt F) → (⟨S3000000, .f32⟩ : BufTy).Contents (Elt F)),
    binary main_v245 main_v227 main_v246 (mulf : (⟨S3000000, .f32⟩ : BufTy).Contents (Elt F) → (⟨S3000000, .f32⟩ : BufTy).Contents (Elt F) → (⟨S3000000, .f32⟩ : BufTy).Contents (Elt F)),
    binary main_v246 main_v244 main_v247 (mulf : (⟨S3000000, .f32⟩ : BufTy).Contents (Elt F) → (⟨S3000000, .f32⟩ : BufTy).Contents (Elt F) → (⟨S3000000, .f32⟩ : BufTy).Contents (Elt F)),
    nullary main_cst_34 (constant S_ .f32 0x40400000#32),
    unary main_cst_34 main_v248 (broadcastInDim S3000000 ![] bcast_S_S3000000 : (⟨S_, .f32⟩ : BufTy).Contents (Elt F) → (⟨S3000000, .f32⟩ : BufTy).Contents (Elt F)),
    binary main_v248 main_v236 main_v249 (mulf : (⟨S3000000, .f32⟩ : BufTy).Contents (Elt F) → (⟨S3000000, .f32⟩ : BufTy).Contents (Elt F) → (⟨S3000000, .f32⟩ : BufTy).Contents (Elt F)),
    binary main_v247 main_v249 main_v250 (subf : (⟨S3000000, .f32⟩ : BufTy).Contents (Elt F) → (⟨S3000000, .f32⟩ : BufTy).Contents (Elt F) → (⟨S3000000, .f32⟩ : BufTy).Contents (Elt F)),
    nullary main_cst_35 (constant S_ .f32 0x40800000#32),
    unary main_cst_35 main_v251 (broadcastInDim S3000000 ![] bcast_S_S3000000 : (⟨S_, .f32⟩ : BufTy).Contents (Elt F) → (⟨S3000000, .f32⟩ : BufTy).Contents (Elt F)),
    binary main_v250 main_v251 main_v252 (Host.divf : (⟨S3000000, .f32⟩ : BufTy).Contents (Elt F) → (⟨S3000000, .f32⟩ : BufTy).Contents (Elt F) → (⟨S3000000, .f32⟩ : BufTy).Contents (Elt F)),
    nullary main_cst_36 (constant S_ .f32 0x41100000#32),
    unary main_cst_36 main_v253 (broadcastInDim S3000000 ![] bcast_S_S3000000 : (⟨S_, .f32⟩ : BufTy).Contents (Elt F) → (⟨S3000000, .f32⟩ : BufTy).Contents (Elt F)),
    binary main_v253 main_v227 main_v254 (mulf : (⟨S3000000, .f32⟩ : BufTy).Contents (Elt F) → (⟨S3000000, .f32⟩ : BufTy).Contents (Elt F) → (⟨S3000000, .f32⟩ : BufTy).Contents (Elt F)),
    binary main_v254 main_v252 main_v255 (mulf : (⟨S3000000, .f32⟩ : BufTy).Contents (Elt F) → (⟨S3000000, .f32⟩ : BufTy).Contents (Elt F) → (⟨S3000000, .f32⟩ : BufTy).Contents (Elt F)),
    nullary main_cst_37 (constant S_ .f32 0x40800000#32),
    unary main_cst_37 main_v256 (broadcastInDim S3000000 ![] bcast_S_S3000000 : (⟨S_, .f32⟩ : BufTy).Contents (Elt F) → (⟨S3000000, .f32⟩ : BufTy).Contents (Elt F)),
    binary main_v256 main_v244 main_v257 (mulf : (⟨S3000000, .f32⟩ : BufTy).Contents (Elt F) → (⟨S3000000, .f32⟩ : BufTy).Contents (Elt F) → (⟨S3000000, .f32⟩ : BufTy).Contents (Elt F)),
    binary main_v255 main_v257 main_v258 (subf : (⟨S3000000, .f32⟩ : BufTy).Contents (Elt F) → (⟨S3000000, .f32⟩ : BufTy).Contents (Elt F) → (⟨S3000000, .f32⟩ : BufTy).Contents (Elt F)),
    nullary main_cst_38 (constant S_ .f32 0x40A00000#32),
    unary main_cst_38 main_v259 (broadcastInDim S3000000 ![] bcast_S_S3000000 : (⟨S_, .f32⟩ : BufTy).Contents (Elt F) → (⟨S3000000, .f32⟩ : BufTy).Contents (Elt F)),
    binary main_v258 main_v259 main_v260 (Host.divf : (⟨S3000000, .f32⟩ : BufTy).Contents (Elt F) → (⟨S3000000, .f32⟩ : BufTy).Contents (Elt F) → (⟨S3000000, .f32⟩ : BufTy).Contents (Elt F)),
    nullary main_cst_39 (constant S_ .f32 0x41300000#32),
    unary main_cst_39 main_v261 (broadcastInDim S3000000 ![] bcast_S_S3000000 : (⟨S_, .f32⟩ : BufTy).Contents (Elt F) → (⟨S3000000, .f32⟩ : BufTy).Contents (Elt F)),
    binary main_v261 main_v227 main_v262 (mulf : (⟨S3000000, .f32⟩ : BufTy).Contents (Elt F) → (⟨S3000000, .f32⟩ : BufTy).Contents (Elt F) → (⟨S3000000, .f32⟩ : BufTy).Contents (Elt F)),
    binary main_v262 main_v260 main_v263 (mulf : (⟨S3000000, .f32⟩ : BufTy).Contents (Elt F) → (⟨S3000000, .f32⟩ : BufTy).Contents (Elt F) → (⟨S3000000, .f32⟩ : BufTy).Contents (Elt F)),
    nullary main_cst_40 (constant S_ .f32 0x40A00000#32),
    unary main_cst_40 main_v264 (broadcastInDim S3000000 ![] bcast_S_S3000000 : (⟨S_, .f32⟩ : BufTy).Contents (Elt F) → (⟨S3000000, .f32⟩ : BufTy).Contents (Elt F)),
    binary main_v264 main_v252 main_v265 (mulf : (⟨S3000000, .f32⟩ : BufTy).Contents (Elt F) → (⟨S3000000, .f32⟩ : BufTy).Contents (Elt F) → (⟨S3000000, .f32⟩ : BufTy).Contents (Elt F)),
    binary main_v263 main_v265 main_v266 (subf : (⟨S3000000, .f32⟩ : BufTy).Contents (Elt F) → (⟨S3000000, .f32⟩ : BufTy).Contents (Elt F) → (⟨S3000000, .f32⟩ : BufTy).Contents (Elt F)),
    nullary main_cst_41 (constant S_ .f32 0x40C00000#32),
    unary main_cst_41 main_v267 (broadcastInDim S3000000 ![] bcast_S_S3000000 : (⟨S_, .f32⟩ : BufTy).Contents (Elt F) → (⟨S3000000, .f32⟩ : BufTy).Contents (Elt F)),
    binary main_v266 main_v267 main_v268 (Host.divf : (⟨S3000000, .f32⟩ : BufTy).Contents (Elt F) → (⟨S3000000, .f32⟩ : BufTy).Contents (Elt F) → (⟨S3000000, .f32⟩ : BufTy).Contents (Elt F)),
    nullary main_cst_42 (constant S_ .f32 0x3E906EBB#32),
    unary main_cst_42 main_v269 (broadcastInDim S3000000 ![] bcast_S_S3000000 : (⟨S_, .f32⟩ : BufTy).Contents (Elt F) → (⟨S3000000, .f32⟩ : BufTy).Contents (Elt F)),
    binary main_v269 main_v228 main_v270 (mulf : (⟨S3000000, .f32⟩ : BufTy).Contents (Elt F) → (⟨S3000000, .f32⟩ : BufTy).Contents (Elt F) → (⟨S3000000, .f32⟩ : BufTy).Contents (Elt F)),
    nullary main_cst_43 (constant S_ .f32 0x3EFA2A1C#32),
    unary main_cst_43 main_v271 (broadcastInDim S3000000 ![] bcast_S_S3000000 : (⟨S_, .f32⟩ : BufTy).Contents (Elt F) → (⟨S3000000, .f32⟩ : BufTy).Contents (Elt F)),
    binary main_v271 main_v227 main_v272 (mulf : (⟨S3000000, .f32⟩ : BufTy).Contents (Elt F) → (⟨S3000000, .f32⟩ : BufTy).Contents (Elt F) → (⟨S3000000, .f32⟩ : BufTy).Contents (Elt F)),
    nullary main_cst_44 (constant S_ .f32 0x3F217B01#32),
    unary main_cst_44 main_v273 (broadcastInDim S3000000 ![] bcast_S_S3000000 : (⟨S_, .f32⟩ : BufTy).Contents (Elt F) → (⟨S3000000, .f32⟩ : BufTy).Contents (Elt F)),
    binary main_v273 main_v236 main_v274 (mulf : (⟨S3000000, .f32⟩ : BufTy).Contents (Elt F) → (⟨S3000000, .f32⟩ : BufTy).Contents (Elt F) → (⟨S3000000, .f32⟩ : BufTy).Contents (Elt F)),
    nullary main_cst_45 (constant S_ .f32 0x3F3F10F8#32),
    unary main_cst_45 main_v275 (broadcastInDim S3000000 ![] bcast_S_S3000000 : (⟨S_, .f32⟩ : BufTy).Contents (Elt F) → (⟨S3000000, .f32⟩ : BufTy).Contents (Elt F)),
    binary main_v275 main_v244 main_v276 (mulf : (⟨S3000000, .f32⟩ : BufTy).Contents (Elt F) → (⟨S3000000, .f32⟩ : BufTy).Contents (Elt F) → (⟨S3000000, .f32⟩ : BufTy).Contents (Elt F)),
    nullary main_cst_46 (constant S_ .f32 0x3F58A618#32),
    unary main_cst_46 main_v277 (broadcastInDim S3000000 ![] bcast_S_S3000000 : (⟨S_, .f32⟩ : BufTy).Contents (Elt F) → (⟨S3000000, .f32⟩ : BufTy).Contents (Elt F)),
    binary main_v277 main_v252 main_v278 (mulf : (⟨S3000000, .f32⟩ : BufTy).Contents (Elt F) → (⟨S3000000, .f32⟩ : BufTy).Contents (Elt F) → (⟨S3000000, .f32⟩ : BufTy).Contents (Elt F)),
    nullary main_cst_47 (constant S_ .f32 0x3F6F83A7#32),
    unary main_cst_47 main_v279 (broadcastInDim S3000000 ![] bcast_S_S3000000 : (⟨S_, .f32⟩ : BufTy).Contents (Elt F) → (⟨S3000000, .f32⟩ : BufTy).Contents (Elt F)),
    binary main_v279 main_v260 main_v280 (mulf : (⟨S3000000, .f32⟩ : BufTy).Contents (Elt F) → (⟨S3000000, .f32⟩ : BufTy).Contents (Elt F) → (⟨S3000000, .f32⟩ : BufTy).Contents (Elt F)),
    nullary main_cst_48 (constant S_ .f32 0x3F823092#32),
    unary main_cst_48 main_v281 (broadcastInDim S3000000 ![] bcast_S_S3000000 : (⟨S_, .f32⟩ : BufTy).Contents (Elt F) → (⟨S3000000, .f32⟩ : BufTy).Contents (Elt F)),
    binary main_v281 main_v268 main_v282 (mulf : (⟨S3000000, .f32⟩ : BufTy).Contents (Elt F) → (⟨S3000000, .f32⟩ : BufTy).Contents (Elt F) → (⟨S3000000, .f32⟩ : BufTy).Contents (Elt F)),
    unary main_v270 main_v283 (broadcastInDim S3000000x1 ![0] bcast_S3000000_S3000000x1_0 : (⟨S3000000, .f32⟩ : BufTy).Contents (Elt F) → (⟨S3000000x1, .f32⟩ : BufTy).Contents (Elt F)),
    unary main_v272 main_v284 (broadcastInDim S3000000x1 ![0] bcast_S3000000_S3000000x1_0 : (⟨S3000000, .f32⟩ : BufTy).Contents (Elt F) → (⟨S3000000x1, .f32⟩ : BufTy).Contents (Elt F)),
    unary main_v274 main_v285 (broadcastInDim S3000000x1 ![0] bcast_S3000000_S3000000x1_0 : (⟨S3000000, .f32⟩ : BufTy).Contents (Elt F) → (⟨S3000000x1, .f32⟩ : BufTy).Contents (Elt F)),
    unary main_v276 main_v286 (broadcastInDim S3000000x1 ![0] bcast_S3000000_S3000000x1_0 : (⟨S3000000, .f32⟩ : BufTy).Contents (Elt F) → (⟨S3000000x1, .f32⟩ : BufTy).Contents (Elt F)),
    unary main_v278 main_v287 (broadcastInDim S3000000x1 ![0] bcast_S3000000_S3000000x1_0 : (⟨S3000000, .f32⟩ : BufTy).Contents (Elt F) → (⟨S3000000x1, .f32⟩ : BufTy).Contents (Elt F)),
    unary main_v280 main_v288 (broadcastInDim S3000000x1 ![0] bcast_S3000000_S3000000x1_0 : (⟨S3000000, .f32⟩ : BufTy).Contents (Elt F) → (⟨S3000000x1, .f32⟩ : BufTy).Contents (Elt F)),
    unary main_v282 main_v289 (broadcastInDim S3000000x1 ![0] bcast_S3000000_S3000000x1_0 : (⟨S3000000, .f32⟩ : BufTy).Contents (Elt F) → (⟨S3000000x1, .f32⟩ : BufTy).Contents (Elt F)) ]
/-- The buffers stretch sLeg writes. -/
abbrev sLeg_W : List (Ref sig .tc) := [main_v227, main_cst_26, main_v228, main_cst_27, main_v229, main_v230, main_v231, main_cst_28, main_v232, main_v233, main_v234, main_cst_29, main_v235, main_v236, main_cst_30, main_v237, main_v238, main_v239, main_cst_31, main_v240, main_v241, main_v242, main_cst_32, main_v243, main_v244, main_cst_33, main_v245, main_v246, main_v247, main_cst_34, main_v248, main_v249, main_v250, main_cst_35, main_v251, main_v252, main_cst_36, main_v253, main_v254, main_v255, main_cst_37, main_v256, main_v257, main_v258, main_cst_38, main_v259, main_v260, main_cst_39, main_v261, main_v262, main_v263, main_cst_40, main_v264, main_v265, main_v266, main_cst_41, main_v267, main_v268, main_cst_42, main_v269, main_v270, main_cst_43, main_v271, main_v272, main_cst_44, main_v273, main_v274, main_cst_45, main_v275, main_v276, main_cst_46, main_v277, main_v278, main_cst_47, main_v279, main_v280, main_cst_48, main_v281, main_v282, main_v283, main_v284, main_v285, main_v286, main_v287, main_v288, main_v289]
set_option maxRecDepth 8192 in
theorem sLeg_writes : (sLeg : List (HloOp τ sig (Elt F))).Forall fun op => op.writes ⊆ (sLeg_W.map (Proc.devRef (τ := τ) .tc)).toFinset := by
  simp only [sLeg, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sLeg_keep (V : Valuation τ sig (Elt F)) (r : Ref sig .tc) (h : r ∉ sLeg_W) :
    after sLeg V (Proc.devRef .tc r) = V (Proc.devRef .tc r) :=
  after_of_writes_sub sLeg V sLeg_writes h

/-- Stretch sSbf of the same list. -/
def sSbf : List (HloOp τ sig (Elt F)) :=
  [ nary ![main_v283, main_v284, main_v285, main_v286, main_v287, main_v288, main_v289] main_v290 (fun u => concatenate S3000000x7 1 [⟨S3000000x1, u 0⟩, ⟨S3000000x1, u 1⟩, ⟨S3000000x1, u 2⟩, ⟨S3000000x1, u 3⟩, ⟨S3000000x1, u 4⟩, ⟨S3000000x1, u 5⟩, ⟨S3000000x1, u 6⟩] concatenates_S3000000x1_S3000000x1_S3000000x1_S3000000x1_S3000000x1_S3000000x1_S3000000x1_S3000000x7_d1),
    unary main_v290 main_v291 (broadcastInDim S3000000x7x6 ![0, 1] bcast_S3000000x7_S3000000x7x6_0_1 : (⟨S3000000x7, .f32⟩ : BufTy).Contents (Elt F) → (⟨S3000000x7x6, .f32⟩ : BufTy).Contents (Elt F)),
    reshape main_v291 main_v292 rfl shapeCasts_S3000000x7x6_S3000000x42,
    unary main_arg2 main_v293 (broadcastInDim S3000000x42 ![0, 1] bcast_S3000000x1_S3000000x42_0_1 : (⟨S3000000x1, .f32⟩ : BufTy).Contents (Elt F) → (⟨S3000000x42, .f32⟩ : BufTy).Contents (Elt F)),
    binary main_v292 main_v293 main_v294 (mulf : (⟨S3000000x42, .f32⟩ : BufTy).Contents (Elt F) → (⟨S3000000x42, .f32⟩ : BufTy).Contents (Elt F) → (⟨S3000000x42, .f32⟩ : BufTy).Contents (Elt F)) ]
/-- The buffers stretch sSbf writes. -/
abbrev sSbf_W : List (Ref sig .tc) := [main_v290, main_v291, main_v292, main_v293, main_v294]
set_option maxRecDepth 8192 in
theorem sSbf_writes : (sSbf : List (HloOp τ sig (Elt F))).Forall fun op => op.writes ⊆ (sSbf_W.map (Proc.devRef (τ := τ) .tc)).toFinset := by
  simp only [sSbf, List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the stretch does not write keeps its contents through it. -/
theorem sSbf_keep (V : Valuation τ sig (Elt F)) (r : Ref sig .tc) (h : r ∉ sSbf_W) :
    after sSbf V (Proc.devRef .tc r) = V (Proc.devRef .tc r) :=
  after_of_writes_sub sSbf V sSbf_writes h

/-- Stretch sLast of the same list. -/
def sLast : List (HloOp τ sig (Elt F)) :=
  [ binary main_v226 main_v294 main_v295 (mulf : (⟨S3000000x42, .f32⟩ : BufTy).Contents (Elt F) → (⟨S3000000x42, .f32⟩ : BufTy).Contents (Elt F) → (⟨S3000000x42, .f32⟩ : BufTy).Contents (Elt F)) ]
/-- The buffers stretch sLast writes. -/
abbrev sLast_W : List (Ref sig .tc) := [main_v295]
set_option maxRecDepth 8192 in
theorem sLast_writes : (sLast : List (HloOp τ sig (Elt F))).Forall fun op => op.writes ⊆ (sLast_W.map (Proc.devRef (τ := τ) .tc)).toFinset := by
  simp only [sLast, List.Forall]; exact (by simp only [nullary_writes, unary_writes, binary_writes, ternary_writes, reshape_writes, nary_writes, Finset.singleton_subset_iff, List.mem_toFinset]; exact List.mem_map_of_mem (by decide))
/-- A buffer the stretch does not write keeps its contents through it. -/
theorem sLast_keep (V : Valuation τ sig (Elt F)) (r : Ref sig .tc) (h : r ∉ sLast_W) :
    after sLast V (Proc.devRef .tc r) = V (Proc.devRef .tc r) :=
  after_of_writes_sub sLast V sLast_writes h

set_option maxRecDepth 16384 in
/-- The two cuts are one list. -/
theorem ops_eq : (ops : List (HloOp τ sig (Elt F))) = sEnv ++ (sRad0 ++ (sRad1 ++ (sRad2 ++ (sRad3 ++ (sRad4 ++ (sRad5 ++ (sRad6 ++ (sGather ++ (sLeg ++ (sSbf ++ (sLast))))))))))) := by
  simp only [sEnv, sRad0, sRad1, sRad2, sRad3, sRad4, sRad5, sRad6, sGather, sLeg, sSbf, sLast]; rfl

end Cert.ReferenceIdeal.RefOps

end
-- ==== Proof.LibHostForms.lean ====
/-
  Host layout operations and reductions read at an entry, for any extents.

  * broadcast_in_dim: a scalar over any shape; a vector [D] to [1, 1, D] and [1, 1, D] over [B, N, D]; an array
    [B, N] to a column stack [B, N, 1] and that over [B, N, D]; a matrix [K, D] to [1, K, D] and that over
    [B, K, D]; a vector [B] to a column [B, 1] and that over [B, M].
  * On the extended reals, a host sum over the last axis or over the middle axis of a rank-3 array, and over the
    last axis of a matrix: the initial value plus the sum over that axis.  A host reduction with a commutative and
    associative body over the last axis of a rank-3 array: the fold of the body from the initial value.
  * An [a, b, c] array reshaped to [a, b·c] read at (r, i·c + d) is the operand at (r, i, d).
-/
import Idealize.ShloMosaic.Lib.ValueIdx
import Idealize.ShloMosaic.Lib.Pipeline.Value
import Idealize.ShloMosaic.PureOps.Ideal.Laws

noncomputable section

open scoped BigOperators

namespace Cert.Lib.HostForms

open Idealize.ShloMosaic Idealize.ShloMosaic.ValueIdx

variable {α : Type}

/-! ## broadcast_in_dim -/

/-- A rank-0 array broadcast over any shape reads its one entry everywhere. -/
theorem bcast_scalar {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- [D] to [1, 1, D] along the last axis. -/
theorem bcast_d_11d {D : Nat} (dims : Fin 1 → Fin 3) (hd : dims 0 = 2)
    (h : (⟨1, ![D]⟩ : Shape).BroadcastsInDim ⟨3, ![1, 1, D]⟩ dims) (v : (⟨1, ![D]⟩ : Shape).Idx → α)
    (u1 u2 : Fin 1) (j : Fin D) : broadcastInDim ⟨3, ![1, 1, D]⟩ dims h v (ix3 u1 u2 j) = v (ix1 j) := by
  refine broadcastInDim_apply dims h v (ix3 u1 u2 j) (ix1 j) fun a => ?_
  match a with
  | ⟨0, _⟩ =>
    show j.val = if D = 1 then 0 else (ix3 u1 u2 j (dims 0)).val
    rw [hd]
    split
    · have := j.isLt; omega
    · rfl

/-- [1, 1, D] over [B, N, D]. -/
theorem bcast_11d_bnd {B N D : Nat} (dims : Fin 3 → Fin 3) (h0 : dims 0 = 0) (h1 : dims 1 = 1) (h2 : dims 2 = 2)
    (h : (⟨3, ![1, 1, D]⟩ : Shape).BroadcastsInDim ⟨3, ![B, N, D]⟩ dims) (v : (⟨3, ![1, 1, D]⟩ : Shape).Idx → α)
    (b : Fin B) (n : Fin N) (j : Fin D) :
    broadcastInDim ⟨3, ![B, N, D]⟩ dims h v (ix3 b n j) = v (ix3 (0 : Fin 1) (0 : Fin 1) j) := by
  refine broadcastInDim_apply dims h v (ix3 b n j) (ix3 (0 : Fin 1) (0 : Fin 1) j) fun a => ?_
  match a with
  | ⟨0, _⟩ => rfl
  | ⟨1, _⟩ => rfl
  | ⟨2, _⟩ =>
    show j.val = if D = 1 then 0 else (ix3 b n j (dims 2)).val
    rw [h2]
    split
    · have := j.isLt; omega
    · rfl

/-- [B, N] to the column stack [B, N, 1]. -/
theorem bcast_bn_bn1 {B N : Nat} (dims : Fin 2 → Fin 3) (h0 : dims 0 = 0) (h1 : dims 1 = 1)
    (h : (⟨2, ![B, N]⟩ : Shape).BroadcastsInDim ⟨3, ![B, N, 1]⟩ dims) (v : (⟨2, ![B, N]⟩ : Shape).Idx → α)
    (b : Fin B) (n : Fin N) (z : Fin 1) : broadcastInDim ⟨3, ![B, N, 1]⟩ dims h v (ix3 b n z) = v (ix2 b n) := by
  refine broadcastInDim_apply dims h v (ix3 b n z) (ix2 b n) fun a => ?_
  match a with
  | ⟨0, _⟩ =>
    show b.val = if B = 1 then 0 else (ix3 b n z (dims 0)).val
    rw [h0]
    split
    · have := b.isLt; omega
    · rfl
  | ⟨1, _⟩ =>
    show n.val = if N = 1 then 0 else (ix3 b n z (dims 1)).val
    rw [h1]
    split
    · have := n.isLt; omega
    · rfl

/-- The column stack [B, N, 1] over [B, N, D]. -/
theorem bcast_bn1_bnd {B N D : Nat} (dims : Fin 3 → Fin 3) (h0 : dims 0 = 0) (h1 : dims 1 = 1) (h2 : dims 2 = 2)
    (h : (⟨3, ![B, N, 1]⟩ : Shape).BroadcastsInDim ⟨3, ![B, N, D]⟩ dims) (v : (⟨3, ![B, N, 1]⟩ : Shape).Idx → α)
    (b : Fin B) (n : Fin N) (j : Fin D) :
    broadcastInDim ⟨3, ![B, N, D]⟩ dims h v (ix3 b n j) = v (ix3 b n (0 : Fin 1)) := by
  refine broadcastInDim_apply dims h v (ix3 b n j) (ix3 b n (0 : Fin 1)) fun a => ?_
  match a with
  | ⟨0, _⟩ =>
    show b.val = if B = 1 then 0 else (ix3 b n j (dims 0)).val
    rw [h0]
    split
    · have := b.isLt; omega
    · rfl
  | ⟨1, _⟩ =>
    show n.val = if N = 1 then 0 else (ix3 b n j (dims 1)).val
    rw [h1]
    split
    · have := n.isLt; omega
    · rfl
  | ⟨2, _⟩ => rfl

/-- [K, D] to [1, K, D]. -/
theorem bcast_kd_1kd {K D : Nat} (dims : Fin 2 → Fin 3) (h0 : dims 0 = 1) (h1 : dims 1 = 2)
    (h : (⟨2, ![K, D]⟩ : Shape).BroadcastsInDim ⟨3, ![1, K, D]⟩ dims) (v : (⟨2, ![K, D]⟩ : Shape).Idx → α)
    (u : Fin 1) (k : Fin K) (j : Fin D) : broadcastInDim ⟨3, ![1, K, D]⟩ dims h v (ix3 u k j) = v (ix2 k j) := by
  refine broadcastInDim_apply dims h v (ix3 u k j) (ix2 k j) fun a => ?_
  match a with
  | ⟨0, _⟩ =>
    show k.val = if K = 1 then 0 else (ix3 u k j (dims 0)).val
    rw [h0]
    split
    · have := k.isLt; omega
    · rfl
  | ⟨1, _⟩ =>
    show j.val = if D = 1 then 0 else (ix3 u k j (dims 1)).val
    rw [h1]
    split
    · have := j.isLt; omega
    · rfl

/-- [1, K, D] over [B, K, D]. -/
theorem bcast_1kd_bkd {B K D : Nat} (dims : Fin 3 → Fin 3) (h0 : dims 0 = 0) (h1 : dims 1 = 1) (h2 : dims 2 = 2)
    (h : (⟨3, ![1, K, D]⟩ : Shape).BroadcastsInDim ⟨3, ![B, K, D]⟩ dims) (v : (⟨3, ![1, K, D]⟩ : Shape).Idx → α)
    (b : Fin B) (k : Fin K) (j : Fin D) :
    broadcastInDim ⟨3, ![B, K, D]⟩ dims h v (ix3 b k j) = v (ix3 (0 : Fin 1) k j) := by
  refine broadcastInDim_apply dims h v (ix3 b k j) (ix3 (0 : Fin 1) k j) fun a => ?_
  match a with
  | ⟨0, _⟩ => rfl
  | ⟨1, _⟩ =>
    show k.val = if K = 1 then 0 else (ix3 b k j (dims 1)).val
    rw [h1]
    split
    · have := k.isLt; omega
    · rfl
  | ⟨2, _⟩ =>
    show j.val = if D = 1 then 0 else (ix3 b k j (dims 2)).val
    rw [h2]
    split
    · have := j.isLt; omega
    · rfl

/-- [B] to the column [B, 1]. -/
theorem bcast_b_b1 {B : Nat} (dims : Fin 1 → Fin 2) (h0 : dims 0 = 0)
    (h : (⟨1, ![B]⟩ : Shape).BroadcastsInDim ⟨2, ![B, 1]⟩ dims) (v : (⟨1, ![B]⟩ : Shape).Idx → α)
    (b : Fin B) (z : Fin 1) : broadcastInDim ⟨2, ![B, 1]⟩ dims h v (ix2 b z) = v (ix1 b) := by
  refine broadcastInDim_apply dims h v (ix2 b z) (ix1 b) fun a => ?_
  match a with
  | ⟨0, _⟩ =>
    show b.val = if B = 1 then 0 else (ix2 b z (dims 0)).val
    rw [h0]
    split
    · have := b.isLt; omega
    · rfl

/-- The column [B, 1] over [B, M]. -/
theorem bcast_b1_bm {B M : Nat} (dims : Fin 2 → Fin 2) (h0 : dims 0 = 0) (h1 : dims 1 = 1)
    (h : (⟨2, ![B, 1]⟩ : Shape).BroadcastsInDim ⟨2, ![B, M]⟩ dims) (v : (⟨2, ![B, 1]⟩ : Shape).Idx → α)
    (b : Fin B) (n : Fin M) : broadcastInDim ⟨2, ![B, M]⟩ dims h v (ix2 b n) = v (ix2 b (0 : Fin 1)) := by
  refine broadcastInDim_apply dims h v (ix2 b n) (ix2 b (0 : Fin 1)) fun a => ?_
  match a with
  | ⟨0, _⟩ =>
    show b.val = if B = 1 then 0 else (ix2 b n (dims 0)).val
    rw [h0]
    split
    · have := b.isLt; omega
    · rfl
  | ⟨1, _⟩ => rfl

/-! ## Host reductions on the extended reals -/

/-- A host sum over the last axis of a rank-3 array, at (b, n). -/
theorem hostSum_last3 {B N D : Nat} (x : FVec Ideal ⟨3, ![B, N, D]⟩ .f32) (init : (⟨0, ![]⟩ : Shape).Idx → Ideal .f32)
    (h' : (⟨3, ![B, N, D]⟩ : Shape).ReducesTo [2] ⟨2, ![B, N]⟩) (h : (⟨3, ![B, N, D]⟩ : Shape).Reduces [2] ⟨2, ![B, N]⟩)
    (hu : 0 < (⟨0, ![]⟩ : Shape).numel) (b : Fin B) (n : Fin N) :
    Host.reduceAdd x init h' hu (ix2 b n) = init (Shape.Idx.first hu) + ∑ j : Fin D, x (ix3 b n j) := by
  show Ideal.hostReduceAdd h' x (init (Shape.Idx.first hu)) (ix2 b n) = _
  rw [Ideal.hostReduceAdd_single h' h]
  refine congrArg _ (Finset.sum_congr rfl fun j _ => congrArg x (funext fun c => Fin.ext ?_))
  match c with
  | ⟨0, _⟩ => rfl
  | ⟨1, _⟩ => rfl
  | ⟨2, _⟩ => rfl

/-- A host sum over the middle axis of a rank-3 array, at (b, k). -/
theorem hostSum_mid3 {B N K : Nat} (x : FVec Ideal ⟨3, ![B, N, K]⟩ .f32) (init : (⟨0, ![]⟩ : Shape).Idx → Ideal .f32)
    (h' : (⟨3, ![B, N, K]⟩ : Shape).ReducesTo [1] ⟨2, ![B, K]⟩) (h : (⟨3, ![B, N, K]⟩ : Shape).Reduces [1] ⟨2, ![B, K]⟩)
    (hu : 0 < (⟨0, ![]⟩ : Shape).numel) (b : Fin B) (k : Fin K) :
    Host.reduceAdd x init h' hu (ix2 b k) = init (Shape.Idx.first hu) + ∑ n : Fin N, x (ix3 b n k) := by
  show Ideal.hostReduceAdd h' x (init (Shape.Idx.first hu)) (ix2 b k) = _
  rw [Ideal.hostReduceAdd_single h' h]
  refine congrArg _ (Finset.sum_congr rfl fun n _ => congrArg x (funext fun c => Fin.ext ?_))
  match c with
  | ⟨0, _⟩ => rfl
  | ⟨1, _⟩ => rfl
  | ⟨2, _⟩ => rfl

/-- A host sum over the last axis of a matrix, at b. -/
theorem hostSum_last2 {B M : Nat} (x : FVec Ideal ⟨2, ![B, M]⟩ .f32) (init : (⟨0, ![]⟩ : Shape).Idx → Ideal .f32)
    (h' : (⟨2, ![B, M]⟩ : Shape).ReducesTo [1] ⟨1, ![B]⟩) (h : (⟨2, ![B, M]⟩ : Shape).Reduces [1] ⟨1, ![B]⟩)
    (hu : 0 < (⟨0, ![]⟩ : Shape).numel) (b : Fin B) :
    Host.reduceAdd x init h' hu (ix1 b) = init (Shape.Idx.first hu) + ∑ n : Fin M, x (ix2 b n) := by
  show Ideal.hostReduceAdd h' x (init (Shape.Idx.first hu)) (ix1 b) = _
  rw [Ideal.hostReduceAdd_single h' h]
  refine congrArg _ (Finset.sum_congr rfl fun n _ => congrArg x (funext fun c => Fin.ext ?_))
  match c with
  | ⟨0, _⟩ => rfl
  | ⟨1, _⟩ => rfl

/-- A host reduction with a commutative and associative body over the last axis of a rank-3 array, at (b, n): the
    fold of the body over the entries (b, n, d), from the initial value. -/
theorem hostFold_last3 {B N D : Nat} (f : α → α → α) [Std.Commutative f] [Std.Associative f]
    (x : (⟨3, ![B, N, D]⟩ : Shape).Idx → α) (init : (⟨0, ![]⟩ : Shape).Idx → α)
    (h' : (⟨3, ![B, N, D]⟩ : Shape).ReducesTo [2] ⟨2, ![B, N]⟩) (h : (⟨3, ![B, N, D]⟩ : Shape).Reduces [2] ⟨2, ![B, N]⟩)
    (hu : 0 < (⟨0, ![]⟩ : Shape).numel) (b : Fin B) (n : Fin N) :
    Host.reduce f x init h' hu (ix2 b n)
      = (Finset.univ : Finset (Fin D)).fold f (init (Shape.Idx.first hu)) (fun d => x (ix3 b n d)) := by
  rw [Host.reduce_eq_fold_single f x init h' h hu (ix2 b n)]
  refine Finset.fold_congr fun d _ => ?_
  show x (h.lift (ix2 b n) d) = x (ix3 b n d)
  refine congrArg x (funext fun c => Fin.ext ?_)
  match c with
  | ⟨0, _⟩ => rfl
  | ⟨1, _⟩ => rfl
  | ⟨2, _⟩ => rfl

/-! ## The two trailing axes flattened -/

/-- An [a, b, c] array reshaped to [a, n], n = b·c, at (r, i·c + d) is the operand at (r, i, d). -/
theorem flatten_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

end Cert.Lib.HostForms

end
-- ==== Proof.LibHostRead.lean ====
/-
  Host layout operations read at an entry, in the combinations the reference program spells:
  a table's row cut out, reshaped to a vector, re-laid as one row and broadcast over all rows; a vector laid out
  as a column and broadcast over the columns; a scalar constant broadcast over a shape; and the elementwise host
  functions at an entry on the extended reals. The axis maps of the broadcasts are taken as variables with their
  values as hypotheses, so that the statements apply whatever way a program spells the map's type.
-/
import proofs.«178250_j83665962926262_2_alg».proof.Proof.LibHostForms
import Idealize.ShloMosaic.Lib.ValueIdx
import Idealize.ShloMosaic.Lib.ValueLayout
import Idealize.ShloMosaic.Lib.Pipeline.Value

noncomputable section

namespace Cert.Sbf.HostLayout

open Idealize.ShloMosaic Idealize.ShloMosaic.ValueIdx

variable {α : Type}

theorem hostSin_apply {s : Shape} {φ : FTy} (a : FVec Ideal s φ) (i : s.Idx) : Host.sin a i = Ideal.sin (a i) := rfl
theorem hostCos_apply {s : Shape} {φ : FTy} (a : FVec Ideal s φ) (i : s.Idx) : Host.cos a i = Ideal.cos (a i) := rfl
theorem hostDivf_apply {s : Shape} {φ : FTy} (a b : FVec Ideal s φ) (i : s.Idx) : Host.divf a b i = Ideal.div (a i) (b i) := rfl
theorem hostPowf_apply {s : Shape} {φ : FTy} (a b : FVec Ideal s φ) (i : s.Idx) : Host.powf a b i = Ideal.pow (a i) (b i) := rfl

/-- One row [1, M] broadcast over N rows reads, at (e, k), the row's entry k. -/
theorem bcast_1m_nm {N M : Nat} (dims : Fin 2 → Fin 2) (h0 : dims 0 = 0) (h1 : dims 1 = 1)
    (h : (⟨2, ![1, M]⟩ : Shape).BroadcastsInDim ⟨2, ![N, M]⟩ dims) (v : (⟨2, ![1, M]⟩ : Shape).Idx → α)
    (e : Fin N) (k : Fin M) : broadcastInDim ⟨2, ![N, M]⟩ dims h v (ix2 e k) = v (ix2 (0 : Fin 1) k) := by
  refine broadcastInDim_apply dims h v (ix2 e k) (ix2 (0 : Fin 1) k) fun a => ?_
  match a with
  | ⟨0, _⟩ => rfl
  | ⟨1, _⟩ =>
    show k.val = if M = 1 then 0 else (ix2 e k (dims 1)).val
    rw [h1]
    split
    · have := k.isLt; omega
    · rfl

/-- A vector [M] laid out as one row reads, at (0, k), its entry k. -/
theorem bcast_m_1m {M : Nat} (dims : Fin 1 → Fin 2) (h0 : dims 0 = 1)
    (h : (⟨1, ![M]⟩ : Shape).BroadcastsInDim ⟨2, ![1, M]⟩ dims) (v : (⟨1, ![M]⟩ : Shape).Idx → α) (z : Fin 1) (k : Fin M) :
    broadcastInDim ⟨2, ![1, M]⟩ dims h v (ix2 z k) = v (ix1 k) := by
  refine broadcastInDim_apply dims h v (ix2 z k) (ix1 k) fun a => ?_
  match a with
  | ⟨0, _⟩ =>
    show k.val = if M = 1 then 0 else (ix2 z k (dims 0)).val
    rw [h0]
    split
    · have := k.isLt; omega
    · rfl

/-- A vector of six laid out as one row and broadcast over N rows reads, at (e, k), its entry k. -/
theorem hostRow_apply {N : Nat} (d1 : Fin 1 → Fin 2) (d2 : Fin 2 → Fin 2) (hd1 : d1 0 = 1) (hd20 : d2 0 = 0) (hd21 : d2 1 = 1)
    (g : (⟨1, ![6]⟩ : Shape).Idx → α)
    (hr : (⟨1, ![6]⟩ : Shape).BroadcastsInDim ⟨2, ![1, 6]⟩ d1)
    (hb : (⟨2, ![1, 6]⟩ : Shape).BroadcastsInDim ⟨2, ![N, 6]⟩ d2) (e : Fin N) (k : Fin 6) :
    broadcastInDim ⟨2, ![N, 6]⟩ d2 hb (broadcastInDim ⟨2, ![1, 6]⟩ d1 hr g) (ix2 e k) = g (ix1 k) := by
  rw [bcast_1m_nm d2 hd20 hd21, bcast_m_1m d1 hd1]

/-- Row o of a 7×6 table, cut out and reshaped to a vector of six, reads, at k, the table's entry (o, k). -/
theorem tableVec_apply (P : (⟨2, ![7, 6]⟩ : Shape).Idx → α) (o : Nat) (ho : o < 7)
    (hs : (⟨2, ![7, 6]⟩ : Shape).Slices ![o, 0] ⟨2, ![1, 6]⟩) (h1 : (⟨2, ![1, 6]⟩ : Shape).ShapeCasts ⟨1, ![6]⟩) (k : Fin 6) :
    shapeCast ⟨1, ![6]⟩ (extractStridedSlice ⟨2, ![1, 6]⟩ ![o, 0] P hs) h1 (ix1 k) = P (ix2 (⟨o, ho⟩ : Fin 7) k) := by
  rw [shapeCast_1a_a_apply]
  exact slice2_axis0_apply o P hs 0 k ⟨o, ho⟩ rfl

/-- A vector [N] laid out as a column and broadcast over M columns reads, at (e, k), its entry e. -/
theorem hostCol_apply {N M : Nat} (d1 : Fin 1 → Fin 2) (d2 : Fin 2 → Fin 2) (hd1 : d1 0 = 0) (hd20 : d2 0 = 0) (hd21 : d2 1 = 1)
    (v : (⟨1, ![N]⟩ : Shape).Idx → α)
    (hc : (⟨1, ![N]⟩ : Shape).BroadcastsInDim ⟨2, ![N, 1]⟩ d1)
    (hb : (⟨2, ![N, 1]⟩ : Shape).BroadcastsInDim ⟨2, ![N, M]⟩ d2) (e : Fin N) (k : Fin M) :
    broadcastInDim ⟨2, ![N, M]⟩ d2 hb (broadcastInDim ⟨2, ![N, 1]⟩ d1 hc v) (ix2 e k) = v (ix1 e) := by
  rw [Cert.Lib.HostForms.bcast_b1_bm d2 hd20 hd21, Cert.Lib.HostForms.bcast_b_b1 d1 hd1]

/-- A scalar broadcast over a shape reads the scalar everywhere. -/
theorem hostSplat_apply {s : Shape} (dims : Fin 0 → Fin s.rank) (c : (⟨0, ![]⟩ : Shape).Idx → α)
    (h : (⟨0, ![]⟩ : Shape).BroadcastsInDim s dims) (i : s.Idx) :
    broadcastInDim s dims h c i = c ix0 :=
  broadcastInDim_apply dims h c i ix0 (fun a => a.elim0)

theorem constant_ix0 (b : BitVec 32) : constant (F := Ideal) (⟨0, ![]⟩ : Shape) .f32 b ix0 = Ideal.ofBits .f32 b := rfl
theorem constantI_ix0 (b : BitVec 32) : constantI (⟨0, ![]⟩ : Shape) 32 b ix0 = b := rfl

end Cert.Sbf.HostLayout

end
-- ==== Proof.RefEnv.lean ====
/-
  The reference's first stretch read back: from the distances d it leaves the scaled distances s = d · (1/5),
  the cutoff of s with s⁷ and s⁸ spelt as real powers, and the two 7×6 tables of constants.
-/
import proofs.«178250_j83665962926262_2_alg».proof.Proof.RefOps
import proofs.«178250_j83665962926262_2_alg».proof.Proof.LibHostRead
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

/-- The scaled distances. -/
theorem env_v1 (V : Valuation τ sig (Elt Ideal)) (d : S1000000.Idx → EReal) (hd : V (Proc.devRef .tc main_arg0) = d) :
    after sEnv V (Proc.devRef .tc main_v1) = fun i => scaled (d i) := by
  simp only [sEnv]
  after_results_simp
  simp only [hd]
  funext i
  simp (disch := decide) only [mulf_apply, hostSplat_apply, constant_ix0]
  rfl

/-- The cutoff of the scaled distances. -/
theorem env_v21 (V : Valuation τ sig (Elt Ideal)) (d : S1000000.Idx → EReal) (hd : V (Proc.devRef .tc main_arg0) = d) :
    after sEnv V (Proc.devRef .tc main_v21) = fun i => envPow (scaled (d i)) := by
  simp only [sEnv]
  after_results_simp
  simp only [hd]
  funext i
  simp (disch := decide) only [select_apply, cmpf_apply, addf_apply, mulf_apply, hostPowf_apply, hostSplat_apply, constant_ix0, id]
  rfl

/-- The table of the Bessel functions' zeros. -/
theorem env_cst (V : Valuation τ sig (Elt Ideal)) :
    after sEnv V (Proc.devRef .tc main_cst) = fun i => W (lit0 (S7x6.rowMajor i)) := by
  simp only [sEnv]
  after_results_simp
  rfl

/-- The table of the normalizing factors. -/
theorem env_cst_0 (V : Valuation τ sig (Elt Ideal)) :
    after sEnv V (Proc.devRef .tc main_cst_0) = fun i => W (lit1 (S7x6.rowMajor i)) := by
  simp only [sEnv]
  after_results_simp
  rfl

end Cert.Sbf.RefRead

end
-- ==== Proof.RefRadA.lean ====
/-
  The reference's radial blocks read back at an entry: block l holds, at (e, k), the normalizing factor n(l,k)
  times the spherical Bessel function j_l of the scaled distance of edge e times the zero z(l,k).
-/
import proofs.«178250_j83665962926262_2_alg».proof.Proof.RefOps
import proofs.«178250_j83665962926262_2_alg».proof.Proof.LibHostRead
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

/-- Radial block 0 at (e, k): n(0,k) · j_0(s(e) · z(0,k)). -/
theorem rad0 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad0 V (Proc.devRef .tc main_v35) (ix2 e k)
      = radial ⟨0, by decide⟩ (n (ix2 ⟨0, by decide⟩ k)) (s (ix1 e) * z (ix2 ⟨0, by decide⟩ k)) := by
  have hzz : shapeCast main_v26.ty.shape (extractStridedSlice S1x6 ![0, 0] z slices_S7x6_S1x6_0_0) shapeCasts_S1x6_S6 (ix1 k)
      = z (ix2 ⟨0, by decide⟩ k) := tableVec_apply z 0 (by decide) _ _ k
  have hnn : shapeCast main_v23.ty.shape (extractStridedSlice S1x6 ![0, 0] n slices_S7x6_S1x6_0_0) shapeCasts_S1x6_S6 (ix1 k)
      = n (ix2 ⟨0, by decide⟩ k) := tableVec_apply n 0 (by decide) _ _ k
  simp only [sRad0]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

/-- Radial block 1 at (e, k): n(1,k) · j_1(s(e) · z(1,k)). -/
theorem rad1 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad1 V (Proc.devRef .tc main_v55) (ix2 e k)
      = radial ⟨1, by decide⟩ (n (ix2 ⟨1, by decide⟩ k)) (s (ix1 e) * z (ix2 ⟨1, by decide⟩ k)) := by
  have hzz : shapeCast main_v40.ty.shape (extractStridedSlice S1x6 ![1, 0] z slices_S7x6_S1x6_1_0) shapeCasts_S1x6_S6 (ix1 k)
      = z (ix2 ⟨1, by decide⟩ k) := tableVec_apply z 1 (by decide) _ _ k
  have hnn : shapeCast main_v37.ty.shape (extractStridedSlice S1x6 ![1, 0] n slices_S7x6_S1x6_1_0) shapeCasts_S1x6_S6 (ix1 k)
      = n (ix2 ⟨1, by decide⟩ k) := tableVec_apply n 1 (by decide) _ _ k
  simp only [sRad1]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

/-- Radial block 2 at (e, k): n(2,k) · j_2(s(e) · z(2,k)). -/
theorem rad2 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad2 V (Proc.devRef .tc main_v79) (ix2 e k)
      = radial ⟨2, by decide⟩ (n (ix2 ⟨2, by decide⟩ k)) (s (ix1 e) * z (ix2 ⟨2, by decide⟩ k)) := by
  have hzz : shapeCast main_v60.ty.shape (extractStridedSlice S1x6 ![2, 0] z slices_S7x6_S1x6_2_0) shapeCasts_S1x6_S6 (ix1 k)
      = z (ix2 ⟨2, by decide⟩ k) := tableVec_apply z 2 (by decide) _ _ k
  have hnn : shapeCast main_v57.ty.shape (extractStridedSlice S1x6 ![2, 0] n slices_S7x6_S1x6_2_0) shapeCasts_S1x6_S6 (ix1 k)
      = n (ix2 ⟨2, by decide⟩ k) := tableVec_apply n 2 (by decide) _ _ k
  simp only [sRad2]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

/-- Radial block 3 at (e, k): n(3,k) · j_3(s(e) · z(3,k)). -/
theorem rad3 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad3 V (Proc.devRef .tc main_v107) (ix2 e k)
      = radial ⟨3, by decide⟩ (n (ix2 ⟨3, by decide⟩ k)) (s (ix1 e) * z (ix2 ⟨3, by decide⟩ k)) := by
  have hzz : shapeCast main_v84.ty.shape (extractStridedSlice S1x6 ![3, 0] z slices_S7x6_S1x6_3_0) shapeCasts_S1x6_S6 (ix1 k)
      = z (ix2 ⟨3, by decide⟩ k) := tableVec_apply z 3 (by decide) _ _ k
  have hnn : shapeCast main_v81.ty.shape (extractStridedSlice S1x6 ![3, 0] n slices_S7x6_S1x6_3_0) shapeCasts_S1x6_S6 (ix1 k)
      = n (ix2 ⟨3, by decide⟩ k) := tableVec_apply n 3 (by decide) _ _ k
  simp only [sRad3]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

end Cert.Sbf.RefRead

end
-- ==== Proof.RefRadB.lean ====
/-
  The reference's radial blocks read back at an entry: block l holds, at (e, k), the normalizing factor n(l,k)
  times the spherical Bessel function j_l of the scaled distance of edge e times the zero z(l,k).
-/
import proofs.«178250_j83665962926262_2_alg».proof.Proof.RefOps
import proofs.«178250_j83665962926262_2_alg».proof.Proof.LibHostRead
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

/-- Radial block 4 at (e, k): n(4,k) · j_4(s(e) · z(4,k)). -/
theorem rad4 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad4 V (Proc.devRef .tc main_v139) (ix2 e k)
      = radial ⟨4, by decide⟩ (n (ix2 ⟨4, by decide⟩ k)) (s (ix1 e) * z (ix2 ⟨4, by decide⟩ k)) := by
  have hzz : shapeCast main_v112.ty.shape (extractStridedSlice S1x6 ![4, 0] z slices_S7x6_S1x6_4_0) shapeCasts_S1x6_S6 (ix1 k)
      = z (ix2 ⟨4, by decide⟩ k) := tableVec_apply z 4 (by decide) _ _ k
  have hnn : shapeCast main_v109.ty.shape (extractStridedSlice S1x6 ![4, 0] n slices_S7x6_S1x6_4_0) shapeCasts_S1x6_S6 (ix1 k)
      = n (ix2 ⟨4, by decide⟩ k) := tableVec_apply n 4 (by decide) _ _ k
  simp only [sRad4]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

/-- Radial block 5 at (e, k): n(5,k) · j_5(s(e) · z(5,k)). -/
theorem rad5 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad5 V (Proc.devRef .tc main_v175) (ix2 e k)
      = radial ⟨5, by decide⟩ (n (ix2 ⟨5, by decide⟩ k)) (s (ix1 e) * z (ix2 ⟨5, by decide⟩ k)) := by
  have hzz : shapeCast main_v144.ty.shape (extractStridedSlice S1x6 ![5, 0] z slices_S7x6_S1x6_5_0) shapeCasts_S1x6_S6 (ix1 k)
      = z (ix2 ⟨5, by decide⟩ k) := tableVec_apply z 5 (by decide) _ _ k
  have hnn : shapeCast main_v141.ty.shape (extractStridedSlice S1x6 ![5, 0] n slices_S7x6_S1x6_5_0) shapeCasts_S1x6_S6 (ix1 k)
      = n (ix2 ⟨5, by decide⟩ k) := tableVec_apply n 5 (by decide) _ _ k
  simp only [sRad5]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

/-- Radial block 6 at (e, k): n(6,k) · j_6(s(e) · z(6,k)). -/
theorem rad6 (V : Valuation τ sig (Elt Ideal)) (s : S1000000.Idx → EReal) (z n : S7x6.Idx → EReal)
    (hs : V (Proc.devRef .tc main_v1) = s) (hz : V (Proc.devRef .tc main_cst) = z) (hn : V (Proc.devRef .tc main_cst_0) = n)
    (e : Fin 1000000) (k : Fin 6) :
    after sRad6 V (Proc.devRef .tc main_v215) (ix2 e k)
      = radial ⟨6, by decide⟩ (n (ix2 ⟨6, by decide⟩ k)) (s (ix1 e) * z (ix2 ⟨6, by decide⟩ k)) := by
  have hzz : shapeCast main_v180.ty.shape (extractStridedSlice S1x6 ![6, 0] z slices_S7x6_S1x6_6_0) shapeCasts_S1x6_S6 (ix1 k)
      = z (ix2 ⟨6, by decide⟩ k) := tableVec_apply z 6 (by decide) _ _ k
  have hnn : shapeCast main_v177.ty.shape (extractStridedSlice S1x6 ![6, 0] n slices_S7x6_S1x6_6_0) shapeCasts_S1x6_S6 (ix1 k)
      = n (ix2 ⟨6, by decide⟩ k) := tableVec_apply n 6 (by decide) _ _ k
  simp only [sRad6]
  after_results_simp
  simp only [hs, hz, hn]
  simp (disch := decide) only [mulf_apply, subf_apply, hostDivf_apply, hostSin_apply, hostCos_apply, hostRow_apply, hostCol_apply,
    hostSplat_apply, constant_ix0]
  simp only [hzz, hnn]
  rfl

end Cert.Sbf.RefRead

end
-- ==== Proof.LibConcat7.lean ====
/-
  More host layout operations read at an entry: a concatenation of seven pieces of one shape along the columns
  (the piece is the column's block number, the column inside it the remainder), a matrix repeated along a new
  last axis, and the integer operations of an index computation, entry by entry.
-/
import Idealize.ShloMosaic.Lib.ValueIdx
import Idealize.ShloMosaic.Lib.ValueLayout
import Idealize.ShloMosaic.Lib.Pipeline.Value

noncomputable section

namespace Cert.Sbf.HostLayout

open Idealize.ShloMosaic Idealize.ShloMosaic.ValueIdx

variable {α : Type}

/-- One of seven, by its number. -/
def sel7 {β : Type} (X0 X1 X2 X3 X4 X5 X6 : β) : Fin 7 → β
  | ⟨0, _⟩ => X0
  | ⟨1, _⟩ => X1
  | ⟨2, _⟩ => X2
  | ⟨3, _⟩ => X3
  | ⟨4, _⟩ => X4
  | ⟨5, _⟩ => X5
  | ⟨6, _⟩ => X6

theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl

/-- Seven [N, 6] pieces side by side: column q = 6·l + k of the result is column k of piece l. -/
theorem concat7x6_apply {N : Nat} (a : Fin 2) (ha : a = 1) (X0 X1 X2 X3 X4 X5 X6 : (⟨2, ![N, 6]⟩ : Shape).Idx → α)
    (h : Shape.Concatenates (([⟨(⟨2, ![N, 6]⟩ : Shape), X0⟩, ⟨(⟨2, ![N, 6]⟩ : Shape), X1⟩, ⟨(⟨2, ![N, 6]⟩ : Shape), X2⟩, ⟨(⟨2, ![N, 6]⟩ : Shape), X3⟩, ⟨(⟨2, ![N, 6]⟩ : Shape), X4⟩, ⟨(⟨2, ![N, 6]⟩ : Shape), X5⟩, ⟨(⟨2, ![N, 6]⟩ : Shape), X6⟩] : List ((s : Shape) × (s.Idx → α))).map (·.1)) ⟨2, ![N, 42]⟩ a)
    (e : Fin N) (q : Fin 42) (l : Fin 7) (k : Fin 6) (hq : q.val = 6 * l.val + k.val) :
    concatenate ⟨2, ![N, 42]⟩ a [⟨(⟨2, ![N, 6]⟩ : Shape), X0⟩, ⟨(⟨2, ![N, 6]⟩ : Shape), X1⟩, ⟨(⟨2, ![N, 6]⟩ : Shape), X2⟩, ⟨(⟨2, ![N, 6]⟩ : Shape), X3⟩, ⟨(⟨2, ![N, 6]⟩ : Shape), X4⟩, ⟨(⟨2, ![N, 6]⟩ : Shape), X5⟩, ⟨(⟨2, ![N, 6]⟩ : Shape), X6⟩] h (ix2 e q) = sel7 X0 X1 X2 X3 X4 X5 X6 l (ix2 e k) := by
  subst ha
  have hk := k.isLt
  show concatenate _ _ (List.ofFn fun n : Fin 7 => (⟨⟨2, ![N, 6]⟩, sel7 X0 X1 X2 X3 X4 X5 X6 n⟩ : (s : Shape) × (s.Idx → α))) _ _ = _
  exact concatenate_ofFn_apply (t := ⟨2, ![N, 42]⟩) (s₁ := ⟨2, ![N, 6]⟩) (1 : Fin 2) (sel7 X0 X1 X2 X3 X4 X5 X6) _ rfl 6 rfl (ix2 e q) l
    (by show q.val / 6 = l.val; omega) (ix2 e k) (by show k.val = q.val % 6; omega)
    (fun b hb => by
      match b with
      | ⟨0, _⟩ => rfl
      | ⟨1, _⟩ => exact absurd rfl hb)

/-- Seven columns [N, 1] side by side: column l of the result is piece l. -/
theorem concat7x1_apply {N : Nat} (a : Fin 2) (ha : a = 1) (X0 X1 X2 X3 X4 X5 X6 : (⟨2, ![N, 1]⟩ : Shape).Idx → α)
    (h : Shape.Concatenates (([⟨(⟨2, ![N, 1]⟩ : Shape), X0⟩, ⟨(⟨2, ![N, 1]⟩ : Shape), X1⟩, ⟨(⟨2, ![N, 1]⟩ : Shape), X2⟩, ⟨(⟨2, ![N, 1]⟩ : Shape), X3⟩, ⟨(⟨2, ![N, 1]⟩ : Shape), X4⟩, ⟨(⟨2, ![N, 1]⟩ : Shape), X5⟩, ⟨(⟨2, ![N, 1]⟩ : Shape), X6⟩] : List ((s : Shape) × (s.Idx → α))).map (·.1)) ⟨2, ![N, 7]⟩ a)
    (e : Fin N) (l : Fin 7) :
    concatenate ⟨2, ![N, 7]⟩ a [⟨(⟨2, ![N, 1]⟩ : Shape), X0⟩, ⟨(⟨2, ![N, 1]⟩ : Shape), X1⟩, ⟨(⟨2, ![N, 1]⟩ : Shape), X2⟩, ⟨(⟨2, ![N, 1]⟩ : Shape), X3⟩, ⟨(⟨2, ![N, 1]⟩ : Shape), X4⟩, ⟨(⟨2, ![N, 1]⟩ : Shape), X5⟩, ⟨(⟨2, ![N, 1]⟩ : Shape), X6⟩] h (ix2 e l) = sel7 X0 X1 X2 X3 X4 X5 X6 l (ix2 e (0 : Fin 1)) := by
  subst ha
  show concatenate _ _ (List.ofFn fun n : Fin 7 => (⟨⟨2, ![N, 1]⟩, sel7 X0 X1 X2 X3 X4 X5 X6 n⟩ : (s : Shape) × (s.Idx → α))) _ _ = _
  exact concatenate_ofFn_apply (t := ⟨2, ![N, 7]⟩) (s₁ := ⟨2, ![N, 1]⟩) (1 : Fin 2) (sel7 X0 X1 X2 X3 X4 X5 X6) _ rfl 1 rfl (ix2 e l) l
    (by show l.val / 1 = l.val; omega) (ix2 e (0 : Fin 1)) (by show 0 = l.val % 1; omega)
    (fun b hb => by
      match b with
      | ⟨0, _⟩ => rfl
      | ⟨1, _⟩ => exact absurd rfl hb)

/-- A matrix [N, M] repeated K times along a new last axis reads, at (t, l, k), its entry (t, l). -/
theorem bcast_nm_nmk {N M K : Nat} (dims : Fin 2 → Fin 3) (h0 : dims 0 = 0) (h1 : dims 1 = 1)
    (h : (⟨2, ![N, M]⟩ : Shape).BroadcastsInDim ⟨3, ![N, M, K]⟩ dims) (v : (⟨2, ![N, M]⟩ : Shape).Idx → α)
    (t : Fin N) (l : Fin M) (k : Fin K) : broadcastInDim ⟨3, ![N, M, K]⟩ dims h v (ix3 t l k) = v (ix2 t l) := by
  refine broadcastInDim_apply dims h v (ix3 t l k) (ix2 t l) fun a => ?_
  match a with
  | ⟨0, _⟩ =>
    show t.val = if N = 1 then 0 else (ix3 t l k (dims 0)).val
    rw [h0]
    split
    · have := t.isLt; omega
    · rfl
  | ⟨1, _⟩ =>
    show l.val = if M = 1 then 0 else (ix3 t l k (dims 1)).val
    rw [h1]
    split
    · have := l.isLt; omega
    · rfl

end Cert.Sbf.HostLayout

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.RefGather.lean ====
/-
  The reference's gather stretch read back at an entry: the seven radial blocks side by side, times the cutoff
  broadcast over the 42 columns, with the row of triplet t taken at the edge its index word names (wrapped once
  when negative, then clamped into the table as a gather does).
-/
import proofs.«178250_j83665962926262_2_alg».proof.Proof.RefOps
import proofs.«178250_j83665962926262_2_alg».proof.Proof.LibHostRead
import proofs.«178250_j83665962926262_2_alg».proof.Proof.LibConcat7
import proofs.«178250_j83665962926262_2_alg».proof.Proof.LibRowOps
import proofs.«178250_j83665962926262_2_alg».proof.Proof.LibHostForms
import proofs.«178250_j83665962926262_2_alg».proof.Proof.RowIndex
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

theorem gather_apply (V : Valuation τ sig (Elt Ideal)) (X0 X1 X2 X3 X4 X5 X6 : S1000000x6.Idx → EReal)
    (ev : S1000000.Idx → EReal) (ix : S3000000.Idx → BitVec 32)
    (h0 : V (Proc.devRef .tc main_v35) = X0) (h1 : V (Proc.devRef .tc main_v55) = X1) (h2 : V (Proc.devRef .tc main_v79) = X2)
    (h3 : V (Proc.devRef .tc main_v107) = X3) (h4 : V (Proc.devRef .tc main_v139) = X4) (h5 : V (Proc.devRef .tc main_v175) = X5)
    (h6 : V (Proc.devRef .tc main_v215) = X6) (hev : V (Proc.devRef .tc main_v21) = ev) (hix : V (Proc.devRef .tc main_arg4) = ix)
    (t : Fin 3000000) (q : Fin 42) (l : Fin 7) (k : Fin 6) (hq : q.val = 6 * l.val + k.val) :
    after sGather V (Proc.devRef .tc main_v226) (ix2 t q)
      = sel7 X0 X1 X2 X3 X4 X5 X6 l (ix2 (row ix t) k) * ev (ix1 (row ix t)) := by
  subst h0 h1 h2 h3 h4 h5 h6 hev hix
  simp only [sGather]
  after_results_simp
  dsimp only [Matrix.cons_val]
  rw [Cert.LibRowOps.gather_rows_apply_of_eq (by decide : 0 < 1000000) _ rfl rfl rfl rfl rfl rfl rfl]
  rw [mulf_apply, concat7x6_apply _ rfl _ _ _ _ _ _ _ _ _ q l k hq, hostCol_apply _ _ rfl rfl rfl]
  simp (disch := decide) only [Cert.Lib.HostForms.bcast_b_b1, select_apply, cmpi_apply, addi_apply, hostSplat_apply, constantI_ix0]
  rfl

/-- The last product. -/
theorem last_eq (V : Valuation τ sig (Elt Ideal)) (A B : S3000000x42.Idx → EReal)
    (hA : V (Proc.devRef .tc main_v226) = A) (hB : V (Proc.devRef .tc main_v294) = B) :
    after sLast V (Proc.devRef .tc main_v295) = fun i => A i * B i := by
  simp only [sLast]
  after_results_simp
  simp only [hA, hB]
  rfl

end Cert.Sbf.RefRead

end
-- ==== Proof.RefLegA.lean ====
/-
  The reference's Legendre stretch read back at an entry: the seven columns Y_l · P_l(cos θ), l = 0 … 6, of each
  triplet's angle, P_l by the three-term recurrence.
-/
import proofs.«178250_j83665962926262_2_alg».proof.Proof.RefOps
import proofs.«178250_j83665962926262_2_alg».proof.Proof.LibHostRead
import proofs.«178250_j83665962926262_2_alg».proof.Proof.LibHostForms
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

/-- Column 0: Y_0 · P_0(cos θ) of triplet t's angle. -/
theorem leg0 (V : Valuation τ sig (Elt Ideal)) (a : S3000000.Idx → EReal) (ha : V (Proc.devRef .tc main_arg1) = a)
    (t : Fin 3000000) (z : Fin 1) :
    after sLeg V (Proc.devRef .tc main_v283) (ix2 t z) = angular ⟨0, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

/-- Column 1: Y_1 · P_1(cos θ) of triplet t's angle. -/
theorem leg1 (V : Valuation τ sig (Elt Ideal)) (a : S3000000.Idx → EReal) (ha : V (Proc.devRef .tc main_arg1) = a)
    (t : Fin 3000000) (z : Fin 1) :
    after sLeg V (Proc.devRef .tc main_v284) (ix2 t z) = angular ⟨1, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

/-- Column 2: Y_2 · P_2(cos θ) of triplet t's angle. -/
theorem leg2 (V : Valuation τ sig (Elt Ideal)) (a : S3000000.Idx → EReal) (ha : V (Proc.devRef .tc main_arg1) = a)
    (t : Fin 3000000) (z : Fin 1) :
    after sLeg V (Proc.devRef .tc main_v285) (ix2 t z) = angular ⟨2, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

/-- Column 3: Y_3 · P_3(cos θ) of triplet t's angle. -/
theorem leg3 (V : Valuation τ sig (Elt Ideal)) (a : S3000000.Idx → EReal) (ha : V (Proc.devRef .tc main_arg1) = a)
    (t : Fin 3000000) (z : Fin 1) :
    after sLeg V (Proc.devRef .tc main_v286) (ix2 t z) = angular ⟨3, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

end Cert.Sbf.RefRead

end
-- ==== Proof.RefLegB.lean ====
/-
  The reference's Legendre stretch read back at an entry: the seven columns Y_l · P_l(cos θ), l = 0 … 6, of each
  triplet's angle, P_l by the three-term recurrence.
-/
import proofs.«178250_j83665962926262_2_alg».proof.Proof.RefOps
import proofs.«178250_j83665962926262_2_alg».proof.Proof.LibHostRead
import proofs.«178250_j83665962926262_2_alg».proof.Proof.LibHostForms
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

/-- Column 4: Y_4 · P_4(cos θ) of triplet t's angle. -/
theorem leg4 (V : Valuation τ sig (Elt Ideal)) (a : S3000000.Idx → EReal) (ha : V (Proc.devRef .tc main_arg1) = a)
    (t : Fin 3000000) (z : Fin 1) :
    after sLeg V (Proc.devRef .tc main_v287) (ix2 t z) = angular ⟨4, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

/-- Column 5: Y_5 · P_5(cos θ) of triplet t's angle. -/
theorem leg5 (V : Valuation τ sig (Elt Ideal)) (a : S3000000.Idx → EReal) (ha : V (Proc.devRef .tc main_arg1) = a)
    (t : Fin 3000000) (z : Fin 1) :
    after sLeg V (Proc.devRef .tc main_v288) (ix2 t z) = angular ⟨5, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

/-- Column 6: Y_6 · P_6(cos θ) of triplet t's angle. -/
theorem leg6 (V : Valuation τ sig (Elt Ideal)) (a : S3000000.Idx → EReal) (ha : V (Proc.devRef .tc main_arg1) = a)
    (t : Fin 3000000) (z : Fin 1) :
    after sLeg V (Proc.devRef .tc main_v289) (ix2 t z) = angular ⟨6, by decide⟩ (Ideal.cos (a (ix1 t))) := by
  subst ha
  simp only [sLeg]
  after_results_simp
  simp (disch := decide) only [Cert.Lib.HostForms.bcast_b_b1, mulf_apply, subf_apply, hostDivf_apply, hostCos_apply,
    hostSplat_apply, constant_ix0]
  rfl

end Cert.Sbf.RefRead

end
-- ==== Proof.RefSbf.lean ====
/-
  The reference's layout of the angular part read back at an entry: the seven columns side by side, each repeated
  six times (column q = 6·l + k of the result is column l), times the mask broadcast over the 42 columns.
-/
import proofs.«178250_j83665962926262_2_alg».proof.Proof.RefOps
import proofs.«178250_j83665962926262_2_alg».proof.Proof.LibHostRead
import proofs.«178250_j83665962926262_2_alg».proof.Proof.LibConcat7
import proofs.«178250_j83665962926262_2_alg».proof.Proof.LibHostForms
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

theorem sbf_apply (V : Valuation τ sig (Elt Ideal)) (Y0 Y1 Y2 Y3 Y4 Y5 Y6 mk : S3000000x1.Idx → EReal)
    (h0 : V (Proc.devRef .tc main_v283) = Y0)
    (h1 : V (Proc.devRef .tc main_v284) = Y1)
    (h2 : V (Proc.devRef .tc main_v285) = Y2)
    (h3 : V (Proc.devRef .tc main_v286) = Y3)
    (h4 : V (Proc.devRef .tc main_v287) = Y4)
    (h5 : V (Proc.devRef .tc main_v288) = Y5)
    (h6 : V (Proc.devRef .tc main_v289) = Y6)
    (hm : V (Proc.devRef .tc main_arg2) = mk)
    (t : Fin 3000000) (q : Fin 42) (l : Fin 7) (k : Fin 6) (hq : q.val = 6 * l.val + k.val) :
    after sSbf V (Proc.devRef .tc main_v294) (ix2 t q)
      = sel7 Y0 Y1 Y2 Y3 Y4 Y5 Y6 l (ix2 t (0 : Fin 1)) * mk (ix2 t (0 : Fin 1)) := by
  subst h0 h1 h2 h3 h4 h5 h6 hm
  simp only [sSbf]
  after_results_simp
  dsimp only [Matrix.cons_val]
  rw [mulf_apply]
  erw [Cert.Lib.HostForms.flatten_apply (b := 7) (c := 6) _ _ rfl t q l k (by omega)]
  rw [bcast_nm_nmk _ rfl rfl, concat7x1_apply _ rfl _ _ _ _ _ _ _ _ t l, Cert.Lib.HostForms.bcast_b1_bm _ rfl rfl]

end Cert.Sbf.RefRead

end
-- ==== Proof.RefValue.lean ====
/-
  The reference's result at an entry. The operation list is read stretch by stretch: each stretch's lemma says what
  it leaves in the buffers it writes, and a buffer a stretch does not write keeps its contents through it. Put
  together: row t, column 6·l + k of the result is the layer's expression of the tables' entries (l, k), of the
  distance of the edge triplet t reads, and of the triplet's angle and mask, the cutoff spelt with real powers.
-/
import proofs.«178250_j83665962926262_2_alg».proof.Proof.RefOps
import proofs.«178250_j83665962926262_2_alg».proof.Proof.RefEnv
import proofs.«178250_j83665962926262_2_alg».proof.Proof.RefRadA
import proofs.«178250_j83665962926262_2_alg».proof.Proof.RefRadB
import proofs.«178250_j83665962926262_2_alg».proof.Proof.RefGather
import proofs.«178250_j83665962926262_2_alg».proof.Proof.RefLegA
import proofs.«178250_j83665962926262_2_alg».proof.Proof.RefLegB
import proofs.«178250_j83665962926262_2_alg».proof.Proof.RefSbf
import proofs.«178250_j83665962926262_2_alg».proof.Proof.LibConcat7
import proofs.«178250_j83665962926262_2_alg».proof.Proof.RowIndex
import proofs.«178250_j83665962926262_2_alg».proof.Proof.Spec
import Idealize.ShloMosaic.Lib.ValueIdx

noncomputable section

namespace Cert.Sbf.RefRead

open Idealize.ShloMosaic Idealize.ShloMosaic.ValueIdx Idealize.ShloMosaic.StableHlo Cert.Sbf Cert.Sbf.HostLayout
open Cert.ReferenceIdeal Cert.ReferenceIdeal.Gen Cert.ReferenceIdeal.RefOps

/-- The fold over the whole list is the fold over the stretches in turn. -/
theorem after_ops (V : Valuation τ sig (Elt Ideal)) : after ops V = (after sLast (after sSbf (after sLeg (after sGather (after sRad6 (after sRad5 (after sRad4 (after sRad3 (after sRad2 (after sRad1 (after sRad0 (after sEnv V)))))))))))) := by
  rw [ops_eq]
  simp only [after_append]

/-- A buffer no stretch writes ends as it started. -/
theorem ops_keep (V : Valuation τ sig (Elt Ideal)) (r : Ref sig .tc)
    (h0 : r ∉ sEnv_W)
    (h1 : r ∉ sRad0_W)
    (h2 : r ∉ sRad1_W)
    (h3 : r ∉ sRad2_W)
    (h4 : r ∉ sRad3_W)
    (h5 : r ∉ sRad4_W)
    (h6 : r ∉ sRad5_W)
    (h7 : r ∉ sRad6_W)
    (h8 : r ∉ sGather_W)
    (h9 : r ∉ sLeg_W)
    (h10 : r ∉ sSbf_W)
    (h11 : r ∉ sLast_W) :
    after ops V (Proc.devRef .tc r) = V (Proc.devRef .tc r) := by
  rw [after_ops]
  rw [sLast_keep _ r h11, sSbf_keep _ r h10, sLeg_keep _ r h9, sGather_keep _ r h8, sRad6_keep _ r h7, sRad5_keep _ r h6, sRad4_keep _ r h5, sRad3_keep _ r h4, sRad2_keep _ r h3, sRad1_keep _ r h2, sRad0_keep _ r h1, sEnv_keep _ r h0]

/-- Argument 0 is never written. -/
theorem arg0_keep (V : Valuation τ sig (Elt Ideal)) : after ops V (Proc.devRef .tc main_arg0) = V (Proc.devRef .tc main_arg0) :=
  ops_keep V main_arg0 (by decide) (by decide) (by decide) (by decide) (by decide) (by decide) (by decide) (by decide) (by decide) (by decide) (by decide) (by decide)

/-- Argument 1 is never written. -/
theorem arg1_keep (V : Valuation τ sig (Elt Ideal)) : after ops V (Proc.devRef .tc main_arg1) = V (Proc.devRef .tc main_arg1) :=
  ops_keep V main_arg1 (by decide) (by decide) (by decide) (by decide) (by decide) (by decide) (by decide) (by decide) (by decide) (by decide) (by decide) (by decide)

/-- Argument 2 is never written. -/
theorem arg2_keep (V : Valuation τ sig (Elt Ideal)) : after ops V (Proc.devRef .tc main_arg2) = V (Proc.devRef .tc main_arg2) :=
  ops_keep V main_arg2 (by decide) (by decide) (by decide) (by decide) (by decide) (by decide) (by decide) (by decide) (by decide) (by decide) (by decide) (by decide)

/-- Argument 3 is never written. -/
theorem arg3_keep (V : Valuation τ sig (Elt Ideal)) : after ops V (Proc.devRef .tc main_arg3) = V (Proc.devRef .tc main_arg3) :=
  ops_keep V main_arg3 (by decide) (by decide) (by decide) (by decide) (by decide) (by decide) (by decide) (by decide) (by decide) (by decide) (by decide) (by decide)

/-- Argument 4 is never written. -/
theorem arg4_keep (V : Valuation τ sig (Elt Ideal)) : after ops V (Proc.devRef .tc main_arg4) = V (Proc.devRef .tc main_arg4) :=
  ops_keep V main_arg4 (by decide) (by decide) (by decide) (by decide) (by decide) (by decide) (by decide) (by decide) (by decide) (by decide) (by decide) (by decide)

/-- THE REFERENCE AT AN ENTRY. -/
theorem ref_apply (V : Valuation τ sig (Elt Ideal)) (d : S1000000.Idx → EReal) (a : S3000000.Idx → EReal)
    (mk : S3000000x1.Idx → EReal) (ix : S3000000.Idx → BitVec 32)
    (hd : V (Proc.devRef .tc main_arg0) = d) (ha : V (Proc.devRef .tc main_arg1) = a) (hm : V (Proc.devRef .tc main_arg2) = mk) (hix : V (Proc.devRef .tc main_arg4) = ix)
    (t : Fin 3000000) (q : Fin 42) (l : Fin 7) (k : Fin 6) (hq : q.val = 6 * l.val + k.val) :
    after ops V (Proc.devRef .tc main_v295) (ix2 t q)
      = entry envPow l (W (lit1 (S7x6.rowMajor (ix2 l k)))) (W (lit0 (S7x6.rowMajor (ix2 l k))))
          (d (ix1 (row ix t))) (a (ix1 t)) (mk (ix2 t (0 : Fin 1))) := by
  have hs_1 := env_v1 V d hd
  have hev_1 := env_v21 V d hd
  have hz_1 := env_cst V
  have hn_1 := env_cst_0 V
  have hs_2 := (sRad0_keep (after sEnv V) main_v1 (by decide)).trans hs_1
  have hev_2 := (sRad0_keep (after sEnv V) main_v21 (by decide)).trans hev_1
  have hz_2 := (sRad0_keep (after sEnv V) main_cst (by decide)).trans hz_1
  have hn_2 := (sRad0_keep (after sEnv V) main_cst_0 (by decide)).trans hn_1
  have hs_3 := (sRad1_keep (after sRad0 (after sEnv V)) main_v1 (by decide)).trans hs_2
  have hev_3 := (sRad1_keep (after sRad0 (after sEnv V)) main_v21 (by decide)).trans hev_2
  have hz_3 := (sRad1_keep (after sRad0 (after sEnv V)) main_cst (by decide)).trans hz_2
  have hn_3 := (sRad1_keep (after sRad0 (after sEnv V)) main_cst_0 (by decide)).trans hn_2
  have hs_4 := (sRad2_keep (after sRad1 (after sRad0 (after sEnv V))) main_v1 (by decide)).trans hs_3
  have hev_4 := (sRad2_keep (after sRad1 (after sRad0 (after sEnv V))) main_v21 (by decide)).trans hev_3
  have hz_4 := (sRad2_keep (after sRad1 (after sRad0 (after sEnv V))) main_cst (by decide)).trans hz_3
  have hn_4 := (sRad2_keep (after sRad1 (after sRad0 (after sEnv V))) main_cst_0 (by decide)).trans hn_3
  have hs_5 := (sRad3_keep (after sRad2 (after sRad1 (after sRad0 (after sEnv V)))) main_v1 (by decide)).trans hs_4
  have hev_5 := (sRad3_keep (after sRad2 (after sRad1 (after sRad0 (after sEnv V)))) main_v21 (by decide)).trans hev_4
  have hz_5 := (sRad3_keep (after sRad2 (after sRad1 (after sRad0 (after sEnv V)))) main_cst (by decide)).trans hz_4
  have hn_5 := (sRad3_keep (after sRad2 (after sRad1 (after sRad0 (after sEnv V)))) main_cst_0 (by decide)).trans hn_4
  have hs_6 := (sRad4_keep (after sRad3 (after sRad2 (after sRad1 (after sRad0 (after sEnv V))))) main_v1 (by decide)).trans hs_5
  have hev_6 := (sRad4_keep (after sRad3 (after sRad2 (after sRad1 (after sRad0 (after sEnv V))))) main_v21 (by decide)).trans hev_5
  have hz_6 := (sRad4_keep (after sRad3 (after sRad2 (after sRad1 (after sRad0 (after sEnv V))))) main_cst (by decide)).trans hz_5
  have hn_6 := (sRad4_keep (after sRad3 (after sRad2 (after sRad1 (after sRad0 (after sEnv V))))) main_cst_0 (by decide)).trans hn_5
  have hs_7 := (sRad5_keep (after sRad4 (after sRad3 (after sRad2 (after sRad1 (after sRad0 (after sEnv V)))))) main_v1 (by decide)).trans hs_6
  have hev_7 := (sRad5_keep (after sRad4 (after sRad3 (after sRad2 (after sRad1 (after sRad0 (after sEnv V)))))) main_v21 (by decide)).trans hev_6
  have hz_7 := (sRad5_keep (after sRad4 (after sRad3 (after sRad2 (after sRad1 (after sRad0 (after sEnv V)))))) main_cst (by decide)).trans hz_6
  have hn_7 := (sRad5_keep (after sRad4 (after sRad3 (after sRad2 (after sRad1 (after sRad0 (after sEnv V)))))) main_cst_0 (by decide)).trans hn_6
  have hs_8 := (sRad6_keep (after sRad5 (after sRad4 (after sRad3 (after sRad2 (after sRad1 (after sRad0 (after sEnv V))))))) main_v1 (by decide)).trans hs_7
  have hev_8 := (sRad6_keep (after sRad5 (after sRad4 (after sRad3 (after sRad2 (after sRad1 (after sRad0 (after sEnv V))))))) main_v21 (by decide)).trans hev_7
  have hz_8 := (sRad6_keep (after sRad5 (after sRad4 (after sRad3 (after sRad2 (after sRad1 (after sRad0 (after sEnv V))))))) main_cst (by decide)).trans hz_7
  have hn_8 := (sRad6_keep (after sRad5 (after sRad4 (after sRad3 (after sRad2 (after sRad1 (after sRad0 (after sEnv V))))))) main_cst_0 (by decide)).trans hn_7
  have hix_0 := hix
  have ha_0 := ha
  have hm_0 := hm
  have hix_1 := (sEnv_keep V main_arg4 (by decide)).trans hix_0
  have hix_2 := (sRad0_keep (after sEnv V) main_arg4 (by decide)).trans hix_1
  have hix_3 := (sRad1_keep (after sRad0 (after sEnv V)) main_arg4 (by decide)).trans hix_2
  have hix_4 := (sRad2_keep (after sRad1 (after sRad0 (after sEnv V))) main_arg4 (by decide)).trans hix_3
  have hix_5 := (sRad3_keep (after sRad2 (after sRad1 (after sRad0 (after sEnv V)))) main_arg4 (by decide)).trans hix_4
  have hix_6 := (sRad4_keep (after sRad3 (after sRad2 (after sRad1 (after sRad0 (after sEnv V))))) main_arg4 (by decide)).trans hix_5
  have hix_7 := (sRad5_keep (after sRad4 (after sRad3 (after sRad2 (after sRad1 (after sRad0 (after sEnv V)))))) main_arg4 (by decide)).trans hix_6
  have hix_8 := (sRad6_keep (after sRad5 (after sRad4 (after sRad3 (after sRad2 (after sRad1 (after sRad0 (after sEnv V))))))) main_arg4 (by decide)).trans hix_7
  have ha_1 := (sEnv_keep V main_arg1 (by decide)).trans ha_0
  have ha_2 := (sRad0_keep (after sEnv V) main_arg1 (by decide)).trans ha_1
  have ha_3 := (sRad1_keep (after sRad0 (after sEnv V)) main_arg1 (by decide)).trans ha_2
  have ha_4 := (sRad2_keep (after sRad1 (after sRad0 (after sEnv V))) main_arg1 (by decide)).trans ha_3
  have ha_5 := (sRad3_keep (after sRad2 (after sRad1 (after sRad0 (after sEnv V)))) main_arg1 (by decide)).trans ha_4
  have ha_6 := (sRad4_keep (after sRad3 (after sRad2 (after sRad1 (after sRad0 (after sEnv V))))) main_arg1 (by decide)).trans ha_5
  have ha_7 := (sRad5_keep (after sRad4 (after sRad3 (after sRad2 (after sRad1 (after sRad0 (after sEnv V)))))) main_arg1 (by decide)).trans ha_6
  have ha_8 := (sRad6_keep (after sRad5 (after sRad4 (after sRad3 (after sRad2 (after sRad1 (after sRad0 (after sEnv V))))))) main_arg1 (by decide)).trans ha_7
  have ha_9 := (sGather_keep (after sRad6 (after sRad5 (after sRad4 (after sRad3 (after sRad2 (after sRad1 (after sRad0 (after sEnv V)))))))) main_arg1 (by decide)).trans ha_8
  have hm_1 := (sEnv_keep V main_arg2 (by decide)).trans hm_0
  have hm_2 := (sRad0_keep (after sEnv V) main_arg2 (by decide)).trans hm_1
  have hm_3 := (sRad1_keep (after sRad0 (after sEnv V)) main_arg2 (by decide)).trans hm_2
  have hm_4 := (sRad2_keep (after sRad1 (after sRad0 (after sEnv V))) main_arg2 (by decide)).trans hm_3
  have hm_5 := (sRad3_keep (after sRad2 (after sRad1 (after sRad0 (after sEnv V)))) main_arg2 (by decide)).trans hm_4
  have hm_6 := (sRad4_keep (after sRad3 (after sRad2 (after sRad1 (after sRad0 (after sEnv V))))) main_arg2 (by decide)).trans hm_5
  have hm_7 := (sRad5_keep (after sRad4 (after sRad3 (after sRad2 (after sRad1 (after sRad0 (after sEnv V)))))) main_arg2 (by decide)).trans hm_6
  have hm_8 := (sRad6_keep (after sRad5 (after sRad4 (after sRad3 (after sRad2 (after sRad1 (after sRad0 (after sEnv V))))))) main_arg2 (by decide)).trans hm_7
  have hm_9 := (sGather_keep (after sRad6 (after sRad5 (after sRad4 (after sRad3 (after sRad2 (after sRad1 (after sRad0 (after sEnv V)))))))) main_arg2 (by decide)).trans hm_8
  have hm_10 := (sLeg_keep (after sGather (after sRad6 (after sRad5 (after sRad4 (after sRad3 (after sRad2 (after sRad1 (after sRad0 (after sEnv V))))))))) main_arg2 (by decide)).trans hm_9
  have hB_0 := fun e k => rad0 (after sEnv V) _ _ _ hs_1 hz_1 hn_1 e k
  have hK_0_2 : (after sRad0 (after sEnv V)) (Proc.devRef .tc main_v35) = (after sRad0 (after sEnv V)) (Proc.devRef .tc main_v35) := rfl
  have hK_0_3 := (sRad1_keep (after sRad0 (after sEnv V)) main_v35 (by decide)).trans hK_0_2
  have hK_0_4 := (sRad2_keep (after sRad1 (after sRad0 (after sEnv V))) main_v35 (by decide)).trans hK_0_3
  have hK_0_5 := (sRad3_keep (after sRad2 (after sRad1 (after sRad0 (after sEnv V)))) main_v35 (by decide)).trans hK_0_4
  have hK_0_6 := (sRad4_keep (after sRad3 (after sRad2 (after sRad1 (after sRad0 (after sEnv V))))) main_v35 (by decide)).trans hK_0_5
  have hK_0_7 := (sRad5_keep (after sRad4 (after sRad3 (after sRad2 (after sRad1 (after sRad0 (after sEnv V)))))) main_v35 (by decide)).trans hK_0_6
  have hK_0_8 := (sRad6_keep (after sRad5 (after sRad4 (after sRad3 (after sRad2 (after sRad1 (after sRad0 (after sEnv V))))))) main_v35 (by decide)).trans hK_0_7
  have hB_1 := fun e k => rad1 (after sRad0 (after sEnv V)) _ _ _ hs_2 hz_2 hn_2 e k
  have hK_1_3 : (after sRad1 (after sRad0 (after sEnv V))) (Proc.devRef .tc main_v55) = (after sRad1 (after sRad0 (after sEnv V))) (Proc.devRef .tc main_v55) := rfl
  have hK_1_4 := (sRad2_keep (after sRad1 (after sRad0 (after sEnv V))) main_v55 (by decide)).trans hK_1_3
  have hK_1_5 := (sRad3_keep (after sRad2 (after sRad1 (after sRad0 (after sEnv V)))) main_v55 (by decide)).trans hK_1_4
  have hK_1_6 := (sRad4_keep (after sRad3 (after sRad2 (after sRad1 (after sRad0 (after sEnv V))))) main_v55 (by decide)).trans hK_1_5
  have hK_1_7 := (sRad5_keep (after sRad4 (after sRad3 (after sRad2 (after sRad1 (after sRad0 (after sEnv V)))))) main_v55 (by decide)).trans hK_1_6
  have hK_1_8 := (sRad6_keep (after sRad5 (after sRad4 (after sRad3 (after sRad2 (after sRad1 (after sRad0 (after sEnv V))))))) main_v55 (by decide)).trans hK_1_7
  have hB_2 := fun e k => rad2 (after sRad1 (after sRad0 (after sEnv V))) _ _ _ hs_3 hz_3 hn_3 e k
  have hK_2_4 : (after sRad2 (after sRad1 (after sRad0 (after sEnv V)))) (Proc.devRef .tc main_v79) = (after sRad2 (after sRad1 (after sRad0 (after sEnv V)))) (Proc.devRef .tc main_v79) := rfl
  have hK_2_5 := (sRad3_keep (after sRad2 (after sRad1 (after sRad0 (after sEnv V)))) main_v79 (by decide)).trans hK_2_4
  have hK_2_6 := (sRad4_keep (after sRad3 (after sRad2 (after sRad1 (after sRad0 (after sEnv V))))) main_v79 (by decide)).trans hK_2_5
  have hK_2_7 := (sRad5_keep (after sRad4 (after sRad3 (after sRad2 (after sRad1 (after sRad0 (after sEnv V)))))) main_v79 (by decide)).trans hK_2_6
  have hK_2_8 := (sRad6_keep (after sRad5 (after sRad4 (after sRad3 (after sRad2 (after sRad1 (after sRad0 (after sEnv V))))))) main_v79 (by decide)).trans hK_2_7
  have hB_3 := fun e k => rad3 (after sRad2 (after sRad1 (after sRad0 (after sEnv V)))) _ _ _ hs_4 hz_4 hn_4 e k
  have hK_3_5 : (after sRad3 (after sRad2 (after sRad1 (after sRad0 (after sEnv V))))) (Proc.devRef .tc main_v107) = (after sRad3 (after sRad2 (after sRad1 (after sRad0 (after sEnv V))))) (Proc.devRef .tc main_v107) := rfl
  have hK_3_6 := (sRad4_keep (after sRad3 (after sRad2 (after sRad1 (after sRad0 (after sEnv V))))) main_v107 (by decide)).trans hK_3_5
  have hK_3_7 := (sRad5_keep (after sRad4 (after sRad3 (after sRad2 (after sRad1 (after sRad0 (after sEnv V)))))) main_v107 (by decide)).trans hK_3_6
  have hK_3_8 := (sRad6_keep (after sRad5 (after sRad4 (after sRad3 (after sRad2 (after sRad1 (after sRad0 (after sEnv V))))))) main_v107 (by decide)).trans hK_3_7
  have hB_4 := fun e k => rad4 (after sRad3 (after sRad2 (after sRad1 (after sRad0 (after sEnv V))))) _ _ _ hs_5 hz_5 hn_5 e k
  have hK_4_6 : (after sRad4 (after sRad3 (after sRad2 (after sRad1 (after sRad0 (after sEnv V)))))) (Proc.devRef .tc main_v139) = (after sRad4 (after sRad3 (after sRad2 (after sRad1 (after sRad0 (after sEnv V)))))) (Proc.devRef .tc main_v139) := rfl
  have hK_4_7 := (sRad5_keep (after sRad4 (after sRad3 (after sRad2 (after sRad1 (after sRad0 (after sEnv V)))))) main_v139 (by decide)).trans hK_4_6
  have hK_4_8 := (sRad6_keep (after sRad5 (after sRad4 (after sRad3 (after sRad2 (after sRad1 (after sRad0 (after sEnv V))))))) main_v139 (by decide)).trans hK_4_7
  have hB_5 := fun e k => rad5 (after sRad4 (after sRad3 (after sRad2 (after sRad1 (after sRad0 (after sEnv V)))))) _ _ _ hs_6 hz_6 hn_6 e k
  have hK_5_7 : (after sRad5 (after sRad4 (after sRad3 (after sRad2 (after sRad1 (after sRad0 (after sEnv V))))))) (Proc.devRef .tc main_v175) = (after sRad5 (after sRad4 (after sRad3 (after sRad2 (after sRad1 (after sRad0 (after sEnv V))))))) (Proc.devRef .tc main_v175) := rfl
  have hK_5_8 := (sRad6_keep (after sRad5 (after sRad4 (after sRad3 (after sRad2 (after sRad1 (after sRad0 (after sEnv V))))))) main_v175 (by decide)).trans hK_5_7
  have hB_6 := fun e k => rad6 (after sRad5 (after sRad4 (after sRad3 (after sRad2 (after sRad1 (after sRad0 (after sEnv V))))))) _ _ _ hs_7 hz_7 hn_7 e k
  have hK_6_8 : (after sRad6 (after sRad5 (after sRad4 (after sRad3 (after sRad2 (after sRad1 (after sRad0 (after sEnv V)))))))) (Proc.devRef .tc main_v215) = (after sRad6 (after sRad5 (after sRad4 (after sRad3 (after sRad2 (after sRad1 (after sRad0 (after sEnv V)))))))) (Proc.devRef .tc main_v215) := rfl
  have hG := gather_apply (after sRad6 (after sRad5 (after sRad4 (after sRad3 (after sRad2 (after sRad1 (after sRad0 (after sEnv V)))))))) _ _ _ _ _ _ _ _ _ rfl rfl rfl rfl rfl rfl rfl hev_8 hix_8 t q l k hq
  have hA := (sSbf_keep (after sLeg (after sGather (after sRad6 (after sRad5 (after sRad4 (after sRad3 (after sRad2 (after sRad1 (after sRad0 (after sEnv V)))))))))) main_v226 (by decide)).trans (sLeg_keep (after sGather (after sRad6 (after sRad5 (after sRad4 (after sRad3 (after sRad2 (after sRad1 (after sRad0 (after sEnv V))))))))) main_v226 (by decide))
  have hY_0 := fun t z => leg0 (after sGather (after sRad6 (after sRad5 (after sRad4 (after sRad3 (after sRad2 (after sRad1 (after sRad0 (after sEnv V))))))))) a ha_9 t z
  have hY_1 := fun t z => leg1 (after sGather (after sRad6 (after sRad5 (after sRad4 (after sRad3 (after sRad2 (after sRad1 (after sRad0 (after sEnv V))))))))) a ha_9 t z
  have hY_2 := fun t z => leg2 (after sGather (after sRad6 (after sRad5 (after sRad4 (after sRad3 (after sRad2 (after sRad1 (after sRad0 (after sEnv V))))))))) a ha_9 t z
  have hY_3 := fun t z => leg3 (after sGather (after sRad6 (after sRad5 (after sRad4 (after sRad3 (after sRad2 (after sRad1 (after sRad0 (after sEnv V))))))))) a ha_9 t z
  have hY_4 := fun t z => leg4 (after sGather (after sRad6 (after sRad5 (after sRad4 (after sRad3 (after sRad2 (after sRad1 (after sRad0 (after sEnv V))))))))) a ha_9 t z
  have hY_5 := fun t z => leg5 (after sGather (after sRad6 (after sRad5 (after sRad4 (after sRad3 (after sRad2 (after sRad1 (after sRad0 (after sEnv V))))))))) a ha_9 t z
  have hY_6 := fun t z => leg6 (after sGather (after sRad6 (after sRad5 (after sRad4 (after sRad3 (after sRad2 (after sRad1 (after sRad0 (after sEnv V))))))))) a ha_9 t z
  have hS := sbf_apply (after sLeg (after sGather (after sRad6 (after sRad5 (after sRad4 (after sRad3 (after sRad2 (after sRad1 (after sRad0 (after sEnv V)))))))))) _ _ _ _ _ _ _ _ rfl rfl rfl rfl rfl rfl rfl hm_10 t q l k hq
  have hL := last_eq (after sSbf (after sLeg (after sGather (after sRad6 (after sRad5 (after sRad4 (after sRad3 (after sRad2 (after sRad1 (after sRad0 (after sEnv V))))))))))) _ _ rfl rfl
  have hrad : ∀ l' : Fin 7, sel7 ((after sRad6 (after sRad5 (after sRad4 (after sRad3 (after sRad2 (after sRad1 (after sRad0 (after sEnv V)))))))) (Proc.devRef .tc main_v35)) ((after sRad6 (after sRad5 (after sRad4 (after sRad3 (after sRad2 (after sRad1 (after sRad0 (after sEnv V)))))))) (Proc.devRef .tc main_v55)) ((after sRad6 (after sRad5 (after sRad4 (after sRad3 (after sRad2 (after sRad1 (after sRad0 (after sEnv V)))))))) (Proc.devRef .tc main_v79)) ((after sRad6 (after sRad5 (after sRad4 (after sRad3 (after sRad2 (after sRad1 (after sRad0 (after sEnv V)))))))) (Proc.devRef .tc main_v107)) ((after sRad6 (after sRad5 (after sRad4 (after sRad3 (after sRad2 (after sRad1 (after sRad0 (after sEnv V)))))))) (Proc.devRef .tc main_v139)) ((after sRad6 (after sRad5 (after sRad4 (after sRad3 (after sRad2 (after sRad1 (after sRad0 (after sEnv V)))))))) (Proc.devRef .tc main_v175)) ((after sRad6 (after sRad5 (after sRad4 (after sRad3 (after sRad2 (after sRad1 (after sRad0 (after sEnv V)))))))) (Proc.devRef .tc main_v215)) l' (ix2 (row ix t) k)
      = radial l' (W (lit1 (S7x6.rowMajor (ix2 l' k)))) (scaled (d (ix1 (row ix t))) * W (lit0 (S7x6.rowMajor (ix2 l' k)))) := by
    intro l'
    match l' with
    | ⟨0, _⟩ => exact (congrFun hK_0_8 _).trans (hB_0 _ _)
    | ⟨1, _⟩ => exact (congrFun hK_1_8 _).trans (hB_1 _ _)
    | ⟨2, _⟩ => exact (congrFun hK_2_8 _).trans (hB_2 _ _)
    | ⟨3, _⟩ => exact (congrFun hK_3_8 _).trans (hB_3 _ _)
    | ⟨4, _⟩ => exact (congrFun hK_4_8 _).trans (hB_4 _ _)
    | ⟨5, _⟩ => exact (congrFun hK_5_8 _).trans (hB_5 _ _)
    | ⟨6, _⟩ => exact (congrFun hK_6_8 _).trans (hB_6 _ _)
  have hang : ∀ l' : Fin 7, sel7 ((after sLeg (after sGather (after sRad6 (after sRad5 (after sRad4 (after sRad3 (after sRad2 (after sRad1 (after sRad0 (after sEnv V)))))))))) (Proc.devRef .tc main_v283)) ((after sLeg (after sGather (after sRad6 (after sRad5 (after sRad4 (after sRad3 (after sRad2 (after sRad1 (after sRad0 (after sEnv V)))))))))) (Proc.devRef .tc main_v284)) ((after sLeg (after sGather (after sRad6 (after sRad5 (after sRad4 (after sRad3 (after sRad2 (after sRad1 (after sRad0 (after sEnv V)))))))))) (Proc.devRef .tc main_v285)) ((after sLeg (after sGather (after sRad6 (after sRad5 (after sRad4 (after sRad3 (after sRad2 (after sRad1 (after sRad0 (after sEnv V)))))))))) (Proc.devRef .tc main_v286)) ((after sLeg (after sGather (after sRad6 (after sRad5 (after sRad4 (after sRad3 (after sRad2 (after sRad1 (after sRad0 (after sEnv V)))))))))) (Proc.devRef .tc main_v287)) ((after sLeg (after sGather (after sRad6 (after sRad5 (after sRad4 (after sRad3 (after sRad2 (after sRad1 (after sRad0 (after sEnv V)))))))))) (Proc.devRef .tc main_v288)) ((after sLeg (after sGather (after sRad6 (after sRad5 (after sRad4 (after sRad3 (after sRad2 (after sRad1 (after sRad0 (after sEnv V)))))))))) (Proc.devRef .tc main_v289)) l' (ix2 t (0 : Fin 1))
      = angular l' (Ideal.cos (a (ix1 t))) := by
    intro l'
    match l' with
    | ⟨0, _⟩ => exact hY_0 t 0
    | ⟨1, _⟩ => exact hY_1 t 0
    | ⟨2, _⟩ => exact hY_2 t 0
    | ⟨3, _⟩ => exact hY_3 t 0
    | ⟨4, _⟩ => exact hY_4 t 0
    | ⟨5, _⟩ => exact hY_5 t 0
    | ⟨6, _⟩ => exact hY_6 t 0
  rw [after_ops, hL]
  beta_reduce
  rw [hA, hG, hS, hrad, hang]
  rfl

end Cert.Sbf.RefRead

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.Finite.lean ====
/-
  What the precondition gives: every distance is a real number. The precondition is the conjunction of three
  tests, one per float argument, that every entry's absolute value lies below +∞; the first conjunct is the one
  about the distances.
-/
import proofs.«178250_j83665962926262_2_alg».proof.Pre_finite_inputs
import proofs.«178250_j83665962926262_2_alg».proof.Proof.LibFiniteAll
import Idealize.ShloMosaic.Lib.Affine

noncomputable section

namespace Cert.Sbf.Finite

open Idealize.ShloMosaic

/-- Under the precondition each distance is the real number it stands for. -/
theorem dist_real [Cert.Pre_finite_inputs.Facts]
    (a0 : FVec Ideal Cert.Pre_finite_inputs.S1000000 .f32) (a1 : FVec Ideal Cert.Pre_finite_inputs.S3000000 .f32)
    (a2 : FVec Ideal Cert.Pre_finite_inputs.S3000000x1 .f32) (a3 a4 : IVec Cert.Pre_finite_inputs.S3000000 32)
    (h : Cert.Pre_finite_inputs.fn (F := Ideal) a0 a1 a2 a3 a4 = fun _ => 1#1) (i : Cert.Pre_finite_inputs.S1000000.Idx) :
    a0 i = (((a0 i).toReal : ℝ) : EReal) := by
  have h0 := congrFun h ValueIdx.ix0
  dsimp only [Cert.Pre_finite_inputs.fn] at h0
  have h1 := (IntOp.andi_eq_one.mp h0).1
  have h2 := (IntOp.andi_eq_one.mp h1).1
  exact Cert.LibFiniteAll.real_of_all a0 _ _ _ h2 i

end Cert.Sbf.Finite

end
-- ==== Proof.lean ====
/-
  The certificate's five claims.

  The three frames: the two kernel programs by their generated frame certificates; the reference, a host program,
  by its run as a list of operations, no argument being written.
  The idealization rewrote nothing, so "preserves" has nothing to state.
  The algebraic claim. The kernel gathers each triplet's scalar distance first and evaluates the layer's expression
  on the triplet axis; the reference evaluates the radial part on the edge axis and gathers rows of 42. Both
  results are read entry by entry: row T = 1000·t + p (grid point t, row p of its block), column q = 6·l + k.
  The kernel's entry is the expression of Spec.lean with the cutoff spelt by products, of the tables' entries
  (l, k), of the distance of the edge triplet T reads, and of T's angle and mask; the reference's entry is the same
  expression of the same numbers with the cutoff spelt by real powers. The precondition makes every distance a
  real number, for which the two cutoffs agree.
-/
import proofs.«178250_j83665962926262_2_alg».proof.Defs
import proofs.«178250_j83665962926262_2_alg».proof.Proof.Gen.Kernel
import proofs.«178250_j83665962926262_2_alg».proof.Proof.Gen.Kernel.Frame
import proofs.«178250_j83665962926262_2_alg».proof.Proof.Gen.KernelIdeal
import proofs.«178250_j83665962926262_2_alg».proof.Proof.Gen.KernelIdeal.Frame
import proofs.«178250_j83665962926262_2_alg».proof.Proof.Gen.KernelIdeal.Value
import proofs.«178250_j83665962926262_2_alg».proof.Proof.Gen.ReferenceIdeal
import proofs.«178250_j83665962926262_2_alg».proof.Proof.Gen.Pre_finite_inputs
import proofs.«178250_j83665962926262_2_alg».proof.Proof.Spec
import proofs.«178250_j83665962926262_2_alg».proof.Proof.RowIndex
import proofs.«178250_j83665962926262_2_alg».proof.Proof.KernelEntry
import proofs.«178250_j83665962926262_2_alg».proof.Proof.KernelArray
import proofs.«178250_j83665962926262_2_alg».proof.Proof.RefOps
import proofs.«178250_j83665962926262_2_alg».proof.Proof.RefValue
import proofs.«178250_j83665962926262_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo Cert.Sbf

/-- The two programs carry the same table of zeros, word for word. -/
theorem lit0_eq : Cert.ReferenceIdeal.lit0 = Cert.KernelIdeal.lit0 := by
  funext i; fin_cases i <;> rfl

/-- And the same table of normalizing factors. -/
theorem lit1_eq : Cert.ReferenceIdeal.lit1 = Cert.KernelIdeal.lit1 := by
  funext i; fin_cases i <;> rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c =>
    ⟨(h c Cert.ReferenceIdeal.main_arg0).trans (Cert.Sbf.RefRead.arg0_keep _),
     (h c Cert.ReferenceIdeal.main_arg1).trans (Cert.Sbf.RefRead.arg1_keep _),
     (h c Cert.ReferenceIdeal.main_arg2).trans (Cert.Sbf.RefRead.arg2_keep _),
     (h c Cert.ReferenceIdeal.main_arg3).trans (Cert.Sbf.RefRead.arg3_keep _),
     (h c Cert.ReferenceIdeal.main_arg4).trans (Cert.Sbf.RefRead.arg4_keep _)⟩)
    (Cert.ReferenceIdeal.RefOps.run (F := Ideal) m ρ)

theorem preserves : Cert.preserves_Kernel_KernelIdeal := trivial

/-- The two results agree entry by entry. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (T : Fin 3000000) (q : Fin 42) :
    after Cert.ReferenceIdeal.RefOps.ops (launchContents m' c) (Proc.devRef .tc Cert.ReferenceIdeal.main_v295) (ix2 T q)
      = (Cert.KernelIdeal.Gen.dats m 0 c).arrAt 5 Cert.KernelIdeal.cfg0.N (ix2 T q) := by
  obtain ⟨t, p, rfl⟩ : ∃ (t : Fin 3000) (p : Fin 1000), T = ⟨1000 * t.val + p.val, by omega⟩ :=
    ⟨⟨T.val / 1000, by omega⟩, ⟨T.val % 1000, by omega⟩, Fin.ext (by show T.val = 1000 * (T.val / 1000) + T.val % 1000; omega)⟩
  have hq : q.val = 6 * (⟨q.val / 6, by omega⟩ : Fin 7).val + (⟨q.val % 6, by omega⟩ : Fin 6).val := by
    show q.val = 6 * (q.val / 6) + q.val % 6; omega
  rw [Cert.Sbf.RefRead.ref_apply (launchContents m' c) _ _ _ _ h0 h1 h2 h4 _ q ⟨q.val / 6, by omega⟩ ⟨q.val % 6, by omega⟩ hq]
  rw [Cert.Sbf.KernelArray.arr_apply m c t p q,
    Cert.Sbf.KernelEntry.E5_apply _ _ _ _ _ p q ⟨q.val / 6, by omega⟩ ⟨q.val % 6, by omega⟩ hq,
    Cert.Sbf.KernelArray.tabN_apply, Cert.Sbf.KernelArray.tabZ_apply, Cert.Sbf.KernelArray.dist_apply,
    Cert.Sbf.KernelArray.angle_apply, Cert.Sbf.KernelArray.mask_apply, lit0_eq, lit1_eq]
  have hreal := Cert.Sbf.Finite.dist_real _ _ _ _ _ (hpre c) (ix1 (row (m ((c.tc : Thread Cert.KernelIdeal.nD Cert.KernelIdeal.τ).loc Cert.KernelIdeal.main_arg4)) ⟨1000 * t.val + p.val, by omega⟩))
  rw [hreal]
  exact entry_envPow_eq _ _ _ _ _ _

theorem algebraic : Cert.algebraic_KernelIdeal_ReferenceIdeal := by
  intro m ρ m' ρ' hpre hagree
  refine ⟨fun c => (Cert.KernelIdeal.Gen.dats m 0 c).arrAt 5 Cert.KernelIdeal.cfg0.N,
    Cert.KernelIdeal.Value.run_blocks (F := Ideal) m ρ, ?_⟩
  refine (θ_run Cert.ReferenceIdeal.defs _ _).mono (fun _ h c =>
    ⟨(h c Cert.ReferenceIdeal.main_v295).trans ?_,
     (h c Cert.ReferenceIdeal.main_arg0).trans (Cert.Sbf.RefRead.arg0_keep _),
     (h c Cert.ReferenceIdeal.main_arg1).trans (Cert.Sbf.RefRead.arg1_keep _),
     (h c Cert.ReferenceIdeal.main_arg2).trans (Cert.Sbf.RefRead.arg2_keep _),
     (h c Cert.ReferenceIdeal.main_arg3).trans (Cert.Sbf.RefRead.arg3_keep _),
     (h c Cert.ReferenceIdeal.main_arg4).trans (Cert.Sbf.RefRead.arg4_keep _)⟩)
    (Cert.ReferenceIdeal.RefOps.run (F := Ideal) m' ρ')
  funext i
  obtain ⟨T, q, rfl⟩ : ∃ (T : Fin 3000000) (q : Fin 42), i = ix2 T q := ⟨i 0, i 1, eq_ix2 i⟩
  exact result_eq m m' hpre c (hagree c).1 (hagree c).2.1 (hagree c).2.2.1 (hagree c).2.2.2.2 T q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
